-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097151x64 : Shape := ⟨2, ![2097151, 64]⟩
abbrev S1048576 : Shape := ⟨1, ![1048576]⟩
abbrev S64x1 : Shape := ⟨2, ![64, 1]⟩
abbrev S1 : Shape := ⟨1, ![1]⟩
abbrev S_ : Shape := ⟨0, ![]⟩

class Facts : Prop where
  bcast_S_S2097151x64 : S_.BroadcastsInDim S2097151x64 (![] : Fin 0 → Fin S2097151x64.rank)
  reducesTo_S2097151x64_S_d0_1 : S2097151x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2097151x64 .f32) (main_arg1 : FVec F S1048576 .f32) (main_arg2 : FVec F S64x1 .f32) (main_arg3 : FVec F S1 .f32) : IVec S_ 1 :=
  let main_v0 : FVec F S2097151x64 .f32 := Host.absf main_arg0
  let main_cst : FVec F S_ .f32 := constant S_ .f32 0x7F800000#32
  let main_v1 : FVec F S2097151x64 .f32 := broadcastInDim S2097151x64 ![] bcast_S_S2097151x64 main_cst
  let main_v2 : IVec S2097151x64 1 := cmpf .olt main_v0 main_v1
  let main_c : IVec S_ 1 := constantI S_ 1 1#1
  let main_v3 : IVec S_ 1 := (fun x v => Host.reduce IntOp.andi x v reducesTo_S2097151x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2097151x64 : Shape := ⟨2, ![2097151, 64]⟩
abbrev S1048576 : Shape := ⟨1, ![1048576]⟩
abbrev S64x1 : Shape := ⟨2, ![64, 1]⟩
abbrev S1 : Shape := ⟨1, ![1]⟩
abbrev S2097151 : Shape := ⟨1, ![2097151]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S524288x2 : Shape := ⟨2, ![524288, 2]⟩
abbrev S524288 : Shape := ⟨1, ![524288]⟩
abbrev S262144x2 : Shape := ⟨2, ![262144, 2]⟩
abbrev S262144 : Shape := ⟨1, ![262144]⟩
abbrev S131072x2 : Shape := ⟨2, ![131072, 2]⟩
abbrev S131072 : Shape := ⟨1, ![131072]⟩
abbrev S65536x2 : Shape := ⟨2, ![65536, 2]⟩
abbrev S65536 : Shape := ⟨1, ![65536]⟩
abbrev S32768x2 : Shape := ⟨2, ![32768, 2]⟩
abbrev S32768 : Shape := ⟨1, ![32768]⟩
abbrev S16384x2 : Shape := ⟨2, ![16384, 2]⟩
abbrev S16384 : Shape := ⟨1, ![16384]⟩
abbrev S8192x2 : Shape := ⟨2, ![8192, 2]⟩
abbrev S4096x2 : Shape := ⟨2, ![4096, 2]⟩
abbrev S4096 : Shape := ⟨1, ![4096]⟩
abbrev S2048x2 : Shape := ⟨2, ![2048, 2]⟩
abbrev S2048 : Shape := ⟨1, ![2048]⟩
abbrev S1024x2 : Shape := ⟨2, ![1024, 2]⟩
abbrev S1024 : Shape := ⟨1, ![1024]⟩
abbrev S512x2 : Shape := ⟨2, ![512, 2]⟩
abbrev S512 : Shape := ⟨1, ![512]⟩
abbrev S256x2 : Shape := ⟨2, ![256, 2]⟩
abbrev S256 : Shape := ⟨1, ![256]⟩
abbrev S128x2 : Shape := ⟨2, ![128, 2]⟩
abbrev S128 : Shape := ⟨1, ![128]⟩
abbrev S64x2 : Shape := ⟨2, ![64, 2]⟩
abbrev S64 : Shape := ⟨1, ![64]⟩
abbrev S32x2 : Shape := ⟨2, ![32, 2]⟩
abbrev S32 : Shape := ⟨1, ![32]⟩
abbrev S16x2 : Shape := ⟨2, ![16, 2]⟩
abbrev S16 : Shape := ⟨1, ![16]⟩
abbrev S8x2 : Shape := ⟨2, ![8, 2]⟩
abbrev S8 : Shape := ⟨1, ![8]⟩
abbrev S4x2 : Shape := ⟨2, ![4, 2]⟩
abbrev S4 : Shape := ⟨1, ![4]⟩
abbrev S2x2 : Shape := ⟨2, ![2, 2]⟩
abbrev S2 : Shape := ⟨1, ![2]⟩
abbrev S1x2 : Shape := ⟨2, ![1, 2]⟩

abbrev nBuf : Space → Nat
  | .hbm => 230
  | .vmem => 6
  | .smem => 0
  | _ => 0

abbrev hbmTy0_0 (i : Nat) : BufTy := match i % 128 with
  | 0 => ⟨S2097151x64, .f32⟩
  | 1 => ⟨S1048576, .f32⟩
  | 2 => ⟨S64x1, .f32⟩
  | 3 => ⟨S1, .f32⟩
  | 4 => ⟨S2097151, .f32⟩
  | 5 => ⟨S_, .f32⟩
  | 6 => ⟨S2097151, .f32⟩
  | 7 => ⟨S_, .i32⟩
  | 8 => ⟨S1, .i32⟩
  | 9 => ⟨S2097151, .f32⟩
  | 10 => ⟨S1048576, .f32⟩
  | 11 => ⟨S1048576, .f32⟩
  | 12 => ⟨S1048576, .f32⟩
  | 13 => ⟨S524288x2, .f32⟩
  | 14 => ⟨S_, .f32⟩
  | 15 => ⟨S524288, .f32⟩
  | 16 => ⟨S524288, .f32⟩
  | 17 => ⟨S524288, .f32⟩
  | 18 => ⟨S_, .i32⟩
  | 19 => ⟨S1, .i32⟩
  | 20 => ⟨S2097151, .f32⟩
  | 21 => ⟨S524288, .f32⟩
  | 22 => ⟨S524288, .f32⟩
  | 23 => ⟨S524288, .f32⟩
  | 24 => ⟨S262144x2, .f32⟩
  | 25 => ⟨S_, .f32⟩
  | 26 => ⟨S262144, .f32⟩
  | 27 => ⟨S262144, .f32⟩
  | 28 => ⟨S262144, .f32⟩
  | 29 => ⟨S_, .i32⟩
  | 30 => ⟨S1, .i32⟩
  | 31 => ⟨S2097151, .f32⟩
  | 32 => ⟨S262144, .f32⟩
  | 33 => ⟨S262144, .f32⟩
  | 34 => ⟨S262144, .f32⟩
  | 35 => ⟨S131072x2, .f32⟩
  | 36 => ⟨S_, .f32⟩
  | 37 => ⟨S131072, .f32⟩
  | 38 => ⟨S131072, .f32⟩
  | 39 => ⟨S131072, .f32⟩
  | 40 => ⟨S_, .i32⟩
  | 41 => ⟨S1, .i32⟩
  | 42 => ⟨S2097151, .f32⟩
  | 43 => ⟨S131072, .f32⟩
  | 44 => ⟨S131072, .f32⟩
  | 45 => ⟨S131072, .f32⟩
  | 46 => ⟨S65536x2, .f32⟩
  | 47 => ⟨S_, .f32⟩
  | 48 => ⟨S65536, .f32⟩
  | 49 => ⟨S65536, .f32⟩
  | 50 => ⟨S65536, .f32⟩
  | 51 => ⟨S_, .i32⟩
  | 52 => ⟨S1, .i32⟩
  | 53 => ⟨S2097151, .f32⟩
  | 54 => ⟨S65536, .f32⟩
  | 55 => ⟨S65536, .f32⟩
  | 56 => ⟨S65536, .f32⟩
  | 57 => ⟨S32768x2, .f32⟩
  | 58 => ⟨S_, .f32⟩
  | 59 => ⟨S32768, .f32⟩
  | 60 => ⟨S32768, .f32⟩
  | 61 => ⟨S32768, .f32⟩
  | 62 => ⟨S_, .i32⟩
  | 63 => ⟨S1, .i32⟩
  | 64 => ⟨S2097151, .f32⟩
  | 65 => ⟨S32768, .f32⟩
  | 66 => ⟨S32768, .f32⟩
  | 67 => ⟨S32768, .f32⟩
  | 68 => ⟨S16384x2, .f32⟩
  | 69 => ⟨S_, .f32⟩
  | 70 => ⟨S16384, .f32⟩
  | 71 => ⟨S16384, .f32⟩
  | 72 => ⟨S16384, .f32⟩
  | 73 => ⟨S_, .i32⟩
  | 74 => ⟨S1, .i32⟩
  | 75 => ⟨S2097151, .f32⟩
  | 76 => ⟨S16384, .f32⟩
  | 77 => ⟨S16384, .f32⟩
  | 78 => ⟨S16384, .f32⟩
  | 79 => ⟨S8192x2, .f32⟩
  | 80 => ⟨S_, .f32⟩
  | 81 => ⟨S8192, .f32⟩
  | 82 => ⟨S8192, .f32⟩
  | 83 => ⟨S8192, .f32⟩
  | 84 => ⟨S_, .i32⟩
  | 85 => ⟨S1, .i32⟩
  | 86 => ⟨S2097151, .f32⟩
  | 87 => ⟨S8192, .f32⟩
  | 88 => ⟨S8192, .f32⟩
  | 89 => ⟨S8192, .f32⟩
  | 90 => ⟨S4096x2, .f32⟩
  | 91 => ⟨S_, .f32⟩
  | 92 => ⟨S4096, .f32⟩
  | 93 => ⟨S4096, .f32⟩
  | 94 => ⟨S4096, .f32⟩
  | 95 => ⟨S_, .i32⟩
  | 96 => ⟨S1, .i32⟩
  | 97 => ⟨S2097151, .f32⟩
  | 98 => ⟨S4096, .f32⟩
  | 99 => ⟨S4096, .f32⟩
  | 100 => ⟨S4096, .f32⟩
  | 101 => ⟨S2048x2, .f32⟩
  | 102 => ⟨S_, .f32⟩
  | 103 => ⟨S2048, .f32⟩
  | 104 => ⟨S2048, .f32⟩
  | 105 => ⟨S2048, .f32⟩
  | 106 => ⟨S_, .i32⟩
  | 107 => ⟨S1, .i32⟩
  | 108 => ⟨S2097151, .f32⟩
  | 109 => ⟨S2048, .f32⟩
  | 110 => ⟨S2048, .f32⟩
  | 111 => ⟨S2048, .f32⟩
  | 112 => ⟨S1024x2, .f32⟩
  | 113 => ⟨S_, .f32⟩
  | 114 => ⟨S1024, .f32⟩
  | 115 => ⟨S1024, .f32⟩
  | 116 => ⟨S1024, .f32⟩
  | 117 => ⟨S_, .i32⟩
  | 118 => ⟨S1, .i32⟩
  | 119 => ⟨S2097151, .f32⟩
  | 120 => ⟨S1024, .f32⟩
  | 121 => ⟨S1024, .f32⟩
  | 122 => ⟨S1024, .f32⟩
  | 123 => ⟨S512x2, .f32⟩
  | 124 => ⟨S_, .f32⟩
  | 125 => ⟨S512, .f32⟩
  | 126 => ⟨S512, .f32⟩
  | 127 => ⟨S512, .f32⟩
  | _ => ⟨S2097151x64, .f32⟩

abbrev hbmTy0_1 (i : Nat) : BufTy := match i % 128 with
  | 0 => ⟨S_, .i32⟩
  | 1 => ⟨S1, .i32⟩
  | 2 => ⟨S2097151, .f32⟩
  | 3 => ⟨S512, .f32⟩
  | 4 => ⟨S512, .f32⟩
  | 5 => ⟨S512, .f32⟩
  | 6 => ⟨S256x2, .f32⟩
  | 7 => ⟨S_, .f32⟩
  | 8 => ⟨S256, .f32⟩
  | 9 => ⟨S256, .f32⟩
  | 10 => ⟨S256, .f32⟩
  | 11 => ⟨S_, .i32⟩
  | 12 => ⟨S1, .i32⟩
  | 13 => ⟨S2097151, .f32⟩
  | 14 => ⟨S256, .f32⟩
  | 15 => ⟨S256, .f32⟩
  | 16 => ⟨S256, .f32⟩
  | 17 => ⟨S128x2, .f32⟩
  | 18 => ⟨S_, .f32⟩
  | 19 => ⟨S128, .f32⟩
  | 20 => ⟨S128, .f32⟩
  | 21 => ⟨S128, .f32⟩
  | 22 => ⟨S_, .i32⟩
  | 23 => ⟨S1, .i32⟩
  | 24 => ⟨S2097151, .f32⟩
  | 25 => ⟨S128, .f32⟩
  | 26 => ⟨S128, .f32⟩
  | 27 => ⟨S128, .f32⟩
  | 28 => ⟨S64x2, .f32⟩
  | 29 => ⟨S_, .f32⟩
  | 30 => ⟨S64, .f32⟩
  | 31 => ⟨S64, .f32⟩
  | 32 => ⟨S64, .f32⟩
  | 33 => ⟨S_, .i32⟩
  | 34 => ⟨S1, .i32⟩
  | 35 => ⟨S2097151, .f32⟩
  | 36 => ⟨S64, .f32⟩
  | 37 => ⟨S64, .f32⟩
  | 38 => ⟨S64, .f32⟩
  | 39 => ⟨S32x2, .f32⟩
  | 40 => ⟨S_, .f32⟩
  | 41 => ⟨S32, .f32⟩
  | 42 => ⟨S32, .f32⟩
  | 43 => ⟨S32, .f32⟩
  | 44 => ⟨S_, .i32⟩
  | 45 => ⟨S1, .i32⟩
  | 46 => ⟨S2097151, .f32⟩
  | 47 => ⟨S32, .f32⟩
  | 48 => ⟨S32, .f32⟩
  | 49 => ⟨S32, .f32⟩
  | 50 => ⟨S16x2, .f32⟩
  | 51 => ⟨S_, .f32⟩
  | 52 => ⟨S16, .f32⟩
  | 53 => ⟨S16, .f32⟩
  | 54 => ⟨S16, .f32⟩
  | 55 => ⟨S_, .i32⟩
  | 56 => ⟨S1, .i32⟩
  | 57 => ⟨S2097151, .f32⟩
  | 58 => ⟨S16, .f32⟩
  | 59 => ⟨S16, .f32⟩
  | 60 => ⟨S16, .f32⟩
  | 61 => ⟨S8x2, .f32⟩
  | 62 => ⟨S_, .f32⟩
  | 63 => ⟨S8, .f32⟩
  | 64 => ⟨S8, .f32⟩
  | 65 => ⟨S8, .f32⟩
  | 66 => ⟨S_, .i32⟩
  | 67 => ⟨S1, .i32⟩
  | 68 => ⟨S2097151, .f32⟩
  | 69 => ⟨S8, .f32⟩
  | 70 => ⟨S8, .f32⟩
  | 71 => ⟨S8, .f32⟩
  | 72 => ⟨S4x2, .f32⟩
  | 73 => ⟨S_, .f32⟩
  | 74 => ⟨S4, .f32⟩
  | 75 => ⟨S4, .f32⟩
  | 76 => ⟨S4, .f32⟩
  | 77 => ⟨S_, .i32⟩
  | 78 => ⟨S1, .i32⟩
  | 79 => ⟨S2097151, .f32⟩
  | 80 => ⟨S4, .f32⟩
  | 81 => ⟨S4, .f32⟩
  | 82 => ⟨S4, .f32⟩
  | 83 => ⟨S2x2, .f32⟩
  | 84 => ⟨S_, .f32⟩
  | 85 => ⟨S2, .f32⟩
  | 86 => ⟨S2, .f32⟩
  | 87 => ⟨S2, .f32⟩
  | 88 => ⟨S_, .i32⟩
  | 89 => ⟨S1, .i32⟩
  | 90 => ⟨S2097151, .f32⟩
  | 91 => ⟨S2, .f32⟩
  | 92 => ⟨S2, .f32⟩
  | 93 => ⟨S2, .f32⟩
  | 94 => ⟨S1x2, .f32⟩
  | 95 => ⟨S_, .f32⟩
  | 96 => ⟨S1, .f32⟩
  | 97 => ⟨S1, .f32⟩
  | 98 => ⟨S1, .f32⟩
  | 99 => ⟨S_, .i32⟩
  | 100 => ⟨S1, .i32⟩
  | 101 => ⟨S2097151, .f32⟩
  | _ => ⟨S2097151x64, .f32⟩

abbrev hbmTy (i : Nat) : BufTy := match i / 128 with
  | 0 => hbmTy0_0 i
  | 1 => hbmTy0_1 i
  | _ => ⟨S2097151x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S64x1, .f32⟩
  | .local _ .vmem, ⟨3, _⟩ => ⟨S1, .f32⟩
  | .local _ .vmem, ⟨4, _⟩ => ⟨S8192, .f32⟩
  | .local _ .vmem, ⟨5, _⟩ => ⟨S8192, .f32⟩
  | _, _ => ⟨S2097151x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_19 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_20 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_21 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_22 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c_23 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_24 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_25 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_26 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_27 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_28 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_c_29 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_30 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_c_31 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_32 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_c_33 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_34 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_c_35 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_36 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_c_37 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_38 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_39 : Ref sig .tc := ⟨.hbm, 227, rfl⟩
abbrev main_v182 : Ref sig .tc := ⟨.hbm, 228, rfl⟩
abbrev main_v183 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  inpos_S1_p0 : ∀ a, (![0] : Fin 1 → Nat) a < S1.size a
  shapeCasts_S8192x1_S8192 : S8192x1.ShapeCasts S8192
  inb_S8192_S8192_0 : ∀ a, (![0] : Fin 1 → Nat) a + S8192.size a ≤ S8192.size a
  h_S8192 : 0 < S8192.numel
  bcast_S_S2097151 : S_.BroadcastsInDim S2097151 (![] : Fin 0 → Fin S2097151.rank)
  bcast_S_S1 : S_.BroadcastsInDim S1 (![] : Fin 0 → Fin S1.rank)
  slices_S2097151_S1048576_1048575 : S2097151.Slices ![1048575] S1048576
  shapeCasts_S1048576_S524288x2 : S1048576.ShapeCasts S524288x2
  reducesTo_S524288x2_S524288_d1 : S524288x2.ReducesTo [1] S524288
  h_S_ : 0 < S_.numel
  slices_S2097151_S524288_524287 : S2097151.Slices ![524287] S524288
  shapeCasts_S524288_S262144x2 : S524288.ShapeCasts S262144x2
  reducesTo_S262144x2_S262144_d1 : S262144x2.ReducesTo [1] S262144
  slices_S2097151_S262144_262143 : S2097151.Slices ![262143] S262144
  shapeCasts_S262144_S131072x2 : S262144.ShapeCasts S131072x2
  reducesTo_S131072x2_S131072_d1 : S131072x2.ReducesTo [1] S131072
  slices_S2097151_S131072_131071 : S2097151.Slices ![131071] S131072
  shapeCasts_S131072_S65536x2 : S131072.ShapeCasts S65536x2
  reducesTo_S65536x2_S65536_d1 : S65536x2.ReducesTo [1] S65536
  slices_S2097151_S65536_65535 : S2097151.Slices ![65535] S65536
  shapeCasts_S65536_S32768x2 : S65536.ShapeCasts S32768x2
  reducesTo_S32768x2_S32768_d1 : S32768x2.ReducesTo [1] S32768
  slices_S2097151_S32768_32767 : S2097151.Slices ![32767] S32768
  shapeCasts_S32768_S16384x2 : S32768.ShapeCasts S16384x2
  reducesTo_S16384x2_S16384_d1 : S16384x2.ReducesTo [1] S16384
  slices_S2097151_S16384_16383 : S2097151.Slices ![16383] S16384
  shapeCasts_S16384_S8192x2 : S16384.ShapeCasts S8192x2
  reducesTo_S8192x2_S8192_d1 : S8192x2.ReducesTo [1] S8192
  slices_S2097151_S8192_8191 : S2097151.Slices ![8191] S8192
  shapeCasts_S8192_S4096x2 : S8192.ShapeCasts S4096x2
  reducesTo_S4096x2_S4096_d1 : S4096x2.ReducesTo [1] S4096
  slices_S2097151_S4096_4095 : S2097151.Slices ![4095] S4096
  shapeCasts_S4096_S2048x2 : S4096.ShapeCasts S2048x2
  reducesTo_S2048x2_S2048_d1 : S2048x2.ReducesTo [1] S2048
  slices_S2097151_S2048_2047 : S2097151.Slices ![2047] S2048
  shapeCasts_S2048_S1024x2 : S2048.ShapeCasts S1024x2
  reducesTo_S1024x2_S1024_d1 : S1024x2.ReducesTo [1] S1024
  slices_S2097151_S1024_1023 : S2097151.Slices ![1023] S1024
  shapeCasts_S1024_S512x2 : S1024.ShapeCasts S512x2
  reducesTo_S512x2_S512_d1 : S512x2.ReducesTo [1] S512
  slices_S2097151_S512_511 : S2097151.Slices ![511] S512
  shapeCasts_S512_S256x2 : S512.ShapeCasts S256x2
  reducesTo_S256x2_S256_d1 : S256x2.ReducesTo [1] S256
  slices_S2097151_S256_255 : S2097151.Slices ![255] S256
  shapeCasts_S256_S128x2 : S256.ShapeCasts S128x2
  reducesTo_S128x2_S128_d1 : S128x2.ReducesTo [1] S128
  slices_S2097151_S128_127 : S2097151.Slices ![127] S128
  shapeCasts_S128_S64x2 : S128.ShapeCasts S64x2
  reducesTo_S64x2_S64_d1 : S64x2.ReducesTo [1] S64
  slices_S2097151_S64_63 : S2097151.Slices ![63] S64
  shapeCasts_S64_S32x2 : S64.ShapeCasts S32x2
  reducesTo_S32x2_S32_d1 : S32x2.ReducesTo [1] S32
  slices_S2097151_S32_31 : S2097151.Slices ![31] S32
  shapeCasts_S32_S16x2 : S32.ShapeCasts S16x2
  reducesTo_S16x2_S16_d1 : S16x2.ReducesTo [1] S16
  slices_S2097151_S16_15 : S2097151.Slices ![15] S16
  shapeCasts_S16_S8x2 : S16.ShapeCasts S8x2
  reducesTo_S8x2_S8_d1 : S8x2.ReducesTo [1] S8
  slices_S2097151_S8_7 : S2097151.Slices ![7] S8
  shapeCasts_S8_S4x2 : S8.ShapeCasts S4x2
  reducesTo_S4x2_S4_d1 : S4x2.ReducesTo [1] S4
  slices_S2097151_S4_3 : S2097151.Slices ![3] S4
  shapeCasts_S4_S2x2 : S4.ShapeCasts S2x2
  reducesTo_S2x2_S2_d1 : S2x2.ReducesTo [1] S2
  slices_S2097151_S2_1 : S2097151.Slices ![1] S2
  shapeCasts_S2_S1x2 : S2.ShapeCasts S1x2
  reducesTo_S1x2_S1_d1 : S1x2.ReducesTo [1] S1
  slices_S2097151_S1_0 : S2097151.Slices ![0] S1
  dot_S8192x64_S64x1_S8192x1_1_0_0_1_n_n_wf : DotDims.WF S8192x64 S64x1 S8192x1 [1] [0] [0] [1] [] []
  scatter_S2097151_S1_S1048576_0_n_0_0_wf : ScatterDims.WF S2097151 S1 S1048576 [0] [] [0] 0
  scatter_S2097151_S1_S524288_0_n_0_0_wf : ScatterDims.WF S2097151 S1 S524288 [0] [] [0] 0
  scatter_S2097151_S1_S262144_0_n_0_0_wf : ScatterDims.WF S2097151 S1 S262144 [0] [] [0] 0
  scatter_S2097151_S1_S131072_0_n_0_0_wf : ScatterDims.WF S2097151 S1 S131072 [0] [] [0] 0
  scatter_S2097151_S1_S65536_0_n_0_0_wf : ScatterDims.WF S2097151 S1 S65536 [0] [] [0] 0
  scatter_S2097151_S1_S32768_0_n_0_0_wf : ScatterDims.WF S2097151 S1 S32768 [0] [] [0] 0
  scatter_S2097151_S1_S16384_0_n_0_0_wf : ScatterDims.WF S2097151 S1 S16384 [0] [] [0] 0
  scatter_S2097151_S1_S8192_0_n_0_0_wf : ScatterDims.WF S2097151 S1 S8192 [0] [] [0] 0
  scatter_S2097151_S1_S4096_0_n_0_0_wf : ScatterDims.WF S2097151 S1 S4096 [0] [] [0] 0
  scatter_S2097151_S1_S2048_0_n_0_0_wf : ScatterDims.WF S2097151 S1 S2048 [0] [] [0] 0
  scatter_S2097151_S1_S1024_0_n_0_0_wf : ScatterDims.WF S2097151 S1 S1024 [0] [] [0] 0
  scatter_S2097151_S1_S512_0_n_0_0_wf : ScatterDims.WF S2097151 S1 S512 [0] [] [0] 0
  scatter_S2097151_S1_S256_0_n_0_0_wf : ScatterDims.WF S2097151 S1 S256 [0] [] [0] 0
  scatter_S2097151_S1_S128_0_n_0_0_wf : ScatterDims.WF S2097151 S1 S128 [0] [] [0] 0
  scatter_S2097151_S1_S64_0_n_0_0_wf : ScatterDims.WF S2097151 S1 S64 [0] [] [0] 0
  scatter_S2097151_S1_S32_0_n_0_0_wf : ScatterDims.WF S2097151 S1 S32 [0] [] [0] 0
  scatter_S2097151_S1_S16_0_n_0_0_wf : ScatterDims.WF S2097151 S1 S16 [0] [] [0] 0
  scatter_S2097151_S1_S8_0_n_0_0_wf : ScatterDims.WF S2097151 S1 S8 [0] [] [0] 0
  scatter_S2097151_S1_S4_0_n_0_0_wf : ScatterDims.WF S2097151 S1 S4 [0] [] [0] 0
  scatter_S2097151_S1_S2_0_n_0_0_wf : ScatterDims.WF S2097151 S1 S2 [0] [] [0] 0
  scatter_S2097151_S1_S1_0_n_0_0_wf : ScatterDims.WF S2097151 S1 S1 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S2097151x64.size a
  hwx0_0 : ∀ i : grid0.Coords, EltTy.bits .f32 = 32 ∨ (Rect.unit (s := S2097151x64) (fun a => cc0_transform_0 i a * S8192x64.size a) (fun a => (Pipeline.Clip.of (cc0_transform_0 i a) (S8192x64.size a) (S2097151x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S2097151x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192.size a < S2097151.size a
  hwx0_3 : ∀ i : grid0.Coords, EltTy.bits .f32 = 32 ∨ (Rect.unit (s := S2097151) (fun a => cc0_transform_3 i a * S8192.size a) (fun a => (Pipeline.Clip.of (cc0_transform_3 i a) (S8192.size a) (S2097151.size a)).extent (S8192.size a)) fun a => Pipeline.Clip.inb (Pipeline.Clip.ok_of (hstart0_3 i a))).WholeWords (EltTy.packing .f32)
  hwxs0_3 : ∀ i : grid0.Coords, EltTy.bits .f32 = 32 ∨ (Rect.unit (s := S8192) (fun _ => 0) (fun a => (Pipeline.Clip.of (cc0_transform_3 i a) (S8192.size a) (S2097151.size a)).extent (S8192.size a)) fun a => (Nat.zero_add _).trans_le (Pipeline.Clip.extent_le (Pipeline.Clip.ok_of (hstart0_3 i a)))).WholeWords (EltTy.packing .f32)

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def scatter_S2097151_S1_S1048576_0_n_0_0 : ScatterDims S2097151 S1 S1048576 where
  updateWindowDims := [0]
  insertedWindowDims := []
  scatterDimsToOperandDims := [0]
  indexVectorDim := 0
  wf := scatter_S2097151_S1_S1048576_0_n_0_0_wf
def scatter_S2097151_S1_S524288_0_n_0_0 : ScatterDims S2097151 S1 S524288 where
  updateWindowDims := [0]
  insertedWindowDims := []
  scatterDimsToOperandDims := [0]
  indexVectorDim := 0
  wf := scatter_S2097151_S1_S524288_0_n_0_0_wf
def scatter_S2097151_S1_S262144_0_n_0_0 : ScatterDims S2097151 S1 S262144 where
  updateWindowDims := [0]
  insertedWindowDims := []
  scatterDimsToOperandDims := [0]
  indexVectorDim := 0
  wf := scatter_S2097151_S1_S262144_0_n_0_0_wf
def scatter_S2097151_S1_S131072_0_n_0_0 : ScatterDims S2097151 S1 S131072 where
  updateWindowDims := [0]
  insertedWindowDims := []
  scatterDimsToOperandDims := [0]
  indexVectorDim := 0
  wf := scatter_S2097151_S1_S131072_0_n_0_0_wf
def scatter_S2097151_S1_S65536_0_n_0_0 : ScatterDims S2097151 S1 S65536 where
  updateWindowDims := [0]
  insertedWindowDims := []
  scatterDimsToOperandDims := [0]
  indexVectorDim := 0
  wf := scatter_S2097151_S1_S65536_0_n_0_0_wf
def scatter_S2097151_S1_S32768_0_n_0_0 : ScatterDims S2097151 S1 S32768 where
  updateWindowDims := [0]
  insertedWindowDims := []
  scatterDimsToOperandDims := [0]
  indexVectorDim := 0
  wf := scatter_S2097151_S1_S32768_0_n_0_0_wf
def scatter_S2097151_S1_S16384_0_n_0_0 : ScatterDims S2097151 S1 S16384 where
  updateWindowDims := [0]
  insertedWindowDims := []
  scatterDimsToOperandDims := [0]
  indexVectorDim := 0
  wf := scatter_S2097151_S1_S16384_0_n_0_0_wf
def scatter_S2097151_S1_S8192_0_n_0_0 : ScatterDims S2097151 S1 S8192 where
  updateWindowDims := [0]
  insertedWindowDims := []
  scatterDimsToOperandDims := [0]
  indexVectorDim := 0
  wf := scatter_S2097151_S1_S8192_0_n_0_0_wf
def scatter_S2097151_S1_S4096_0_n_0_0 : ScatterDims S2097151 S1 S4096 where
  updateWindowDims := [0]
  insertedWindowDims := []
  scatterDimsToOperandDims := [0]
  indexVectorDim := 0
  wf := scatter_S2097151_S1_S4096_0_n_0_0_wf
def scatter_S2097151_S1_S2048_0_n_0_0 : ScatterDims S2097151 S1 S2048 where
  updateWindowDims := [0]
  insertedWindowDims := []
  scatterDimsToOperandDims := [0]
  indexVectorDim := 0
  wf := scatter_S2097151_S1_S2048_0_n_0_0_wf
def scatter_S2097151_S1_S1024_0_n_0_0 : ScatterDims S2097151 S1 S1024 where
  updateWindowDims := [0]
  insertedWindowDims := []
  scatterDimsToOperandDims := [0]
  indexVectorDim := 0
  wf := scatter_S2097151_S1_S1024_0_n_0_0_wf
def scatter_S2097151_S1_S512_0_n_0_0 : ScatterDims S2097151 S1 S512 where
  updateWindowDims := [0]
  insertedWindowDims := []
  scatterDimsToOperandDims := [0]
  indexVectorDim := 0
  wf := scatter_S2097151_S1_S512_0_n_0_0_wf
def scatter_S2097151_S1_S256_0_n_0_0 : ScatterDims S2097151 S1 S256 where
  updateWindowDims := [0]
  insertedWindowDims := []
  scatterDimsToOperandDims := [0]
  indexVectorDim := 0
  wf := scatter_S2097151_S1_S256_0_n_0_0_wf
def scatter_S2097151_S1_S128_0_n_0_0 : ScatterDims S2097151 S1 S128 where
  updateWindowDims := [0]
  insertedWindowDims := []
  scatterDimsToOperandDims := [0]
  indexVectorDim := 0
  wf := scatter_S2097151_S1_S128_0_n_0_0_wf
def scatter_S2097151_S1_S64_0_n_0_0 : ScatterDims S2097151 S1 S64 where
  updateWindowDims := [0]
  insertedWindowDims := []
  scatterDimsToOperandDims := [0]
  indexVectorDim := 0
  wf := scatter_S2097151_S1_S64_0_n_0_0_wf
def scatter_S2097151_S1_S32_0_n_0_0 : ScatterDims S2097151 S1 S32 where
  updateWindowDims := [0]
  insertedWindowDims := []
  scatterDimsToOperandDims := [0]
  indexVectorDim := 0
  wf := scatter_S2097151_S1_S32_0_n_0_0_wf
def scatter_S2097151_S1_S16_0_n_0_0 : ScatterDims S2097151 S1 S16 where
  updateWindowDims := [0]
  insertedWindowDims := []
  scatterDimsToOperandDims := [0]
  indexVectorDim := 0
  wf := scatter_S2097151_S1_S16_0_n_0_0_wf
def scatter_S2097151_S1_S8_0_n_0_0 : ScatterDims S2097151 S1 S8 where
  updateWindowDims := [0]
  insertedWindowDims := []
  scatterDimsToOperandDims := [0]
  indexVectorDim := 0
  wf := scatter_S2097151_S1_S8_0_n_0_0_wf
def scatter_S2097151_S1_S4_0_n_0_0 : ScatterDims S2097151 S1 S4 where
  updateWindowDims := [0]
  insertedWindowDims := []
  scatterDimsToOperandDims := [0]
  indexVectorDim := 0
  wf := scatter_S2097151_S1_S4_0_n_0_0_wf
def scatter_S2097151_S1_S2_0_n_0_0 : ScatterDims S2097151 S1 S2 where
  updateWindowDims := [0]
  insertedWindowDims := []
  scatterDimsToOperandDims := [0]
  indexVectorDim := 0
  wf := scatter_S2097151_S1_S2_0_n_0_0_wf
def scatter_S2097151_S1_S1_0_n_0_0 : ScatterDims S2097151 S1 S1 where
  updateWindowDims := [0]
  insertedWindowDims := []
  scatterDimsToOperandDims := [0]
  indexVectorDim := 0
  wf := scatter_S2097151_S1_S1_0_n_0_0_wf

abbrev win0_0 : Pipeline.Window sig grid0 :=
  Pipeline.Window.ofSpecClip (Memref.whole main_arg0) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097151x64 : Shape := ⟨2, ![2097151, 64]⟩
abbrev S1048576 : Shape := ⟨1, ![1048576]⟩
abbrev S64x1 : Shape := ⟨2, ![64, 1]⟩
abbrev S1 : Shape := ⟨1, ![1]⟩
abbrev S2097151x1 : Shape := ⟨2, ![2097151, 1]⟩
abbrev S1x1 : Shape := ⟨2, ![1, 1]⟩
abbrev S2097151 : Shape := ⟨1, ![2097151]⟩
abbrev S_ : Shape := ⟨0, ![]⟩
abbrev S524288x2 : Shape := ⟨2, ![524288, 2]⟩
abbrev S524288 : Shape := ⟨1, ![524288]⟩
abbrev S262144x2 : Shape := ⟨2, ![262144, 2]⟩
abbrev S262144 : Shape := ⟨1, ![262144]⟩
abbrev S131072x2 : Shape := ⟨2, ![131072, 2]⟩
abbrev S131072 : Shape := ⟨1, ![131072]⟩
abbrev S65536x2 : Shape := ⟨2, ![65536, 2]⟩
abbrev S65536 : Shape := ⟨1, ![65536]⟩
abbrev S32768x2 : Shape := ⟨2, ![32768, 2]⟩
abbrev S32768 : Shape := ⟨1, ![32768]⟩
abbrev S16384x2 : Shape := ⟨2, ![16384, 2]⟩
abbrev S16384 : Shape := ⟨1, ![16384]⟩
abbrev S8192x2 : Shape := ⟨2, ![8192, 2]⟩
abbrev S8192 : Shape := ⟨1, ![8192]⟩
abbrev S4096x2 : Shape := ⟨2, ![4096, 2]⟩
abbrev S4096 : Shape := ⟨1, ![4096]⟩
abbrev S2048x2 : Shape := ⟨2, ![2048, 2]⟩
abbrev S2048 : Shape := ⟨1, ![2048]⟩
abbrev S1024x2 : Shape := ⟨2, ![1024, 2]⟩
abbrev S1024 : Shape := ⟨1, ![1024]⟩
abbrev S512x2 : Shape := ⟨2, ![512, 2]⟩
abbrev S512 : Shape := ⟨1, ![512]⟩
abbrev S256x2 : Shape := ⟨2, ![256, 2]⟩
abbrev S256 : Shape := ⟨1, ![256]⟩
abbrev S128x2 : Shape := ⟨2, ![128, 2]⟩
abbrev S128 : Shape := ⟨1, ![128]⟩
abbrev S64x2 : Shape := ⟨2, ![64, 2]⟩
abbrev S64 : Shape := ⟨1, ![64]⟩
abbrev S32x2 : Shape := ⟨2, ![32, 2]⟩
abbrev S32 : Shape := ⟨1, ![32]⟩
abbrev S16x2 : Shape := ⟨2, ![16, 2]⟩
abbrev S16 : Shape := ⟨1, ![16]⟩
abbrev S8x2 : Shape := ⟨2, ![8, 2]⟩
abbrev S8 : Shape := ⟨1, ![8]⟩
abbrev S4x2 : Shape := ⟨2, ![4, 2]⟩
abbrev S4 : Shape := ⟨1, ![4]⟩
abbrev S2x2 : Shape := ⟨2, ![2, 2]⟩
abbrev S2 : Shape := ⟨1, ![2]⟩
abbrev S1x2 : Shape := ⟨2, ![1, 2]⟩

abbrev nBuf : Space → Nat
  | .hbm => 241
  | .vmem => 0
  | .smem => 0
  | _ => 0

abbrev hbmTy0_0 (i : Nat) : BufTy := match i % 128 with
  | 0 => ⟨S2097151x64, .f32⟩
  | 1 => ⟨S1048576, .f32⟩
  | 2 => ⟨S64x1, .f32⟩
  | 3 => ⟨S1, .f32⟩
  | 4 => ⟨S2097151x1, .f32⟩
  | 5 => ⟨S1x1, .f32⟩
  | 6 => ⟨S2097151x1, .f32⟩
  | 7 => ⟨S2097151x1, .f32⟩
  | 8 => ⟨S2097151x1, .f32⟩
  | 9 => ⟨S2097151, .f32⟩
  | 10 => ⟨S_, .f32⟩
  | 11 => ⟨S2097151, .f32⟩
  | 12 => ⟨S2097151, .f32⟩
  | 13 => ⟨S_, .f32⟩
  | 14 => ⟨S2097151, .f32⟩
  | 15 => ⟨S2097151, .f32⟩
  | 16 => ⟨S_, .f32⟩
  | 17 => ⟨S2097151, .f32⟩
  | 18 => ⟨S_, .i32⟩
  | 19 => ⟨S1, .i32⟩
  | 20 => ⟨S2097151, .f32⟩
  | 21 => ⟨S1048576, .f32⟩
  | 22 => ⟨S1048576, .f32⟩
  | 23 => ⟨S1048576, .f32⟩
  | 24 => ⟨S524288x2, .f32⟩
  | 25 => ⟨S_, .f32⟩
  | 26 => ⟨S524288, .f32⟩
  | 27 => ⟨S524288, .f32⟩
  | 28 => ⟨S524288, .f32⟩
  | 29 => ⟨S_, .i32⟩
  | 30 => ⟨S1, .i32⟩
  | 31 => ⟨S2097151, .f32⟩
  | 32 => ⟨S524288, .f32⟩
  | 33 => ⟨S524288, .f32⟩
  | 34 => ⟨S524288, .f32⟩
  | 35 => ⟨S262144x2, .f32⟩
  | 36 => ⟨S_, .f32⟩
  | 37 => ⟨S262144, .f32⟩
  | 38 => ⟨S262144, .f32⟩
  | 39 => ⟨S262144, .f32⟩
  | 40 => ⟨S_, .i32⟩
  | 41 => ⟨S1, .i32⟩
  | 42 => ⟨S2097151, .f32⟩
  | 43 => ⟨S262144, .f32⟩
  | 44 => ⟨S262144, .f32⟩
  | 45 => ⟨S262144, .f32⟩
  | 46 => ⟨S131072x2, .f32⟩
  | 47 => ⟨S_, .f32⟩
  | 48 => ⟨S131072, .f32⟩
  | 49 => ⟨S131072, .f32⟩
  | 50 => ⟨S131072, .f32⟩
  | 51 => ⟨S_, .i32⟩
  | 52 => ⟨S1, .i32⟩
  | 53 => ⟨S2097151, .f32⟩
  | 54 => ⟨S131072, .f32⟩
  | 55 => ⟨S131072, .f32⟩
  | 56 => ⟨S131072, .f32⟩
  | 57 => ⟨S65536x2, .f32⟩
  | 58 => ⟨S_, .f32⟩
  | 59 => ⟨S65536, .f32⟩
  | 60 => ⟨S65536, .f32⟩
  | 61 => ⟨S65536, .f32⟩
  | 62 => ⟨S_, .i32⟩
  | 63 => ⟨S1, .i32⟩
  | 64 => ⟨S2097151, .f32⟩
  | 65 => ⟨S65536, .f32⟩
  | 66 => ⟨S65536, .f32⟩
  | 67 => ⟨S65536, .f32⟩
  | 68 => ⟨S32768x2, .f32⟩
  | 69 => ⟨S_, .f32⟩
  | 70 => ⟨S32768, .f32⟩
  | 71 => ⟨S32768, .f32⟩
  | 72 => ⟨S32768, .f32⟩
  | 73 => ⟨S_, .i32⟩
  | 74 => ⟨S1, .i32⟩
  | 75 => ⟨S2097151, .f32⟩
  | 76 => ⟨S32768, .f32⟩
  | 77 => ⟨S32768, .f32⟩
  | 78 => ⟨S32768, .f32⟩
  | 79 => ⟨S16384x2, .f32⟩
  | 80 => ⟨S_, .f32⟩
  | 81 => ⟨S16384, .f32⟩
  | 82 => ⟨S16384, .f32⟩
  | 83 => ⟨S16384, .f32⟩
  | 84 => ⟨S_, .i32⟩
  | 85 => ⟨S1, .i32⟩
  | 86 => ⟨S2097151, .f32⟩
  | 87 => ⟨S16384, .f32⟩
  | 88 => ⟨S16384, .f32⟩
  | 89 => ⟨S16384, .f32⟩
  | 90 => ⟨S8192x2, .f32⟩
  | 91 => ⟨S_, .f32⟩
  | 92 => ⟨S8192, .f32⟩
  | 93 => ⟨S8192, .f32⟩
  | 94 => ⟨S8192, .f32⟩
  | 95 => ⟨S_, .i32⟩
  | 96 => ⟨S1, .i32⟩
  | 97 => ⟨S2097151, .f32⟩
  | 98 => ⟨S8192, .f32⟩
  | 99 => ⟨S8192, .f32⟩
  | 100 => ⟨S8192, .f32⟩
  | 101 => ⟨S4096x2, .f32⟩
  | 102 => ⟨S_, .f32⟩
  | 103 => ⟨S4096, .f32⟩
  | 104 => ⟨S4096, .f32⟩
  | 105 => ⟨S4096, .f32⟩
  | 106 => ⟨S_, .i32⟩
  | 107 => ⟨S1, .i32⟩
  | 108 => ⟨S2097151, .f32⟩
  | 109 => ⟨S4096, .f32⟩
  | 110 => ⟨S4096, .f32⟩
  | 111 => ⟨S4096, .f32⟩
  | 112 => ⟨S2048x2, .f32⟩
  | 113 => ⟨S_, .f32⟩
  | 114 => ⟨S2048, .f32⟩
  | 115 => ⟨S2048, .f32⟩
  | 116 => ⟨S2048, .f32⟩
  | 117 => ⟨S_, .i32⟩
  | 118 => ⟨S1, .i32⟩
  | 119 => ⟨S2097151, .f32⟩
  | 120 => ⟨S2048, .f32⟩
  | 121 => ⟨S2048, .f32⟩
  | 122 => ⟨S2048, .f32⟩
  | 123 => ⟨S1024x2, .f32⟩
  | 124 => ⟨S_, .f32⟩
  | 125 => ⟨S1024, .f32⟩
  | 126 => ⟨S1024, .f32⟩
  | 127 => ⟨S1024, .f32⟩
  | _ => ⟨S2097151x64, .f32⟩

abbrev hbmTy0_1 (i : Nat) : BufTy := match i % 128 with
  | 0 => ⟨S_, .i32⟩
  | 1 => ⟨S1, .i32⟩
  | 2 => ⟨S2097151, .f32⟩
  | 3 => ⟨S1024, .f32⟩
  | 4 => ⟨S1024, .f32⟩
  | 5 => ⟨S1024, .f32⟩
  | 6 => ⟨S512x2, .f32⟩
  | 7 => ⟨S_, .f32⟩
  | 8 => ⟨S512, .f32⟩
  | 9 => ⟨S512, .f32⟩
  | 10 => ⟨S512, .f32⟩
  | 11 => ⟨S_, .i32⟩
  | 12 => ⟨S1, .i32⟩
  | 13 => ⟨S2097151, .f32⟩
  | 14 => ⟨S512, .f32⟩
  | 15 => ⟨S512, .f32⟩
  | 16 => ⟨S512, .f32⟩
  | 17 => ⟨S256x2, .f32⟩
  | 18 => ⟨S_, .f32⟩
  | 19 => ⟨S256, .f32⟩
  | 20 => ⟨S256, .f32⟩
  | 21 => ⟨S256, .f32⟩
  | 22 => ⟨S_, .i32⟩
  | 23 => ⟨S1, .i32⟩
  | 24 => ⟨S2097151, .f32⟩
  | 25 => ⟨S256, .f32⟩
  | 26 => ⟨S256, .f32⟩
  | 27 => ⟨S256, .f32⟩
  | 28 => ⟨S128x2, .f32⟩
  | 29 => ⟨S_, .f32⟩
  | 30 => ⟨S128, .f32⟩
  | 31 => ⟨S128, .f32⟩
  | 32 => ⟨S128, .f32⟩
  | 33 => ⟨S_, .i32⟩
  | 34 => ⟨S1, .i32⟩
  | 35 => ⟨S2097151, .f32⟩
  | 36 => ⟨S128, .f32⟩
  | 37 => ⟨S128, .f32⟩
  | 38 => ⟨S128, .f32⟩
  | 39 => ⟨S64x2, .f32⟩
  | 40 => ⟨S_, .f32⟩
  | 41 => ⟨S64, .f32⟩
  | 42 => ⟨S64, .f32⟩
  | 43 => ⟨S64, .f32⟩
  | 44 => ⟨S_, .i32⟩
  | 45 => ⟨S1, .i32⟩
  | 46 => ⟨S2097151, .f32⟩
  | 47 => ⟨S64, .f32⟩
  | 48 => ⟨S64, .f32⟩
  | 49 => ⟨S64, .f32⟩
  | 50 => ⟨S32x2, .f32⟩
  | 51 => ⟨S_, .f32⟩
  | 52 => ⟨S32, .f32⟩
  | 53 => ⟨S32, .f32⟩
  | 54 => ⟨S32, .f32⟩
  | 55 => ⟨S_, .i32⟩
  | 56 => ⟨S1, .i32⟩
  | 57 => ⟨S2097151, .f32⟩
  | 58 => ⟨S32, .f32⟩
  | 59 => ⟨S32, .f32⟩
  | 60 => ⟨S32, .f32⟩
  | 61 => ⟨S16x2, .f32⟩
  | 62 => ⟨S_, .f32⟩
  | 63 => ⟨S16, .f32⟩
  | 64 => ⟨S16, .f32⟩
  | 65 => ⟨S16, .f32⟩
  | 66 => ⟨S_, .i32⟩
  | 67 => ⟨S1, .i32⟩
  | 68 => ⟨S2097151, .f32⟩
  | 69 => ⟨S16, .f32⟩
  | 70 => ⟨S16, .f32⟩
  | 71 => ⟨S16, .f32⟩
  | 72 => ⟨S8x2, .f32⟩
  | 73 => ⟨S_, .f32⟩
  | 74 => ⟨S8, .f32⟩
  | 75 => ⟨S8, .f32⟩
  | 76 => ⟨S8, .f32⟩
  | 77 => ⟨S_, .i32⟩
  | 78 => ⟨S1, .i32⟩
  | 79 => ⟨S2097151, .f32⟩
  | 80 => ⟨S8, .f32⟩
  | 81 => ⟨S8, .f32⟩
  | 82 => ⟨S8, .f32⟩
  | 83 => ⟨S4x2, .f32⟩
  | 84 => ⟨S_, .f32⟩
  | 85 => ⟨S4, .f32⟩
  | 86 => ⟨S4, .f32⟩
  | 87 => ⟨S4, .f32⟩
  | 88 => ⟨S_, .i32⟩
  | 89 => ⟨S1, .i32⟩
  | 90 => ⟨S2097151, .f32⟩
  | 91 => ⟨S4, .f32⟩
  | 92 => ⟨S4, .f32⟩
  | 93 => ⟨S4, .f32⟩
  | 94 => ⟨S2x2, .f32⟩
  | 95 => ⟨S_, .f32⟩
  | 96 => ⟨S2, .f32⟩
  | 97 => ⟨S2, .f32⟩
  | 98 => ⟨S2, .f32⟩
  | 99 => ⟨S_, .i32⟩
  | 100 => ⟨S1, .i32⟩
  | 101 => ⟨S2097151, .f32⟩
  | 102 => ⟨S2, .f32⟩
  | 103 => ⟨S2, .f32⟩
  | 104 => ⟨S2, .f32⟩
  | 105 => ⟨S1x2, .f32⟩
  | 106 => ⟨S_, .f32⟩
  | 107 => ⟨S1, .f32⟩
  | 108 => ⟨S1, .f32⟩
  | 109 => ⟨S1, .f32⟩
  | 110 => ⟨S_, .i32⟩
  | 111 => ⟨S1, .i32⟩
  | 112 => ⟨S2097151, .f32⟩
  | _ => ⟨S2097151x64, .f32⟩

abbrev hbmTy (i : Nat) : BufTy := match i / 128 with
  | 0 => hbmTy0_0 i
  | 1 => hbmTy0_1 i
  | _ => ⟨S2097151x64, .f32⟩

abbrev bufTy : (tb : Table) → Fin (tcTables nBuf tb) → BufTy
  | .hbm, ⟨i, _⟩ => hbmTy i
  | _, _ => ⟨S2097151x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_19 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_20 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_21 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_22 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c_23 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_24 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_25 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_26 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_27 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_28 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_c_29 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_30 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_c_31 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_32 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_c_33 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_34 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_c_35 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_36 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_c_37 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_38 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_39 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_cst_40 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_c_41 : Ref sig .tc := ⟨.hbm, 238, rfl⟩
abbrev main_v191 : Ref sig .tc := ⟨.hbm, 239, rfl⟩
abbrev main_v192 : Ref sig .tc := ⟨.hbm, 240, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S2097151x1_0_1 : S1x1.BroadcastsInDim S2097151x1 (![0, 1] : Fin 2 → Fin S2097151x1.rank)
  shapeCasts_S2097151x1_S2097151 : S2097151x1.ShapeCasts S2097151
  bcast_S_S2097151 : S_.BroadcastsInDim S2097151 (![] : Fin 0 → Fin S2097151.rank)
  bcast_S_S1 : S_.BroadcastsInDim S1 (![] : Fin 0 → Fin S1.rank)
  slices_S2097151_S1048576_1048575 : S2097151.Slices ![1048575] S1048576
  shapeCasts_S1048576_S524288x2 : S1048576.ShapeCasts S524288x2
  reducesTo_S524288x2_S524288_d1 : S524288x2.ReducesTo [1] S524288
  h_S_ : 0 < S_.numel
  slices_S2097151_S524288_524287 : S2097151.Slices ![524287] S524288
  shapeCasts_S524288_S262144x2 : S524288.ShapeCasts S262144x2
  reducesTo_S262144x2_S262144_d1 : S262144x2.ReducesTo [1] S262144
  slices_S2097151_S262144_262143 : S2097151.Slices ![262143] S262144
  shapeCasts_S262144_S131072x2 : S262144.ShapeCasts S131072x2
  reducesTo_S131072x2_S131072_d1 : S131072x2.ReducesTo [1] S131072
  slices_S2097151_S131072_131071 : S2097151.Slices ![131071] S131072
  shapeCasts_S131072_S65536x2 : S131072.ShapeCasts S65536x2
  reducesTo_S65536x2_S65536_d1 : S65536x2.ReducesTo [1] S65536
  slices_S2097151_S65536_65535 : S2097151.Slices ![65535] S65536
  shapeCasts_S65536_S32768x2 : S65536.ShapeCasts S32768x2
  reducesTo_S32768x2_S32768_d1 : S32768x2.ReducesTo [1] S32768
  slices_S2097151_S32768_32767 : S2097151.Slices ![32767] S32768
  shapeCasts_S32768_S16384x2 : S32768.ShapeCasts S16384x2
  reducesTo_S16384x2_S16384_d1 : S16384x2.ReducesTo [1] S16384
  slices_S2097151_S16384_16383 : S2097151.Slices ![16383] S16384
  shapeCasts_S16384_S8192x2 : S16384.ShapeCasts S8192x2
  reducesTo_S8192x2_S8192_d1 : S8192x2.ReducesTo [1] S8192
  slices_S2097151_S8192_8191 : S2097151.Slices ![8191] S8192
  shapeCasts_S8192_S4096x2 : S8192.ShapeCasts S4096x2
  reducesTo_S4096x2_S4096_d1 : S4096x2.ReducesTo [1] S4096
  slices_S2097151_S4096_4095 : S2097151.Slices ![4095] S4096
  shapeCasts_S4096_S2048x2 : S4096.ShapeCasts S2048x2
  reducesTo_S2048x2_S2048_d1 : S2048x2.ReducesTo [1] S2048
  slices_S2097151_S2048_2047 : S2097151.Slices ![2047] S2048
  shapeCasts_S2048_S1024x2 : S2048.ShapeCasts S1024x2
  reducesTo_S1024x2_S1024_d1 : S1024x2.ReducesTo [1] S1024
  slices_S2097151_S1024_1023 : S2097151.Slices ![1023] S1024
  shapeCasts_S1024_S512x2 : S1024.ShapeCasts S512x2
  reducesTo_S512x2_S512_d1 : S512x2.ReducesTo [1] S512
  slices_S2097151_S512_511 : S2097151.Slices ![511] S512
  shapeCasts_S512_S256x2 : S512.ShapeCasts S256x2
  reducesTo_S256x2_S256_d1 : S256x2.ReducesTo [1] S256
  slices_S2097151_S256_255 : S2097151.Slices ![255] S256
  shapeCasts_S256_S128x2 : S256.ShapeCasts S128x2
  reducesTo_S128x2_S128_d1 : S128x2.ReducesTo [1] S128
  slices_S2097151_S128_127 : S2097151.Slices ![127] S128
  shapeCasts_S128_S64x2 : S128.ShapeCasts S64x2
  reducesTo_S64x2_S64_d1 : S64x2.ReducesTo [1] S64
  slices_S2097151_S64_63 : S2097151.Slices ![63] S64
  shapeCasts_S64_S32x2 : S64.ShapeCasts S32x2
  reducesTo_S32x2_S32_d1 : S32x2.ReducesTo [1] S32
  slices_S2097151_S32_31 : S2097151.Slices ![31] S32
  shapeCasts_S32_S16x2 : S32.ShapeCasts S16x2
  reducesTo_S16x2_S16_d1 : S16x2.ReducesTo [1] S16
  slices_S2097151_S16_15 : S2097151.Slices ![15] S16
  shapeCasts_S16_S8x2 : S16.ShapeCasts S8x2
  reducesTo_S8x2_S8_d1 : S8x2.ReducesTo [1] S8
  slices_S2097151_S8_7 : S2097151.Slices ![7] S8
  shapeCasts_S8_S4x2 : S8.ShapeCasts S4x2
  reducesTo_S4x2_S4_d1 : S4x2.ReducesTo [1] S4
  slices_S2097151_S4_3 : S2097151.Slices ![3] S4
  shapeCasts_S4_S2x2 : S4.ShapeCasts S2x2
  reducesTo_S2x2_S2_d1 : S2x2.ReducesTo [1] S2
  slices_S2097151_S2_1 : S2097151.Slices ![1] S2
  shapeCasts_S2_S1x2 : S2.ShapeCasts S1x2
  reducesTo_S1x2_S1_d1 : S1x2.ReducesTo [1] S1
  slices_S2097151_S1_0 : S2097151.Slices ![0] S1
  dot_S2097151x64_S64x1_S2097151x1_1_0_0_1_n_n_wf : DotDims.WF S2097151x64 S64x1 S2097151x1 [1] [0] [0] [1] [] []
  scatter_S2097151_S1_S1048576_0_n_0_0_wf : ScatterDims.WF S2097151 S1 S1048576 [0] [] [0] 0
  scatter_S2097151_S1_S524288_0_n_0_0_wf : ScatterDims.WF S2097151 S1 S524288 [0] [] [0] 0
  scatter_S2097151_S1_S262144_0_n_0_0_wf : ScatterDims.WF S2097151 S1 S262144 [0] [] [0] 0
  scatter_S2097151_S1_S131072_0_n_0_0_wf : ScatterDims.WF S2097151 S1 S131072 [0] [] [0] 0
  scatter_S2097151_S1_S65536_0_n_0_0_wf : ScatterDims.WF S2097151 S1 S65536 [0] [] [0] 0
  scatter_S2097151_S1_S32768_0_n_0_0_wf : ScatterDims.WF S2097151 S1 S32768 [0] [] [0] 0
  scatter_S2097151_S1_S16384_0_n_0_0_wf : ScatterDims.WF S2097151 S1 S16384 [0] [] [0] 0
  scatter_S2097151_S1_S8192_0_n_0_0_wf : ScatterDims.WF S2097151 S1 S8192 [0] [] [0] 0
  scatter_S2097151_S1_S4096_0_n_0_0_wf : ScatterDims.WF S2097151 S1 S4096 [0] [] [0] 0
  scatter_S2097151_S1_S2048_0_n_0_0_wf : ScatterDims.WF S2097151 S1 S2048 [0] [] [0] 0
  scatter_S2097151_S1_S1024_0_n_0_0_wf : ScatterDims.WF S2097151 S1 S1024 [0] [] [0] 0
  scatter_S2097151_S1_S512_0_n_0_0_wf : ScatterDims.WF S2097151 S1 S512 [0] [] [0] 0
  scatter_S2097151_S1_S256_0_n_0_0_wf : ScatterDims.WF S2097151 S1 S256 [0] [] [0] 0
  scatter_S2097151_S1_S128_0_n_0_0_wf : ScatterDims.WF S2097151 S1 S128 [0] [] [0] 0
  scatter_S2097151_S1_S64_0_n_0_0_wf : ScatterDims.WF S2097151 S1 S64 [0] [] [0] 0
  scatter_S2097151_S1_S32_0_n_0_0_wf : ScatterDims.WF S2097151 S1 S32 [0] [] [0] 0
  scatter_S2097151_S1_S16_0_n_0_0_wf : ScatterDims.WF S2097151 S1 S16 [0] [] [0] 0
  scatter_S2097151_S1_S8_0_n_0_0_wf : ScatterDims.WF S2097151 S1 S8 [0] [] [0] 0
  scatter_S2097151_S1_S4_0_n_0_0_wf : ScatterDims.WF S2097151 S1 S4 [0] [] [0] 0
  scatter_S2097151_S1_S2_0_n_0_0_wf : ScatterDims.WF S2097151 S1 S2 [0] [] [0] 0
  scatter_S2097151_S1_S1_0_n_0_0_wf : ScatterDims.WF S2097151 S1 S1 [0] [] [0] 0

variable [Facts₀]

def dot_S2097151x64_S64x1_S2097151x1_1_0_0_1_n_n : DotDims S2097151x64 S64x1 S2097151x1 where
  lhsContracting := [1]
  rhsContracting := [0]
  lhsNonContracting := [0]
  rhsNonContracting := [1]
  lhsBatch := []
  rhsBatch := []
  wf := dot_S2097151x64_S64x1_S2097151x1_1_0_0_1_n_n_wf
def scatter_S2097151_S1_S1048576_0_n_0_0 : ScatterDims S2097151 S1 S1048576 where
  updateWindowDims := [0]
  insertedWindowDims := []
  scatterDimsToOperandDims := [0]
  indexVectorDim := 0
  wf := scatter_S2097151_S1_S1048576_0_n_0_0_wf
def scatter_S2097151_S1_S524288_0_n_0_0 : ScatterDims S2097151 S1 S524288 where
  updateWindowDims := [0]
  insertedWindowDims := []
  scatterDimsToOperandDims := [0]
  indexVectorDim := 0
  wf := scatter_S2097151_S1_S524288_0_n_0_0_wf
def scatter_S2097151_S1_S262144_0_n_0_0 : ScatterDims S2097151 S1 S262144 where
  updateWindowDims := [0]
  insertedWindowDims := []
  scatterDimsToOperandDims := [0]
  indexVectorDim := 0
  wf := scatter_S2097151_S1_S262144_0_n_0_0_wf
def scatter_S2097151_S1_S131072_0_n_0_0 : ScatterDims S2097151 S1 S131072 where
  updateWindowDims := [0]
  insertedWindowDims := []
  scatterDimsToOperandDims := [0]
  indexVectorDim := 0
  wf := scatter_S2097151_S1_S131072_0_n_0_0_wf
def scatter_S2097151_S1_S65536_0_n_0_0 : ScatterDims S2097151 S1 S65536 where
  updateWindowDims := [0]
  insertedWindowDims := []
  scatterDimsToOperandDims := [0]
  indexVectorDim := 0
  wf := scatter_S2097151_S1_S65536_0_n_0_0_wf
def scatter_S2097151_S1_S32768_0_n_0_0 : ScatterDims S2097151 S1 S32768 where
  updateWindowDims := [0]
  insertedWindowDims := []
  scatterDimsToOperandDims := [0]
  indexVectorDim := 0
  wf := scatter_S2097151_S1_S32768_0_n_0_0_wf
def scatter_S2097151_S1_S16384_0_n_0_0 : ScatterDims S2097151 S1 S16384 where
  updateWindowDims := [0]
  insertedWindowDims := []
  scatterDimsToOperandDims := [0]
  indexVectorDim := 0
  wf := scatter_S2097151_S1_S16384_0_n_0_0_wf
def scatter_S2097151_S1_S8192_0_n_0_0 : ScatterDims S2097151 S1 S8192 where
  updateWindowDims := [0]
  insertedWindowDims := []
  scatterDimsToOperandDims := [0]
  indexVectorDim := 0
  wf := scatter_S2097151_S1_S8192_0_n_0_0_wf
def scatter_S2097151_S1_S4096_0_n_0_0 : ScatterDims S2097151 S1 S4096 where
  updateWindowDims := [0]
  insertedWindowDims := []
  scatterDimsToOperandDims := [0]
  indexVectorDim := 0
  wf := scatter_S2097151_S1_S4096_0_n_0_0_wf
def scatter_S2097151_S1_S2048_0_n_0_0 : ScatterDims S2097151 S1 S2048 where
  updateWindowDims := [0]
  insertedWindowDims := []
  scatterDimsToOperandDims := [0]
  indexVectorDim := 0
  wf := scatter_S2097151_S1_S2048_0_n_0_0_wf
def scatter_S2097151_S1_S1024_0_n_0_0 : ScatterDims S2097151 S1 S1024 where
  updateWindowDims := [0]
  insertedWindowDims := []
  scatterDimsToOperandDims := [0]
  indexVectorDim := 0
  wf := scatter_S2097151_S1_S1024_0_n_0_0_wf
def scatter_S2097151_S1_S512_0_n_0_0 : ScatterDims S2097151 S1 S512 where
  updateWindowDims := [0]
  insertedWindowDims := []
  scatterDimsToOperandDims := [0]
  indexVectorDim := 0
  wf := scatter_S2097151_S1_S512_0_n_0_0_wf
def scatter_S2097151_S1_S256_0_n_0_0 : ScatterDims S2097151 S1 S256 where
  updateWindowDims := [0]
  insertedWindowDims := []
  scatterDimsToOperandDims := [0]
  indexVectorDim := 0
  wf := scatter_S2097151_S1_S256_0_n_0_0_wf
def scatter_S2097151_S1_S128_0_n_0_0 : ScatterDims S2097151 S1 S128 where
  updateWindowDims := [0]
  insertedWindowDims := []
  scatterDimsToOperandDims := [0]
  indexVectorDim := 0
  wf := scatter_S2097151_S1_S128_0_n_0_0_wf
def scatter_S2097151_S1_S64_0_n_0_0 : ScatterDims S2097151 S1 S64 where
  updateWindowDims := [0]
  insertedWindowDims := []
  scatterDimsToOperandDims := [0]
  indexVectorDim := 0
  wf := scatter_S2097151_S1_S64_0_n_0_0_wf
def scatter_S2097151_S1_S32_0_n_0_0 : ScatterDims S2097151 S1 S32 where
  updateWindowDims := [0]
  insertedWindowDims := []
  scatterDimsToOperandDims := [0]
  indexVectorDim := 0
  wf := scatter_S2097151_S1_S32_0_n_0_0_wf
def scatter_S2097151_S1_S16_0_n_0_0 : ScatterDims S2097151 S1 S16 where
  updateWindowDims := [0]
  insertedWindowDims := []
  scatterDimsToOperandDims := [0]
  indexVectorDim := 0
  wf := scatter_S2097151_S1_S16_0_n_0_0_wf
def scatter_S2097151_S1_S8_0_n_0_0 : ScatterDims S2097151 S1 S8 where
  updateWindowDims := [0]
  insertedWindowDims := []
  scatterDimsToOperandDims := [0]
  indexVectorDim := 0
  wf := scatter_S2097151_S1_S8_0_n_0_0_wf
def scatter_S2097151_S1_S4_0_n_0_0 : ScatterDims S2097151 S1 S4 where
  updateWindowDims := [0]
  insertedWindowDims := []
  scatterDimsToOperandDims := [0]
  indexVectorDim := 0
  wf := scatter_S2097151_S1_S4_0_n_0_0_wf
def scatter_S2097151_S1_S2_0_n_0_0 : ScatterDims S2097151 S1 S2 where
  updateWindowDims := [0]
  insertedWindowDims := []
  scatterDimsToOperandDims := [0]
  indexVectorDim := 0
  wf := scatter_S2097151_S1_S2_0_n_0_0_wf
def scatter_S2097151_S1_S1_0_n_0_0 : ScatterDims S2097151 S1 S1 where
  updateWindowDims := [0]
  insertedWindowDims := []
  scatterDimsToOperandDims := [0]
  indexVectorDim := 0
  wf := scatter_S2097151_S1_S1_0_n_0_0_wf

class Facts : Prop extends Facts₀ where

variable [Facts]
-- ==== Proof.FrameKitBits.lean ====
/-
  The frame kit of the scoring pallas_call, at any float instance: the program is the region followed by the 225
  host operations of the tree aggregation. Here: the buffer contents when the region is entered (nothing runs
  before it, so they are the launch contents), the program as the region continued by the later lines, each
  window's block at a grid point, what each window's staging buffer holds when the body runs, and the body's
  triple: on whole staging buffers holding X (features block), w, b the body leaves the three as they were and
  the result's buffer at the payload of the three.

  The features array has 2097151 rows and is read in 256 blocks of 8192: the last block overhangs the array by
  one row. A fetch fills the staging buffer's rows inside the array with the block and leaves the rest at
  contents nothing names; a write-back writes only the rows inside the array.
-/
import proofs.«169628_j58085137711397_2_alg».proof.Proof.Gen.Kernel.Launch
import proofs.«169628_j58085137711397_2_alg».proof.Proof.Gen.Kernel.Skeleton
import proofs.«169628_j58085137711397_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxRecDepth 200000 in
/-- The program is the region continued by the 225 later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- With nothing before the region every buffer is found as launched. -/
theorem V_eq (c : Dev nD) (b : Ref sig .tc) : V m c b = m ((c : Thread nD τ).loc b) := rfl

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The result's window is never fetched. -/
theorem fetch0_3 : ∀ t : Fin cfg0.N, (cfg0.win 3).fetch t = false :=
  (by decide +kernel : ∀ t : Fin grid0.N, win0_3.fetch t = false)

/-- The features window is fetched at every point: its buffer holds the block on the rows inside the array and
    contents nothing names elsewhere. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = (cfg0.win 0).fill (cfg0.grid.coords t) d (iblk m c 0 t) := by
  unfold Dat.before; rw [if_pos (fetch0_0 t)]
  unfold Dat.fetched Dat.blockOf iblk; rw [hA]

/-- The weights' window (one block, fetched once, its buffer never written) holds the weights at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias' window likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The result's buffer is written back after every point: the body finds it at contents nothing names. -/
theorem before0_3_of {c : Dev nD} (dat : Dat τ (Elt F) Unit ℕ (UR sig nD τ) ℕ cfg0 c) (t : Fin cfg0.N) (d) : dat.before 3 t d = d := by
  refine dat.before_out_reset 3 rfl t ?_ d
  by_cases h0 : t.val = 0
  · exact Or.inl h0
  · exact Or.inr ⟨h0, flush0_3 _⟩

/-! ## The body's accesses and what it leaves -/

abbrev r0 : Rect S8192x64 := Rect.unit (s := S8192x64) ![0, 0] S8192x64.size inb_S8192x64_S8192x64_0_0
abbrev r1 : Rect S64x1 := Rect.unit (s := S64x1) ![0, 0] S64x1.size inb_S64x1_S64x1_0_0
abbrev r2 : Rect S1 := Rect.unit (s := S1) ![0] S1.size inb_S1_S1_0
abbrev r3 : Rect S8192 := Rect.unit (s := S8192) ![0] S8192.size inb_S8192_S8192_0

/-- The result's staging buffer after the body, from what the three input buffers hold: its one store. -/
def out3 (x0 : Vec F S8192x64 .f32) (x1 : Vec F S64x1 .f32) (x2 : Vec F S1 .f32) : Vec F S8192 .f32 :=
  View.canon [⟨r3, k0_pay1 (View.ld x0 r0) (View.ld x1 r1) (View.ld x2 r2)⟩]

/-- The one store covers the buffer. -/
theorem cover3 (p0 : Vec F S8192 .f32) (y : S8192.Idx) :
    ∃ pc ∈ ([⟨r3, p0⟩] : List (View.Piece (Elt F) S8192 .f32)), y ∈ pc.1.set :=
  View.cover_of_tiled [⟨r3, p0⟩] S8192.size (by rfl) y

set_option maxHeartbeats 1000000 in
/-- The body on whole staging buffers, the inputs' at contents `x0`, `x1`, `x2` and the result's at anything, runs to
    the continuation holding the inputs' as they were and the result's at `out3` of them. -/
theorem sound_kernel (c : Dev nD) (E : Set ℕ) (i : grid0.Coords)
    (arg1 : Memref sig .tc .vmem S8192x64 .f32) (harg1 : arg1.IsWhole) (arg2 : Memref sig .tc .vmem S64x1 .f32) (harg2 : arg2.IsWhole)
    (arg3 : Memref sig .tc .vmem S1 .f32) (harg3 : arg3.IsWhole) (arg4 : Memref sig .tc .vmem S8192 .f32) (harg4 : arg4.IsWhole)
    (x0 : Vec F S8192x64 .f32) (x1 : Vec F S64x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end Cert.Kernel.Hand

end
-- ==== Proof.TailOpsBits.lean ====
import proofs.«169628_j58085137711397_2_alg».proof.Proof.Gen.Kernel.Launch

-- membership in a 225-element list of references, and a 225-operation list, recurse past the default depth
set_option maxRecDepth 16384

noncomputable section

/-! # The host tail of @main: which buffers its 225 operations write

The operations after the custom call (the tree aggregation) each write one buffer, all distinct,
none of them an argument or the custom call's result.  So a buffer outside the list keeps its
contents through the tail, and a buffer an operation writes is in the list. -/

namespace Cert.Kernel.Tail

open Cert.Kernel Cert.Kernel.Gen Idealize.ShloMosaic Idealize.ShloMosaic.TcCoe Idealize.SL.Sem Idealize.ShloMosaic.StableHlo

variable {F : FTy → Type} [FloatOps F]

/-- The 225 buffers the tail's operations write, in order. -/
abbrev tailW : List (Ref sig .tc) :=
  [
   main_cst, main_v1, main_c, main_v2, main_v3, main_v4, main_v5, main_v6, main_v7, main_cst_0, main_v8, main_v9,
   main_v10, main_c_1, main_v11, main_v12, main_v13, main_v14, main_v15, main_v16, main_cst_2, main_v17, main_v18, main_v19,
   main_c_3, main_v20, main_v21, main_v22, main_v23, main_v24, main_v25, main_cst_4, main_v26, main_v27, main_v28, main_c_5,
   main_v29, main_v30, main_v31, main_v32, main_v33, main_v34, main_cst_6, main_v35, main_v36, main_v37, main_c_7, main_v38,
   main_v39, main_v40, main_v41, main_v42, main_v43, main_cst_8, main_v44, main_v45, main_v46, main_c_9, main_v47, main_v48,
   main_v49, main_v50, main_v51, main_v52, main_cst_10, main_v53, main_v54, main_v55, main_c_11, main_v56, main_v57, main_v58,
   main_v59, main_v60, main_v61, main_cst_12, main_v62, main_v63, main_v64, main_c_13, main_v65, main_v66, main_v67, main_v68,
   main_v69, main_v70, main_cst_14, main_v71, main_v72, main_v73, main_c_15, main_v74, main_v75, main_v76, main_v77, main_v78,
   main_v79, main_cst_16, main_v80, main_v81, main_v82, main_c_17, main_v83, main_v84, main_v85, main_v86, main_v87, main_v88,
   main_cst_18, main_v89, main_v90, main_v91, main_c_19, main_v92, main_v93, main_v94, main_v95, main_v96, main_v97, main_cst_20,
   main_v98, main_v99, main_v100, main_c_21, main_v101, main_v102, main_v103, main_v104, main_v105, main_v106, main_cst_22, main_v107,
   main_v108, main_v109, main_c_23, main_v110, main_v111, main_v112, main_v113, main_v114, main_v115, main_cst_24, main_v116, main_v117,
   main_v118, main_c_25, main_v119, main_v120, main_v121, main_v122, main_v123, main_v124, main_cst_26, main_v125, main_v126, main_v127,
   main_c_27, main_v128, main_v129, main_v130, main_v131, main_v132, main_v133, main_cst_28, main_v134, main_v135, main_v136, main_c_29,
   main_v137, main_v138, main_v139, main_v140, main_v141, main_v142, main_cst_30, main_v143, main_v144, main_v145, main_c_31, main_v146,
   main_v147, main_v148, main_v149, main_v150, main_v151, main_cst_32, main_v152, main_v153, main_v154, main_c_33, main_v155, main_v156,
   main_v157, main_v158, main_v159, main_v160, main_cst_34, main_v161, main_v162, main_v163, main_c_35, main_v164, main_v165, main_v166,
   main_v167, main_v168, main_v169, main_cst_36, main_v170, main_v171, main_v172, main_c_37, main_v173, main_v174, main_v175, main_v176,
   main_v177, main_v178, main_cst_38, main_v179, main_v180, main_v181, main_c_39, main_v182, main_v183 ]

/-- Each operation of the tail writes a buffer of the list. -/
theorem hostOps1_writes : (Gen.hostOps1 : List (HloOp τ sig (Elt F))).Forall fun op => op.writes ⊆ (tailW.map (Proc.devRef (τ := τ) .tc)).toFinset := by
  simp only [List.Forall]
  repeat' constructor
  all_goals
    simp only [nullary_writes, unary_writes, binary_writes, ternary_writes, reshape_writes, Finset.singleton_subset_iff, List.mem_toFinset]
    exact List.mem_map_of_mem (by decide)

/-- No operation of the tail allocates. -/
theorem hostOps1_fresh : (Gen.hostOps1 : List (HloOp τ sig (Elt F))).Forall fun op => op.fresh = ∅ := by
  simp only [List.Forall]; repeat' constructor

/-- A buffer outside the list keeps its contents through the tail. -/
theorem after_keep (W : Valuation τ sig (Elt F)) (r : Ref sig .tc) (h : r ∉ tailW) :
    StableHlo.after Gen.hostOps1 W (Proc.devRef .tc r) = W (Proc.devRef .tc r) :=
  after_of_writes_sub Gen.hostOps1 W hostOps1_writes h

/-- A buffer that an operation of the tail writes is in the list. -/
theorem writes_mem (op : HloOp τ sig (Elt F)) (hop : op ∈ (Gen.hostOps1 : List (HloOp τ sig (Elt F)))) (b : Ref sig .tc)
    (hb : Proc.devRef .tc b ∈ op.writes) : b ∈ tailW := by
  obtain ⟨y, hy, he⟩ := List.mem_map.mp (List.mem_toFinset.mp ((List.forall_iff_forall_mem.mp hostOps1_writes) op hop hb))
  exact Proc.devRef_injective _ he ▸ hy

end Cert.Kernel.Tail

end
-- ==== Proof.FrameForgetBits.lean ====
/-
  The frame of the program at any float instance, saying nothing of what the body leaves in the result's window:
  at the word level the matrix unit's product is not described row by row, so what a row of the last, overhanging
  block holds cannot be named from the rows inside the array alone — and the frame claim does not read it. The run:
  every weakly fair execution terminates, nothing faulting; the three input arrays of the region end as launched
  (an input window never writes its array back) and so does the leaf-energy array, which bypasses the region and
  which none of the 225 later lines writes.
-/
import proofs.«169628_j58085137711397_2_alg».proof.Proof.FrameKitBits
import proofs.«169628_j58085137711397_2_alg».proof.Proof.TailOpsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The later lines -/

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp Tail.hostOps1_fresh) op hop
/-- They write no array of the pipeline: each writes its own result buffer, and none of those is the features, the
    weights, the bias or the scores array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w hw
  have := Tail.writes_mem op hop _ hw
  revert this
  fin_cases w <;> decide
/-- What they write: the 225 buffers of the list. -/
theorem sfx_writes : ∀ ops ∈ ([hostOps1] : List (List (HloOp τ sig (Elt F)))), ∀ op ∈ ops,
    ∀ b : Ref sig .tc, Proc.devRef .tc b ∈ op.writes → b ∈ Tail.tailW.toFinset := by
  intro ops hops op hop
  simp only [List.mem_cons, List.mem_nil_iff, or_false] at hops
  rcases hops with rfl
  intro b hb
  exact List.mem_toFinset.mpr (Tail.writes_mem op hop b hb)

/-! ## The proof data, the result's window forgotten -/

/-- The window whose contents after the body nothing here names: the result's. -/
def forgets0 : Fin 4 → Bool := fun w => w.val == 3

/-- The arrays as the region finds them; after the body at point `t` the features' buffer at its block (filled out
    past the array's end with a word nothing reads), the weights' and the bias' at theirs; the result's forgotten. -/
def datsF (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => Scalar.ofBits .f32 0#32) (iblk m c 0 t)
    | ⟨1, _⟩ => iblk m c 1 t
    | ⟨2, _⟩ => iblk m c 2 t
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t
    = (cfg0.win 0).fill (cfg0.grid.coords t) (fun _ => Scalar.ofBits .f32 0#32) (iblk m c 0 t) := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]

theorem beforeF_0 (c : Dev nD) (t : Fin cfg0.N) (d) :
    (datsF m 0 c).before 0 t d = (cfg0.win 0).fill (cfg0.grid.coords t) d (iblk m c 0 t) :=
  before0_0_of m (datsF m 0 c) (A_eqF m c 0) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d

/-! ## The body obligation -/

/-- What the body is called with at point `t`, the windows one by one, -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

/-- and what it returns: the features' buffer stated on the rows inside the array, the result's at some contents. -/
def bodyPostF (c : Dev nD) (t : Fin cfg0.N) : sProp 𝕄 :=
  iprop((datsF m 0 c).Φ t.succ ∗ (datsF m 0 c).owesAt () t.succ
    ∗ (∃ d, owns (c : Thread nD τ) (st0_0 t) fullShare
        ((cfg0.win 0).fill (cfg0.grid.coords t) d ((cfg0.win 0).cut (cfg0.grid.coords t) ((datsF m 0 c).after 0 t))))
    ∗ owns (c : Thread nD τ) (st0_1 t) fullShare ((datsF m 0 c).after 1 t)
    ∗ owns (c : Thread nD τ) (st0_2 t) fullShare ((datsF m 0 c).after 2 t)
    ∗ (∃ X, owns (c : Thread nD τ) (st0_3 t) fullShare X))

/-- The body at any point: the inputs' buffers hold their blocks, the features' filled out with whatever the
    buffer held past the array's end; the result's buffer is handed over and taken back at contents nothing names. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (datsF m 0 c).Φ t.succ = (datsF m 0 c).Φ t.castSucc from rfl,
    show (datsF m 0 c).owesAt () t.succ = (datsF m 0 c).owesAt () t.castSucc from rfl]
  iintro ⟨HΦ, Ho, ⟨%d0, H0⟩, ⟨%d1, H1⟩, ⟨%d2, H2⟩, ⟨%X3, H3⟩⟩
  rw [beforeF_0 m c t d0, beforeF_1 m c t d1, beforeF_2 m c t d2]
  iapply (sound_kernel (F := F) c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · iexists d0
    rw [afterF_0, Window.cut_fill]; iexact H0
  isplitl [H1]
  · rw [afterF_1]; iexact H1
  isplitl [H2]
  · rw [afterF_2]; iexact H2
  · iexists _; iexact H3

/-- The library's body obligation, at every point, the result's window forgotten. -/
theorem body_obligationF (c : Dev nD) :
    BodyObligationLoose (datsF (F := F) m 0 c) (defs₀ (F := F)) Variants.none () Set.univ forgets0 := fun t => by
  rw [bigSep_W0, bigSep_W0]
  exact sound_bodyF m c t

/-! ## The run and the frame -/

set_option maxRecDepth 200000 in
set_option backward.isDefEq.respectTransparency.types false in
/-- Every weakly fair execution terminates; every input array of the region ends at contents it may hold after the
    run, and every other unscoped buffer the later lines do not write ends as the region found it. -/
theorem run_mainF : θ_run defs (onTc (τ := τ) (main (F := F))) (s₀ m ρ)
    (Pipeline.RDat.FramePostR (cfgs 0) (fun c => (datsF m 0 c).toRForget forgets0) Tail.tailW.toFinset (V m)) :=
  Pipeline.RDat.θ_run_frame_around_T cfgs (0 : Fin 1) launch0 defs₀ Variants.none (fun c => (datsF m 0 c).toRForget forgets0) Tail.tailW.toFinset m ρ main
    (hbody := fun c => (body_obligationF m c).toRForget) (hshare := fun c => ((datsF m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eqF m) (hΦ := fun _ _ => rfl)

/-- The frame claim at any float instance: the four argument arrays end as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨by have h0 := (h c).1 0; rw [Pipeline.RDat.ArrAt_in _ 0 rfl] at h0; exact h0.trans (A_eqF m c 0),
     (h c).2 main_arg1 (Finset.mem_sdiff.mpr ⟨Pipeline.mem_restRefs_of main_arg1 (by decide) (by decide), by decide⟩),
     by have h1 := (h c).1 1; rw [Pipeline.RDat.ArrAt_in _ 1 rfl] at h1; exact h1.trans (A_eqF m c 1),
     by have h2 := (h c).1 2; rw [Pipeline.RDat.ArrAt_in _ 2 rfl] at h2; exact h2.trans (A_eqF m c 2)⟩) (run_mainF m ρ)

end Cert.Kernel.Hand

end
-- ==== Proof.FrameKit.lean ====
/-
  The frame kit of the scoring pallas_call, at any float instance: the program is the region followed by the 225
  host operations of the tree aggregation. Here: the buffer contents when the region is entered (nothing runs
  before it, so they are the launch contents), the program as the region continued by the later lines, each
  window's block at a grid point, what each window's staging buffer holds when the body runs, and the body's
  triple: on whole staging buffers holding X (features block), w, b the body leaves the three as they were and
  the result's buffer at the payload of the three.

  The features array has 2097151 rows and is read in 256 blocks of 8192: the last block overhangs the array by
  one row. A fetch fills the staging buffer's rows inside the array with the block and leaves the rest at
  contents nothing names; a write-back writes only the rows inside the array.
-/
import proofs.«169628_j58085137711397_2_alg».proof.Proof.Gen.KernelIdeal.Launch
import proofs.«169628_j58085137711397_2_alg».proof.Proof.Gen.KernelIdeal.Skeleton
import proofs.«169628_j58085137711397_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxRecDepth 200000 in
/-- The program is the region continued by the 225 later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- With nothing before the region every buffer is found as launched. -/
theorem V_eq (c : Dev nD) (b : Ref sig .tc) : V m c b = m ((c : Thread nD τ).loc b) := rfl

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The result's window is never fetched. -/
theorem fetch0_3 : ∀ t : Fin cfg0.N, (cfg0.win 3).fetch t = false :=
  (by decide +kernel : ∀ t : Fin grid0.N, win0_3.fetch t = false)

/-- The features window is fetched at every point: its buffer holds the block on the rows inside the array and
    contents nothing names elsewhere. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = (cfg0.win 0).fill (cfg0.grid.coords t) d (iblk m c 0 t) := by
  unfold Dat.before; rw [if_pos (fetch0_0 t)]
  unfold Dat.fetched Dat.blockOf iblk; rw [hA]

/-- The weights' window (one block, fetched once, its buffer never written) holds the weights at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias' window likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The result's buffer is written back after every point: the body finds it at contents nothing names. -/
theorem before0_3_of {c : Dev nD} (dat : Dat τ (Elt F) Unit ℕ (UR sig nD τ) ℕ cfg0 c) (t : Fin cfg0.N) (d) : dat.before 3 t d = d := by
  refine dat.before_out_reset 3 rfl t ?_ d
  by_cases h0 : t.val = 0
  · exact Or.inl h0
  · exact Or.inr ⟨h0, flush0_3 _⟩

/-! ## The body's accesses and what it leaves -/

abbrev r0 : Rect S8192x64 := Rect.unit (s := S8192x64) ![0, 0] S8192x64.size inb_S8192x64_S8192x64_0_0
abbrev r1 : Rect S64x1 := Rect.unit (s := S64x1) ![0, 0] S64x1.size inb_S64x1_S64x1_0_0
abbrev r2 : Rect S1 := Rect.unit (s := S1) ![0] S1.size inb_S1_S1_0
abbrev r3 : Rect S8192 := Rect.unit (s := S8192) ![0] S8192.size inb_S8192_S8192_0

/-- The result's staging buffer after the body, from what the three input buffers hold: its one store. -/
def out3 (x0 : Vec F S8192x64 .f32) (x1 : Vec F S64x1 .f32) (x2 : Vec F S1 .f32) : Vec F S8192 .f32 :=
  View.canon [⟨r3, k0_pay1 (View.ld x0 r0) (View.ld x1 r1) (View.ld x2 r2)⟩]

/-- The one store covers the buffer. -/
theorem cover3 (p0 : Vec F S8192 .f32) (y : S8192.Idx) :
    ∃ pc ∈ ([⟨r3, p0⟩] : List (View.Piece (Elt F) S8192 .f32)), y ∈ pc.1.set :=
  View.cover_of_tiled [⟨r3, p0⟩] S8192.size (by rfl) y

set_option maxHeartbeats 1000000 in
/-- The body on whole staging buffers, the inputs' at contents `x0`, `x1`, `x2` and the result's at anything, runs to
    the continuation holding the inputs' as they were and the result's at `out3` of them. -/
theorem sound_kernel (c : Dev nD) (E : Set ℕ) (i : grid0.Coords)
    (arg1 : Memref sig .tc .vmem S8192x64 .f32) (harg1 : arg1.IsWhole) (arg2 : Memref sig .tc .vmem S64x1 .f32) (harg2 : arg2.IsWhole)
    (arg3 : Memref sig .tc .vmem S1 .f32) (harg3 : arg3.IsWhole) (arg4 : Memref sig .tc .vmem S8192 .f32) (harg4 : arg4.IsWhole)
    (x0 : Vec F S8192x64 .f32) (x1 : Vec F S64x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end Cert.KernelIdeal.Hand

end
-- ==== Proof.TailOps.lean ====
import proofs.«169628_j58085137711397_2_alg».proof.Proof.Gen.KernelIdeal.Launch

-- membership in a 225-element list of references, and a 225-operation list, recurse past the default depth
set_option maxRecDepth 16384

noncomputable section

/-! # The host tail of @main: which buffers its 225 operations write

The operations after the custom call (the tree aggregation) each write one buffer, all distinct,
none of them an argument or the custom call's result.  So a buffer outside the list keeps its
contents through the tail, and a buffer an operation writes is in the list. -/

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The 225 buffers the tail's operations write, in order. -/
abbrev tailW : List (Ref sig .tc) :=
  [
   main_cst, main_v1, main_c, main_v2, main_v3, main_v4, main_v5, main_v6, main_v7, main_cst_0, main_v8, main_v9,
   main_v10, main_c_1, main_v11, main_v12, main_v13, main_v14, main_v15, main_v16, main_cst_2, main_v17, main_v18, main_v19,
   main_c_3, main_v20, main_v21, main_v22, main_v23, main_v24, main_v25, main_cst_4, main_v26, main_v27, main_v28, main_c_5,
   main_v29, main_v30, main_v31, main_v32, main_v33, main_v34, main_cst_6, main_v35, main_v36, main_v37, main_c_7, main_v38,
   main_v39, main_v40, main_v41, main_v42, main_v43, main_cst_8, main_v44, main_v45, main_v46, main_c_9, main_v47, main_v48,
   main_v49, main_v50, main_v51, main_v52, main_cst_10, main_v53, main_v54, main_v55, main_c_11, main_v56, main_v57, main_v58,
   main_v59, main_v60, main_v61, main_cst_12, main_v62, main_v63, main_v64, main_c_13, main_v65, main_v66, main_v67, main_v68,
   main_v69, main_v70, main_cst_14, main_v71, main_v72, main_v73, main_c_15, main_v74, main_v75, main_v76, main_v77, main_v78,
   main_v79, main_cst_16, main_v80, main_v81, main_v82, main_c_17, main_v83, main_v84, main_v85, main_v86, main_v87, main_v88,
   main_cst_18, main_v89, main_v90, main_v91, main_c_19, main_v92, main_v93, main_v94, main_v95, main_v96, main_v97, main_cst_20,
   main_v98, main_v99, main_v100, main_c_21, main_v101, main_v102, main_v103, main_v104, main_v105, main_v106, main_cst_22, main_v107,
   main_v108, main_v109, main_c_23, main_v110, main_v111, main_v112, main_v113, main_v114, main_v115, main_cst_24, main_v116, main_v117,
   main_v118, main_c_25, main_v119, main_v120, main_v121, main_v122, main_v123, main_v124, main_cst_26, main_v125, main_v126, main_v127,
   main_c_27, main_v128, main_v129, main_v130, main_v131, main_v132, main_v133, main_cst_28, main_v134, main_v135, main_v136, main_c_29,
   main_v137, main_v138, main_v139, main_v140, main_v141, main_v142, main_cst_30, main_v143, main_v144, main_v145, main_c_31, main_v146,
   main_v147, main_v148, main_v149, main_v150, main_v151, main_cst_32, main_v152, main_v153, main_v154, main_c_33, main_v155, main_v156,
   main_v157, main_v158, main_v159, main_v160, main_cst_34, main_v161, main_v162, main_v163, main_c_35, main_v164, main_v165, main_v166,
   main_v167, main_v168, main_v169, main_cst_36, main_v170, main_v171, main_v172, main_c_37, main_v173, main_v174, main_v175, main_v176,
   main_v177, main_v178, main_cst_38, main_v179, main_v180, main_v181, main_c_39, main_v182, main_v183 ]

/-- Each operation of the tail writes a buffer of the list. -/
theorem hostOps1_writes : (Gen.hostOps1 : List (HloOp τ sig (Elt F))).Forall fun op => op.writes ⊆ (tailW.map (Proc.devRef (τ := τ) .tc)).toFinset := by
  simp only [List.Forall]
  repeat' constructor
  all_goals
    simp only [nullary_writes, unary_writes, binary_writes, ternary_writes, reshape_writes, Finset.singleton_subset_iff, List.mem_toFinset]
    exact List.mem_map_of_mem (by decide)

/-- No operation of the tail allocates. -/
theorem hostOps1_fresh : (Gen.hostOps1 : List (HloOp τ sig (Elt F))).Forall fun op => op.fresh = ∅ := by
  simp only [List.Forall]; repeat' constructor

/-- A buffer outside the list keeps its contents through the tail. -/
theorem after_keep (W : Valuation τ sig (Elt F)) (r : Ref sig .tc) (h : r ∉ tailW) :
    StableHlo.after Gen.hostOps1 W (Proc.devRef .tc r) = W (Proc.devRef .tc r) :=
  after_of_writes_sub Gen.hostOps1 W hostOps1_writes h

/-- A buffer that an operation of the tail writes is in the list. -/
theorem writes_mem (op : HloOp τ sig (Elt F)) (hop : op ∈ (Gen.hostOps1 : List (HloOp τ sig (Elt F)))) (b : Ref sig .tc)
    (hb : Proc.devRef .tc b ∈ op.writes) : b ∈ tailW := by
  obtain ⟨y, hy, he⟩ := List.mem_map.mp (List.mem_toFinset.mp ((List.forall_iff_forall_mem.mp hostOps1_writes) op hop hb))
  exact Proc.devRef_injective _ he ▸ hy

end Cert.KernelIdeal.Tail

end
-- ==== Proof.FrameForget.lean ====
/-
  The frame of the program at any float instance, saying nothing of what the body leaves in the result's window:
  at the word level the matrix unit's product is not described row by row, so what a row of the last, overhanging
  block holds cannot be named from the rows inside the array alone — and the frame claim does not read it. The run:
  every weakly fair execution terminates, nothing faulting; the three input arrays of the region end as launched
  (an input window never writes its array back) and so does the leaf-energy array, which bypasses the region and
  which none of the 225 later lines writes.
-/
import proofs.«169628_j58085137711397_2_alg».proof.Proof.FrameKit
import proofs.«169628_j58085137711397_2_alg».proof.Proof.TailOps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The later lines -/

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp Tail.hostOps1_fresh) op hop
/-- They write no array of the pipeline: each writes its own result buffer, and none of those is the features, the
    weights, the bias or the scores array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w hw
  have := Tail.writes_mem op hop _ hw
  revert this
  fin_cases w <;> decide
/-- What they write: the 225 buffers of the list. -/
theorem sfx_writes : ∀ ops ∈ ([hostOps1] : List (List (HloOp τ sig (Elt F)))), ∀ op ∈ ops,
    ∀ b : Ref sig .tc, Proc.devRef .tc b ∈ op.writes → b ∈ Tail.tailW.toFinset := by
  intro ops hops op hop
  simp only [List.mem_cons, List.mem_nil_iff, or_false] at hops
  rcases hops with rfl
  intro b hb
  exact List.mem_toFinset.mpr (Tail.writes_mem op hop b hb)

/-! ## The proof data, the result's window forgotten -/

/-- The window whose contents after the body nothing here names: the result's. -/
def forgets0 : Fin 4 → Bool := fun w => w.val == 3

/-- The arrays as the region finds them; after the body at point `t` the features' buffer at its block (filled out
    past the array's end with a word nothing reads), the weights' and the bias' at theirs; the result's forgotten. -/
def datsF (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => Scalar.ofBits .f32 0#32) (iblk m c 0 t)
    | ⟨1, _⟩ => iblk m c 1 t
    | ⟨2, _⟩ => iblk m c 2 t
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t
    = (cfg0.win 0).fill (cfg0.grid.coords t) (fun _ => Scalar.ofBits .f32 0#32) (iblk m c 0 t) := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]

theorem beforeF_0 (c : Dev nD) (t : Fin cfg0.N) (d) :
    (datsF m 0 c).before 0 t d = (cfg0.win 0).fill (cfg0.grid.coords t) d (iblk m c 0 t) :=
  before0_0_of m (datsF m 0 c) (A_eqF m c 0) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d

/-! ## The body obligation -/

/-- What the body is called with at point `t`, the windows one by one, -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

/-- and what it returns: the features' buffer stated on the rows inside the array, the result's at some contents. -/
def bodyPostF (c : Dev nD) (t : Fin cfg0.N) : sProp 𝕄 :=
  iprop((datsF m 0 c).Φ t.succ ∗ (datsF m 0 c).owesAt () t.succ
    ∗ (∃ d, owns (c : Thread nD τ) (st0_0 t) fullShare
        ((cfg0.win 0).fill (cfg0.grid.coords t) d ((cfg0.win 0).cut (cfg0.grid.coords t) ((datsF m 0 c).after 0 t))))
    ∗ owns (c : Thread nD τ) (st0_1 t) fullShare ((datsF m 0 c).after 1 t)
    ∗ owns (c : Thread nD τ) (st0_2 t) fullShare ((datsF m 0 c).after 2 t)
    ∗ (∃ X, owns (c : Thread nD τ) (st0_3 t) fullShare X))

/-- The body at any point: the inputs' buffers hold their blocks, the features' filled out with whatever the
    buffer held past the array's end; the result's buffer is handed over and taken back at contents nothing names. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (datsF m 0 c).Φ t.succ = (datsF m 0 c).Φ t.castSucc from rfl,
    show (datsF m 0 c).owesAt () t.succ = (datsF m 0 c).owesAt () t.castSucc from rfl]
  iintro ⟨HΦ, Ho, ⟨%d0, H0⟩, ⟨%d1, H1⟩, ⟨%d2, H2⟩, ⟨%X3, H3⟩⟩
  rw [beforeF_0 m c t d0, beforeF_1 m c t d1, beforeF_2 m c t d2]
  iapply (sound_kernel (F := F) c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · iexists d0
    rw [afterF_0, Window.cut_fill]; iexact H0
  isplitl [H1]
  · rw [afterF_1]; iexact H1
  isplitl [H2]
  · rw [afterF_2]; iexact H2
  · iexists _; iexact H3

/-- The library's body obligation, at every point, the result's window forgotten. -/
theorem body_obligationF (c : Dev nD) :
    BodyObligationLoose (datsF (F := F) m 0 c) (defs₀ (F := F)) Variants.none () Set.univ forgets0 := fun t => by
  rw [bigSep_W0, bigSep_W0]
  exact sound_bodyF m c t

/-! ## The run and the frame -/

set_option maxRecDepth 200000 in
set_option backward.isDefEq.respectTransparency.types false in
/-- Every weakly fair execution terminates; every input array of the region ends at contents it may hold after the
    run, and every other unscoped buffer the later lines do not write ends as the region found it. -/
theorem run_mainF : θ_run defs (onTc (τ := τ) (main (F := F))) (s₀ m ρ)
    (Pipeline.RDat.FramePostR (cfgs 0) (fun c => (datsF m 0 c).toRForget forgets0) Tail.tailW.toFinset (V m)) :=
  Pipeline.RDat.θ_run_frame_around_T cfgs (0 : Fin 1) launch0 defs₀ Variants.none (fun c => (datsF m 0 c).toRForget forgets0) Tail.tailW.toFinset m ρ main
    (hbody := fun c => (body_obligationF m c).toRForget) (hshare := fun c => ((datsF m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eqF m) (hΦ := fun _ _ => rfl)

/-- The frame claim at any float instance: the four argument arrays end as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨by have h0 := (h c).1 0; rw [Pipeline.RDat.ArrAt_in _ 0 rfl] at h0; exact h0.trans (A_eqF m c 0),
     (h c).2 main_arg1 (Finset.mem_sdiff.mpr ⟨Pipeline.mem_restRefs_of main_arg1 (by decide) (by decide), by decide⟩),
     by have h1 := (h c).1 1; rw [Pipeline.RDat.ArrAt_in _ 1 rfl] at h1; exact h1.trans (A_eqF m c 1),
     by have h2 := (h c).1 2; rw [Pipeline.RDat.ArrAt_in _ 2 rfl] at h2; exact h2.trans (A_eqF m c 2)⟩) (run_mainF m ρ)

end Cert.KernelIdeal.Hand

end
-- ==== Proof.ScoresSpec.lean ====
/-
  The scores as one function of the input arrays.

  Every node's score is computed from its own row of 64 features, the weight column and the bias:
    score = 1 + tanh(Σ_k row[k] · w[k, 0] + b[0]) / 10
  on the extended reals.  The two constants are kept as the words the programs write (0x3F800000 is 1.0 and
  0x41200000 is 10.0 in binary32); the same word appears on both sides of every comparison, so its value is never
  needed.  `rowScore` takes only the row, so that a statement "entry i of the result is rowScore of row i" says
  that an output entry depends on the feature array through that one row alone.
-/
import proofs.«169628_j58085137711397_2_alg».proof.KernelIdeal
import Idealize.ShloMosaic.PureOps.Ideal
import Idealize.ShloMosaic.Lib.ValueIdx

noncomputable section

namespace Cert.Scores

open Idealize.ShloMosaic Idealize.ShloMosaic.ValueIdx

/-- The score of one node from its row of features: `1 + tanh(Σ_k row k · w[k,0] + b[0]) / 10` on the extended
    reals, with the instance's own division and hyperbolic tangent and the two constants as their binary32 words. -/
def rowScore (row : Fin 64 → EReal) (w : FVec Ideal Cert.KernelIdeal.S64x1 .f32) (b : FVec Ideal Cert.KernelIdeal.S1 .f32) :
    EReal :=
  Ideal.ofBits .f32 0x3F800000#32
    + Ideal.div (Ideal.tanh ((∑ k : Fin 64, row k * w (ix2 k (0 : Fin 1))) + b (ix1 (0 : Fin 1))))
        (Ideal.ofBits .f32 0x41200000#32)

/-- The scores of all nodes: entry `i` is the score of row `i` of the feature array. -/
def score (x : FVec Ideal Cert.KernelIdeal.S2097151x64 .f32) (w : FVec Ideal Cert.KernelIdeal.S64x1 .f32)
    (b : FVec Ideal Cert.KernelIdeal.S1 .f32) : FVec Ideal Cert.KernelIdeal.S2097151 .f32 :=
  fun i => rowScore (fun k => x (ix2 (i 0) k)) w b

/-- The scores read at an index given by its coordinate. -/
theorem score_apply (x : FVec Ideal Cert.KernelIdeal.S2097151x64 .f32) (w : FVec Ideal Cert.KernelIdeal.S64x1 .f32)
    (b : FVec Ideal Cert.KernelIdeal.S1 .f32) (p : Fin 2097151) :
    score x w b (ix1 p) = rowScore (fun k => x (ix2 p k)) w b := rfl

end Cert.Scores

end
-- ==== Proof.ScoresLayout.lean ====
/-
  Small reading lemmas, at any extents, for the layout steps between a matrix–column product and a vector of scores:
    * `shapeCast_a1_a_apply`: an `[a, 1]` column read as a vector of `a` entries;
    * `extractAt_one`: the one entry of a one-entry vector;
    * `bias_column_apply`: a one-entry vector spread to `[1, 1]` and then down a column `[a, 1]` reads its one entry
      everywhere;
    * `tanh_apply`, `hostTanh_apply`: the hyperbolic tangent of an array of extended reals, entry by entry (a kernel's
      and the host's are the same function there).
-/
import Idealize.ShloMosaic.Lib.Pipeline.Value
import Idealize.ShloMosaic.Lib.ValueIdx
import Idealize.ShloMosaic.PureOps.Ideal

noncomputable section

namespace Cert.Scores

open Idealize.ShloMosaic Idealize.ShloMosaic.ValueIdx

/-- An `[a, 1]` column read as a vector of `a` entries: entry `i` is the column's entry of row `i` (the
    row-major position of `(i, 0)` in `[a, 1]` is `i · 1 + 0`). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The one entry of a one-entry vector, extracted at position 0. -/
theorem extractAt_one {α : Type} (x : (⟨1, ![1]⟩ : Shape).Idx → α)
    (h : ∀ a, (![0] : Fin 1 → ℕ) a < (⟨1, ![1]⟩ : Shape).size a) :
    extractAt ![0] x h = x (ix1 (0 : Fin 1)) := by
  unfold extractAt
  exact congrArg x (funext fun a => Fin.ext (by match a with | ⟨0, _⟩ => rfl))

/-- A one-entry vector spread to `[1, 1]` along the second axis and then to a column `[a, 1]` reads its one entry at
    every row: both source axes have extent one at each step. -/
theorem bias_column_apply {α : Type} {a : ℕ} (b : (⟨1, ![1]⟩ : Shape).Idx → α)
    (h1 : (⟨1, ![1]⟩ : Shape).BroadcastsInDim ⟨2, ![1, 1]⟩ ![1])
    (h2 : (⟨2, ![1, 1]⟩ : Shape).BroadcastsInDim ⟨2, ![a, 1]⟩ ![0, 1]) (p : Fin a) (u : Fin 1) :
    broadcastInDim ⟨2, ![a, 1]⟩ ![0, 1] h2 (broadcastInDim ⟨2, ![1, 1]⟩ ![1] h1 b) (ix2 p u) = b (ix1 (0 : Fin 1)) := by
  rw [broadcastInDim_apply ![0, 1] h2 _ (ix2 p u) (ix2 (0 : Fin 1) (0 : Fin 1))
    (fun c => by match c with | ⟨0, _⟩ => rfl | ⟨1, _⟩ => rfl)]
  exact broadcastInDim_apply ![1] h1 b _ (ix1 (0 : Fin 1)) (fun c => by match c with | ⟨0, _⟩ => rfl)

/-- The hyperbolic tangent of a vector, entry by entry. -/
theorem tanh_apply {s : Shape} {φ : FTy} (x : FVec Ideal s φ) (i : s.Idx) : tanh x i = Ideal.tanh (x i) := rfl

/-- The host's hyperbolic tangent of an array, entry by entry: the same function of the entry. -/
theorem hostTanh_apply {s : Shape} {φ : FTy} (x : FVec Ideal s φ) (i : s.Idx) : Host.tanh x i = Ideal.tanh (x i) := rfl

end Cert.Scores

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.ScoresKernel.lean ====
/-
  The kernel body's stored value, row by row, is the score of that row.

  The body narrows both operands to bfloat16 (the identity on the extended reals), multiplies the [8192, 64] block by
  the [64, 1] weight column into a zero accumulator, reads the [8192, 1] product as a vector of 8192 entries, adds
  the bias, applies tanh, divides by 10 and adds 1.  Read at entry `p` this is the score of row `p` of the block.
-/
import proofs.«169628_j58085137711397_2_alg».proof.Proof.ScoresSpec
import proofs.«169628_j58085137711397_2_alg».proof.Proof.ScoresLayout
import proofs.«169628_j58085137711397_2_alg».proof.Proof.LibPlainMatmul
import proofs.«169628_j58085137711397_2_alg».proof.Proof.Gen.KernelIdeal.Skeleton
import Idealize.ShloMosaic.Lib.Pipeline.Value

noncomputable section

namespace Cert.Scores

open Idealize.ShloMosaic Idealize.ShloMosaic.ValueIdx Cert.KernelIdeal

/-! The kernel's dimension numbers contract the block's second axis with the weight's first and have no batch axes. -/

theorem kdot_rank : dot_S8192x64_S64x1_S8192x1_1_0_0_1_n_n.contr.rank = 1 := rfl
theorem kdot_size : dot_S8192x64_S64x1_S8192x1_1_0_0_1_n_n.contr.size ⟨0, by rw [kdot_rank]; exact Nat.one_pos⟩ = 64 := rfl
theorem kdot_l0 (i : S8192x1.Idx) (q : dot_S8192x64_S64x1_S8192x1_1_0_0_1_n_n.contr.Idx) :
    (dot_S8192x64_S64x1_S8192x1_1_0_0_1_n_n.lhsIdx i q 0).val = (i 0).val := rfl
theorem kdot_l1 (i : S8192x1.Idx) (q : dot_S8192x64_S64x1_S8192x1_1_0_0_1_n_n.contr.Idx) :
    (dot_S8192x64_S64x1_S8192x1_1_0_0_1_n_n.lhsIdx i q 1).val = (q ⟨0, by rw [kdot_rank]; exact Nat.one_pos⟩).val :=
  DotDims.lhsIdx_val_of_single _ (cl := 1) rfl i q
theorem kdot_r0 (i : S8192x1.Idx) (q : dot_S8192x64_S64x1_S8192x1_1_0_0_1_n_n.contr.Idx) :
    (dot_S8192x64_S64x1_S8192x1_1_0_0_1_n_n.rhsIdx i q 0).val = (q ⟨0, by rw [kdot_rank]; exact Nat.one_pos⟩).val :=
  DotDims.rhsIdx_val_of_single _ (cr := 0) rfl i q
theorem kdot_r1 (i : S8192x1.Idx) (q : dot_S8192x64_S64x1_S8192x1_1_0_0_1_n_n.contr.Idx) :
    (dot_S8192x64_S64x1_S8192x1_1_0_0_1_n_n.rhsIdx i q 1).val = (i 1).val := rfl

/-- The block's product with the weight column into the zero accumulator, read at row `p`: the sum over the 64
    features of the products. -/
theorem kmatmul_apply (l : FVec Ideal S8192x64 .bf16) (r : FVec Ideal S64x1 .bf16) (p : Fin 8192) :
    matmul dot_S8192x64_S64x1_S8192x1_1_0_0_1_n_n none l r (constant (F := Ideal) S8192x1 .f32 0x00000000#32) (ix2 p (0 : Fin 1))
      = ∑ k : Fin 64, l (ix2 p k) * r (ix2 k (0 : Fin 1)) :=
  PlainMatmul.matmul_zero_apply (M := 8192) (K := 64) (N := 1) dot_S8192x64_S64x1_S8192x1_1_0_0_1_n_n none kdot_rank kdot_size
    kdot_l0 kdot_l1 kdot_r0 kdot_r1 l r p 0

/-- THE KERNEL BODY, ROW BY ROW: entry `j` of the stored vector is the score of row `j` of the loaded block — it depends
    on the block through that row alone. -/
theorem pay_row (v0 : FVec Ideal Cert.KernelIdeal.S8192x64 .f32) (v2 : FVec Ideal Cert.KernelIdeal.S64x1 .f32)
    (v5 : FVec Ideal Cert.KernelIdeal.S1 .f32) (j : Cert.KernelIdeal.S8192.Idx) :
    Cert.KernelIdeal.Gen.k0_pay1 (F := Ideal) v0 v2 v5 j = rowScore (fun k => v0 (ix2 (j 0) k)) v2 v5 := by
  obtain ⟨p, rfl⟩ : ∃ p : Fin 8192, j = ix1 p := ⟨j 0, eq_ix1 j⟩
  unfold Gen.k0_pay1
  rw [addf_apply, broadcast_apply, divf_apply, broadcast_apply, tanh_apply, addf_apply, broadcast_apply,
    shapeCast_a1_a_apply, extractAt_one, kmatmul_apply]
  -- the narrowing to bfloat16 is the identity on the extended reals and both constants are the same words:
  -- what is left is the definition of the row's score
  rfl

end Cert.Scores

end
-- ==== Proof.Tree.lean ====
import proofs.«169628_j58085137711397_2_alg».proof.KernelIdeal

noncomputable section

/-! # The tree aggregation, as a function of the node scores and the leaf values

The complete binary tree has 2097151 = 2^21 - 1 nodes in heap order: the nodes of depth d are the
indices 2^d - 1 … 2^(d+1) - 2, the children of node i are 2i+1 and 2i+2, and the 1048576 leaves are the
last 1048576 indices.  The aggregate E is built bottom-up: E starts as zero with the leaf values e
written at the leaves (level 0); level k (k = 1 … 20) writes, at the 2^(20-k) nodes of depth 20-k,
E(i) + Σ_{children c of i} s(c)·E(c): the scores s times the aggregate over the 2^(21-k) nodes of
depth 21-k, summed over sibling pairs (the reshape to [n, 2] and the add-reduction of axis 1), added to
what E held at the parents (zero), scattered back at offset 2^(20-k) - 1.  tree s e is E after level 20. -/

namespace Cert.KernelIdeal.Tree

open Cert.KernelIdeal Idealize.ShloMosaic
open Facts₀

variable {F : FTy → Type} [FloatOps F] [Facts₀]

/-- Level 0: zero everywhere but the leaves, which hold e. -/
def lvl0 (e : FVec F S1048576 .f32) : FVec F S2097151 .f32 :=
  Host.scatter scatter_S2097151_S1_S1048576_0_n_0_0 (fun _ b => b) (broadcastInDim S2097151 ![] bcast_S_S2097151 (constant (F := F) S_ .f32 0x00000000#32)) (broadcastInDim S1 ![] bcast_S_S1 (constantI S_ 32 1048575#32)) e

/-- Level 1: the 524288 nodes of depth 19 receive E(i) + s(2i+1)·E(2i+1) + s(2i+2)·E(2i+2). -/
def lvl1 (s E : FVec F S2097151 .f32) : FVec F S2097151 .f32 :=
  Host.scatter scatter_S2097151_S1_S524288_0_n_0_0 (fun _ b => b) E (broadcastInDim S1 ![] bcast_S_S1 (constantI S_ 32 524287#32)) (addf (extractStridedSlice S524288 ![524287] E slices_S2097151_S524288_524287) (Host.reduceAdd (shapeCast _ (mulf (extractStridedSlice S1048576 ![1048575] s slices_S2097151_S1048576_1048575) (extractStridedSlice S1048576 ![1048575] E slices_S2097151_S1048576_1048575)) shapeCasts_S1048576_S524288x2) (constant (F := F) S_ .f32 0x00000000#32) reducesTo_S524288x2_S524288_d1 h_S_))

/-- Level 2: the 262144 nodes of depth 18 receive E(i) + s(2i+1)·E(2i+1) + s(2i+2)·E(2i+2). -/
def lvl2 (s E : FVec F S2097151 .f32) : FVec F S2097151 .f32 :=
  Host.scatter scatter_S2097151_S1_S262144_0_n_0_0 (fun _ b => b) E (broadcastInDim S1 ![] bcast_S_S1 (constantI S_ 32 262143#32)) (addf (extractStridedSlice S262144 ![262143] E slices_S2097151_S262144_262143) (Host.reduceAdd (shapeCast _ (mulf (extractStridedSlice S524288 ![524287] s slices_S2097151_S524288_524287) (extractStridedSlice S524288 ![524287] E slices_S2097151_S524288_524287)) shapeCasts_S524288_S262144x2) (constant (F := F) S_ .f32 0x00000000#32) reducesTo_S262144x2_S262144_d1 h_S_))

/-- Level 3: the 131072 nodes of depth 17 receive E(i) + s(2i+1)·E(2i+1) + s(2i+2)·E(2i+2). -/
def lvl3 (s E : FVec F S2097151 .f32) : FVec F S2097151 .f32 :=
  Host.scatter scatter_S2097151_S1_S131072_0_n_0_0 (fun _ b => b) E (broadcastInDim S1 ![] bcast_S_S1 (constantI S_ 32 131071#32)) (addf (extractStridedSlice S131072 ![131071] E slices_S2097151_S131072_131071) (Host.reduceAdd (shapeCast _ (mulf (extractStridedSlice S262144 ![262143] s slices_S2097151_S262144_262143) (extractStridedSlice S262144 ![262143] E slices_S2097151_S262144_262143)) shapeCasts_S262144_S131072x2) (constant (F := F) S_ .f32 0x00000000#32) reducesTo_S131072x2_S131072_d1 h_S_))

/-- Level 4: the 65536 nodes of depth 16 receive E(i) + s(2i+1)·E(2i+1) + s(2i+2)·E(2i+2). -/
def lvl4 (s E : FVec F S2097151 .f32) : FVec F S2097151 .f32 :=
  Host.scatter scatter_S2097151_S1_S65536_0_n_0_0 (fun _ b => b) E (broadcastInDim S1 ![] bcast_S_S1 (constantI S_ 32 65535#32)) (addf (extractStridedSlice S65536 ![65535] E slices_S2097151_S65536_65535) (Host.reduceAdd (shapeCast _ (mulf (extractStridedSlice S131072 ![131071] s slices_S2097151_S131072_131071) (extractStridedSlice S131072 ![131071] E slices_S2097151_S131072_131071)) shapeCasts_S131072_S65536x2) (constant (F := F) S_ .f32 0x00000000#32) reducesTo_S65536x2_S65536_d1 h_S_))

/-- Level 5: the 32768 nodes of depth 15 receive E(i) + s(2i+1)·E(2i+1) + s(2i+2)·E(2i+2). -/
def lvl5 (s E : FVec F S2097151 .f32) : FVec F S2097151 .f32 :=
  Host.scatter scatter_S2097151_S1_S32768_0_n_0_0 (fun _ b => b) E (broadcastInDim S1 ![] bcast_S_S1 (constantI S_ 32 32767#32)) (addf (extractStridedSlice S32768 ![32767] E slices_S2097151_S32768_32767) (Host.reduceAdd (shapeCast _ (mulf (extractStridedSlice S65536 ![65535] s slices_S2097151_S65536_65535) (extractStridedSlice S65536 ![65535] E slices_S2097151_S65536_65535)) shapeCasts_S65536_S32768x2) (constant (F := F) S_ .f32 0x00000000#32) reducesTo_S32768x2_S32768_d1 h_S_))

/-- Level 6: the 16384 nodes of depth 14 receive E(i) + s(2i+1)·E(2i+1) + s(2i+2)·E(2i+2). -/
def lvl6 (s E : FVec F S2097151 .f32) : FVec F S2097151 .f32 :=
  Host.scatter scatter_S2097151_S1_S16384_0_n_0_0 (fun _ b => b) E (broadcastInDim S1 ![] bcast_S_S1 (constantI S_ 32 16383#32)) (addf (extractStridedSlice S16384 ![16383] E slices_S2097151_S16384_16383) (Host.reduceAdd (shapeCast _ (mulf (extractStridedSlice S32768 ![32767] s slices_S2097151_S32768_32767) (extractStridedSlice S32768 ![32767] E slices_S2097151_S32768_32767)) shapeCasts_S32768_S16384x2) (constant (F := F) S_ .f32 0x00000000#32) reducesTo_S16384x2_S16384_d1 h_S_))

/-- Level 7: the 8192 nodes of depth 13 receive E(i) + s(2i+1)·E(2i+1) + s(2i+2)·E(2i+2). -/
def lvl7 (s E : FVec F S2097151 .f32) : FVec F S2097151 .f32 :=
  Host.scatter scatter_S2097151_S1_S8192_0_n_0_0 (fun _ b => b) E (broadcastInDim S1 ![] bcast_S_S1 (constantI S_ 32 8191#32)) (addf (extractStridedSlice S8192 ![8191] E slices_S2097151_S8192_8191) (Host.reduceAdd (shapeCast _ (mulf (extractStridedSlice S16384 ![16383] s slices_S2097151_S16384_16383) (extractStridedSlice S16384 ![16383] E slices_S2097151_S16384_16383)) shapeCasts_S16384_S8192x2) (constant (F := F) S_ .f32 0x00000000#32) reducesTo_S8192x2_S8192_d1 h_S_))

/-- Level 8: the 4096 nodes of depth 12 receive E(i) + s(2i+1)·E(2i+1) + s(2i+2)·E(2i+2). -/
def lvl8 (s E : FVec F S2097151 .f32) : FVec F S2097151 .f32 :=
  Host.scatter scatter_S2097151_S1_S4096_0_n_0_0 (fun _ b => b) E (broadcastInDim S1 ![] bcast_S_S1 (constantI S_ 32 4095#32)) (addf (extractStridedSlice S4096 ![4095] E slices_S2097151_S4096_4095) (Host.reduceAdd (shapeCast _ (mulf (extractStridedSlice S8192 ![8191] s slices_S2097151_S8192_8191) (extractStridedSlice S8192 ![8191] E slices_S2097151_S8192_8191)) shapeCasts_S8192_S4096x2) (constant (F := F) S_ .f32 0x00000000#32) reducesTo_S4096x2_S4096_d1 h_S_))

/-- Level 9: the 2048 nodes of depth 11 receive E(i) + s(2i+1)·E(2i+1) + s(2i+2)·E(2i+2). -/
def lvl9 (s E : FVec F S2097151 .f32) : FVec F S2097151 .f32 :=
  Host.scatter scatter_S2097151_S1_S2048_0_n_0_0 (fun _ b => b) E (broadcastInDim S1 ![] bcast_S_S1 (constantI S_ 32 2047#32)) (addf (extractStridedSlice S2048 ![2047] E slices_S2097151_S2048_2047) (Host.reduceAdd (shapeCast _ (mulf (extractStridedSlice S4096 ![4095] s slices_S2097151_S4096_4095) (extractStridedSlice S4096 ![4095] E slices_S2097151_S4096_4095)) shapeCasts_S4096_S2048x2) (constant (F := F) S_ .f32 0x00000000#32) reducesTo_S2048x2_S2048_d1 h_S_))

/-- Level 10: the 1024 nodes of depth 10 receive E(i) + s(2i+1)·E(2i+1) + s(2i+2)·E(2i+2). -/
def lvl10 (s E : FVec F S2097151 .f32) : FVec F S2097151 .f32 :=
  Host.scatter scatter_S2097151_S1_S1024_0_n_0_0 (fun _ b => b) E (broadcastInDim S1 ![] bcast_S_S1 (constantI S_ 32 1023#32)) (addf (extractStridedSlice S1024 ![1023] E slices_S2097151_S1024_1023) (Host.reduceAdd (shapeCast _ (mulf (extractStridedSlice S2048 ![2047] s slices_S2097151_S2048_2047) (extractStridedSlice S2048 ![2047] E slices_S2097151_S2048_2047)) shapeCasts_S2048_S1024x2) (constant (F := F) S_ .f32 0x00000000#32) reducesTo_S1024x2_S1024_d1 h_S_))

/-- Level 11: the 512 nodes of depth 9 receive E(i) + s(2i+1)·E(2i+1) + s(2i+2)·E(2i+2). -/
def lvl11 (s E : FVec F S2097151 .f32) : FVec F S2097151 .f32 :=
  Host.scatter scatter_S2097151_S1_S512_0_n_0_0 (fun _ b => b) E (broadcastInDim S1 ![] bcast_S_S1 (constantI S_ 32 511#32)) (addf (extractStridedSlice S512 ![511] E slices_S2097151_S512_511) (Host.reduceAdd (shapeCast _ (mulf (extractStridedSlice S1024 ![1023] s slices_S2097151_S1024_1023) (extractStridedSlice S1024 ![1023] E slices_S2097151_S1024_1023)) shapeCasts_S1024_S512x2) (constant (F := F) S_ .f32 0x00000000#32) reducesTo_S512x2_S512_d1 h_S_))

/-- Level 12: the 256 nodes of depth 8 receive E(i) + s(2i+1)·E(2i+1) + s(2i+2)·E(2i+2). -/
def lvl12 (s E : FVec F S2097151 .f32) : FVec F S2097151 .f32 :=
  Host.scatter scatter_S2097151_S1_S256_0_n_0_0 (fun _ b => b) E (broadcastInDim S1 ![] bcast_S_S1 (constantI S_ 32 255#32)) (addf (extractStridedSlice S256 ![255] E slices_S2097151_S256_255) (Host.reduceAdd (shapeCast _ (mulf (extractStridedSlice S512 ![511] s slices_S2097151_S512_511) (extractStridedSlice S512 ![511] E slices_S2097151_S512_511)) shapeCasts_S512_S256x2) (constant (F := F) S_ .f32 0x00000000#32) reducesTo_S256x2_S256_d1 h_S_))

/-- Level 13: the 128 nodes of depth 7 receive E(i) + s(2i+1)·E(2i+1) + s(2i+2)·E(2i+2). -/
def lvl13 (s E : FVec F S2097151 .f32) : FVec F S2097151 .f32 :=
  Host.scatter scatter_S2097151_S1_S128_0_n_0_0 (fun _ b => b) E (broadcastInDim S1 ![] bcast_S_S1 (constantI S_ 32 127#32)) (addf (extractStridedSlice S128 ![127] E slices_S2097151_S128_127) (Host.reduceAdd (shapeCast _ (mulf (extractStridedSlice S256 ![255] s slices_S2097151_S256_255) (extractStridedSlice S256 ![255] E slices_S2097151_S256_255)) shapeCasts_S256_S128x2) (constant (F := F) S_ .f32 0x00000000#32) reducesTo_S128x2_S128_d1 h_S_))

/-- Level 14: the 64 nodes of depth 6 receive E(i) + s(2i+1)·E(2i+1) + s(2i+2)·E(2i+2). -/
def lvl14 (s E : FVec F S2097151 .f32) : FVec F S2097151 .f32 :=
  Host.scatter scatter_S2097151_S1_S64_0_n_0_0 (fun _ b => b) E (broadcastInDim S1 ![] bcast_S_S1 (constantI S_ 32 63#32)) (addf (extractStridedSlice S64 ![63] E slices_S2097151_S64_63) (Host.reduceAdd (shapeCast _ (mulf (extractStridedSlice S128 ![127] s slices_S2097151_S128_127) (extractStridedSlice S128 ![127] E slices_S2097151_S128_127)) shapeCasts_S128_S64x2) (constant (F := F) S_ .f32 0x00000000#32) reducesTo_S64x2_S64_d1 h_S_))

/-- Level 15: the 32 nodes of depth 5 receive E(i) + s(2i+1)·E(2i+1) + s(2i+2)·E(2i+2). -/
def lvl15 (s E : FVec F S2097151 .f32) : FVec F S2097151 .f32 :=
  Host.scatter scatter_S2097151_S1_S32_0_n_0_0 (fun _ b => b) E (broadcastInDim S1 ![] bcast_S_S1 (constantI S_ 32 31#32)) (addf (extractStridedSlice S32 ![31] E slices_S2097151_S32_31) (Host.reduceAdd (shapeCast _ (mulf (extractStridedSlice S64 ![63] s slices_S2097151_S64_63) (extractStridedSlice S64 ![63] E slices_S2097151_S64_63)) shapeCasts_S64_S32x2) (constant (F := F) S_ .f32 0x00000000#32) reducesTo_S32x2_S32_d1 h_S_))

/-- Level 16: the 16 nodes of depth 4 receive E(i) + s(2i+1)·E(2i+1) + s(2i+2)·E(2i+2). -/
def lvl16 (s E : FVec F S2097151 .f32) : FVec F S2097151 .f32 :=
  Host.scatter scatter_S2097151_S1_S16_0_n_0_0 (fun _ b => b) E (broadcastInDim S1 ![] bcast_S_S1 (constantI S_ 32 15#32)) (addf (extractStridedSlice S16 ![15] E slices_S2097151_S16_15) (Host.reduceAdd (shapeCast _ (mulf (extractStridedSlice S32 ![31] s slices_S2097151_S32_31) (extractStridedSlice S32 ![31] E slices_S2097151_S32_31)) shapeCasts_S32_S16x2) (constant (F := F) S_ .f32 0x00000000#32) reducesTo_S16x2_S16_d1 h_S_))

/-- Level 17: the 8 nodes of depth 3 receive E(i) + s(2i+1)·E(2i+1) + s(2i+2)·E(2i+2). -/
def lvl17 (s E : FVec F S2097151 .f32) : FVec F S2097151 .f32 :=
  Host.scatter scatter_S2097151_S1_S8_0_n_0_0 (fun _ b => b) E (broadcastInDim S1 ![] bcast_S_S1 (constantI S_ 32 7#32)) (addf (extractStridedSlice S8 ![7] E slices_S2097151_S8_7) (Host.reduceAdd (shapeCast _ (mulf (extractStridedSlice S16 ![15] s slices_S2097151_S16_15) (extractStridedSlice S16 ![15] E slices_S2097151_S16_15)) shapeCasts_S16_S8x2) (constant (F := F) S_ .f32 0x00000000#32) reducesTo_S8x2_S8_d1 h_S_))

/-- Level 18: the 4 nodes of depth 2 receive E(i) + s(2i+1)·E(2i+1) + s(2i+2)·E(2i+2). -/
def lvl18 (s E : FVec F S2097151 .f32) : FVec F S2097151 .f32 :=
  Host.scatter scatter_S2097151_S1_S4_0_n_0_0 (fun _ b => b) E (broadcastInDim S1 ![] bcast_S_S1 (constantI S_ 32 3#32)) (addf (extractStridedSlice S4 ![3] E slices_S2097151_S4_3) (Host.reduceAdd (shapeCast _ (mulf (extractStridedSlice S8 ![7] s slices_S2097151_S8_7) (extractStridedSlice S8 ![7] E slices_S2097151_S8_7)) shapeCasts_S8_S4x2) (constant (F := F) S_ .f32 0x00000000#32) reducesTo_S4x2_S4_d1 h_S_))

/-- Level 19: the 2 nodes of depth 1 receive E(i) + s(2i+1)·E(2i+1) + s(2i+2)·E(2i+2). -/
def lvl19 (s E : FVec F S2097151 .f32) : FVec F S2097151 .f32 :=
  Host.scatter scatter_S2097151_S1_S2_0_n_0_0 (fun _ b => b) E (broadcastInDim S1 ![] bcast_S_S1 (constantI S_ 32 1#32)) (addf (extractStridedSlice S2 ![1] E slices_S2097151_S2_1) (Host.reduceAdd (shapeCast _ (mulf (extractStridedSlice S4 ![3] s slices_S2097151_S4_3) (extractStridedSlice S4 ![3] E slices_S2097151_S4_3)) shapeCasts_S4_S2x2) (constant (F := F) S_ .f32 0x00000000#32) reducesTo_S2x2_S2_d1 h_S_))

/-- Level 20: the 1 nodes of depth 0 receive E(i) + s(2i+1)·E(2i+1) + s(2i+2)·E(2i+2). -/
def lvl20 (s E : FVec F S2097151 .f32) : FVec F S2097151 .f32 :=
  Host.scatter scatter_S2097151_S1_S1_0_n_0_0 (fun _ b => b) E (broadcastInDim S1 ![] bcast_S_S1 (constantI S_ 32 0#32)) (addf (extractStridedSlice S1 ![0] E slices_S2097151_S1_0) (Host.reduceAdd (shapeCast _ (mulf (extractStridedSlice S2 ![1] s slices_S2097151_S2_1) (extractStridedSlice S2 ![1] E slices_S2097151_S2_1)) shapeCasts_S2_S1x2) (constant (F := F) S_ .f32 0x00000000#32) reducesTo_S1x2_S1_d1 h_S_))

/-- The aggregate after level 0. -/
def upTo0 (e : FVec F S1048576 .f32) : FVec F S2097151 .f32 := lvl0 e

/-- The aggregate after levels 0 … 1. -/
def upTo1 (s : FVec F S2097151 .f32) (e : FVec F S1048576 .f32) : FVec F S2097151 .f32 := lvl1 s (upTo0 e)

/-- The aggregate after levels 0 … 2. -/
def upTo2 (s : FVec F S2097151 .f32) (e : FVec F S1048576 .f32) : FVec F S2097151 .f32 := lvl2 s (upTo1 s e)

/-- The aggregate after levels 0 … 3. -/
def upTo3 (s : FVec F S2097151 .f32) (e : FVec F S1048576 .f32) : FVec F S2097151 .f32 := lvl3 s (upTo2 s e)

/-- The aggregate after levels 0 … 4. -/
def upTo4 (s : FVec F S2097151 .f32) (e : FVec F S1048576 .f32) : FVec F S2097151 .f32 := lvl4 s (upTo3 s e)

/-- The aggregate after levels 0 … 5. -/
def upTo5 (s : FVec F S2097151 .f32) (e : FVec F S1048576 .f32) : FVec F S2097151 .f32 := lvl5 s (upTo4 s e)

/-- The aggregate after levels 0 … 6. -/
def upTo6 (s : FVec F S2097151 .f32) (e : FVec F S1048576 .f32) : FVec F S2097151 .f32 := lvl6 s (upTo5 s e)

/-- The aggregate after levels 0 … 7. -/
def upTo7 (s : FVec F S2097151 .f32) (e : FVec F S1048576 .f32) : FVec F S2097151 .f32 := lvl7 s (upTo6 s e)

/-- The aggregate after levels 0 … 8. -/
def upTo8 (s : FVec F S2097151 .f32) (e : FVec F S1048576 .f32) : FVec F S2097151 .f32 := lvl8 s (upTo7 s e)

/-- The aggregate after levels 0 … 9. -/
def upTo9 (s : FVec F S2097151 .f32) (e : FVec F S1048576 .f32) : FVec F S2097151 .f32 := lvl9 s (upTo8 s e)

/-- The aggregate after levels 0 … 10. -/
def upTo10 (s : FVec F S2097151 .f32) (e : FVec F S1048576 .f32) : FVec F S2097151 .f32 := lvl10 s (upTo9 s e)

/-- The aggregate after levels 0 … 11. -/
def upTo11 (s : FVec F S2097151 .f32) (e : FVec F S1048576 .f32) : FVec F S2097151 .f32 := lvl11 s (upTo10 s e)

/-- The aggregate after levels 0 … 12. -/
def upTo12 (s : FVec F S2097151 .f32) (e : FVec F S1048576 .f32) : FVec F S2097151 .f32 := lvl12 s (upTo11 s e)

/-- The aggregate after levels 0 … 13. -/
def upTo13 (s : FVec F S2097151 .f32) (e : FVec F S1048576 .f32) : FVec F S2097151 .f32 := lvl13 s (upTo12 s e)

/-- The aggregate after levels 0 … 14. -/
def upTo14 (s : FVec F S2097151 .f32) (e : FVec F S1048576 .f32) : FVec F S2097151 .f32 := lvl14 s (upTo13 s e)

/-- The aggregate after levels 0 … 15. -/
def upTo15 (s : FVec F S2097151 .f32) (e : FVec F S1048576 .f32) : FVec F S2097151 .f32 := lvl15 s (upTo14 s e)

/-- The aggregate after levels 0 … 16. -/
def upTo16 (s : FVec F S2097151 .f32) (e : FVec F S1048576 .f32) : FVec F S2097151 .f32 := lvl16 s (upTo15 s e)

/-- The aggregate after levels 0 … 17. -/
def upTo17 (s : FVec F S2097151 .f32) (e : FVec F S1048576 .f32) : FVec F S2097151 .f32 := lvl17 s (upTo16 s e)

/-- The aggregate after levels 0 … 18. -/
def upTo18 (s : FVec F S2097151 .f32) (e : FVec F S1048576 .f32) : FVec F S2097151 .f32 := lvl18 s (upTo17 s e)

/-- The aggregate after levels 0 … 19. -/
def upTo19 (s : FVec F S2097151 .f32) (e : FVec F S1048576 .f32) : FVec F S2097151 .f32 := lvl19 s (upTo18 s e)

/-- The aggregate after levels 0 … 20. -/
def upTo20 (s : FVec F S2097151 .f32) (e : FVec F S1048576 .f32) : FVec F S2097151 .f32 := lvl20 s (upTo19 s e)

/-- The tree aggregation: the aggregate after all 21 levels. -/
def tree (s : FVec F S2097151 .f32) (e : FVec F S1048576 .f32) : FVec F S2097151 .f32 := upTo20 s e

end Cert.KernelIdeal.Tree

end
-- ==== Proof.TailValue.lean ====
import proofs.«169628_j58085137711397_2_alg».proof.Proof.Tree
import proofs.«169628_j58085137711397_2_alg».proof.Proof.TailOps
import Idealize.ShloMosaic.Lib.Pipeline.Frame

set_option maxRecDepth 8192

noncomputable section

/-! # The value the host tail leaves in its result

The 225 operations of the tail are 21 consecutive stretches: stretch 0 (5 operations) builds level 0 of
the tree aggregation from the leaf values; stretch k (11 operations, k = 1 … 20) reads the scores and the
previous level's aggregate and writes level k's.  For ANY contents W before it, a stretch leaves in its
last buffer that level's function (Tree.lvl k) of W at the scores and W at the previous aggregate, and
leaves the scores alone.  Composed over the 21 stretches: the tail leaves Tree.tree of the scores and the
leaf values in its result. -/

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Stretch 0 of the tail: level 0 of the aggregation. -/
abbrev cut0 : List (HloOp τ sig (Elt F)) :=
  [ StableHlo.nullary main_cst (constant S_ .f32 0x00000000#32),
    StableHlo.unary main_cst main_v1 (broadcastInDim S2097151 ![] bcast_S_S2097151 : (⟨S_, .f32⟩ : BufTy).Contents (Elt F) → (⟨S2097151, .f32⟩ : BufTy).Contents (Elt F)),
    StableHlo.nullary main_c (constantI S_ 32 1048575#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_arg1 main_v3 ((fun x i u => Host.scatter scatter_S2097151_S1_S1048576_0_n_0_0 (fun _ b => b) x i u) : (⟨S2097151, .f32⟩ : BufTy).Contents (Elt F) → (⟨S1, .i32⟩ : BufTy).Contents (Elt F) → (⟨S1048576, .f32⟩ : BufTy).Contents (Elt F) → (⟨S2097151, .f32⟩ : BufTy).Contents (Elt F)) ]

/-- Stretch 1 of the tail: level 1 of the aggregation. -/
abbrev cut1 : List (HloOp τ sig (Elt F)) :=
  [ StableHlo.unary main_v0 main_v4 ((extractStridedSlice S1048576 ![1048575] · slices_S2097151_S1048576_1048575) : (⟨S2097151, .f32⟩ : BufTy).Contents (Elt F) → (⟨S1048576, .f32⟩ : BufTy).Contents (Elt F)),
    StableHlo.unary main_v3 main_v5 ((extractStridedSlice S1048576 ![1048575] · slices_S2097151_S1048576_1048575) : (⟨S2097151, .f32⟩ : BufTy).Contents (Elt F) → (⟨S1048576, .f32⟩ : BufTy).Contents (Elt F)),
    StableHlo.binary main_v4 main_v5 main_v6 (mulf : (⟨S1048576, .f32⟩ : BufTy).Contents (Elt F) → (⟨S1048576, .f32⟩ : BufTy).Contents (Elt F) → (⟨S1048576, .f32⟩ : BufTy).Contents (Elt F)),
    StableHlo.reshape main_v6 main_v7 rfl shapeCasts_S1048576_S524288x2,
    StableHlo.nullary main_cst_0 (constant S_ .f32 0x00000000#32),
    StableHlo.binary main_v7 main_cst_0 main_v8 ((fun x v => Host.reduceAdd x v reducesTo_S524288x2_S524288_d1 h_S_) : (⟨S524288x2, .f32⟩ : BufTy).Contents (Elt F) → (⟨S_, .f32⟩ : BufTy).Contents (Elt F) → (⟨S524288, .f32⟩ : BufTy).Contents (Elt F)),
    StableHlo.unary main_v3 main_v9 ((extractStridedSlice S524288 ![524287] · slices_S2097151_S524288_524287) : (⟨S2097151, .f32⟩ : BufTy).Contents (Elt F) → (⟨S524288, .f32⟩ : BufTy).Contents (Elt F)),
    StableHlo.binary main_v9 main_v8 main_v10 (addf : (⟨S524288, .f32⟩ : BufTy).Contents (Elt F) → (⟨S524288, .f32⟩ : BufTy).Contents (Elt F) → (⟨S524288, .f32⟩ : BufTy).Contents (Elt F)),
    StableHlo.nullary main_c_1 (constantI S_ 32 524287#32),
    StableHlo.unary main_c_1 main_v11 (broadcastInDim S1 ![] bcast_S_S1 : (⟨S_, .i32⟩ : BufTy).Contents (Elt F) → (⟨S1, .i32⟩ : BufTy).Contents (Elt F)),
    StableHlo.ternary main_v3 main_v11 main_v10 main_v12 ((fun x i u => Host.scatter scatter_S2097151_S1_S524288_0_n_0_0 (fun _ b => b) x i u) : (⟨S2097151, .f32⟩ : BufTy).Contents (Elt F) → (⟨S1, .i32⟩ : BufTy).Contents (Elt F) → (⟨S524288, .f32⟩ : BufTy).Contents (Elt F) → (⟨S2097151, .f32⟩ : BufTy).Contents (Elt F)) ]

/-- Stretch 2 of the tail: level 2 of the aggregation. -/
abbrev cut2 : List (HloOp τ sig (Elt F)) :=
  [ StableHlo.unary main_v0 main_v13 ((extractStridedSlice S524288 ![524287] · slices_S2097151_S524288_524287) : (⟨S2097151, .f32⟩ : BufTy).Contents (Elt F) → (⟨S524288, .f32⟩ : BufTy).Contents (Elt F)),
    StableHlo.unary main_v12 main_v14 ((extractStridedSlice S524288 ![524287] · slices_S2097151_S524288_524287) : (⟨S2097151, .f32⟩ : BufTy).Contents (Elt F) → (⟨S524288, .f32⟩ : BufTy).Contents (Elt F)),
    StableHlo.binary main_v13 main_v14 main_v15 (mulf : (⟨S524288, .f32⟩ : BufTy).Contents (Elt F) → (⟨S524288, .f32⟩ : BufTy).Contents (Elt F) → (⟨S524288, .f32⟩ : BufTy).Contents (Elt F)),
    StableHlo.reshape main_v15 main_v16 rfl shapeCasts_S524288_S262144x2,
    StableHlo.nullary main_cst_2 (constant S_ .f32 0x00000000#32),
    StableHlo.binary main_v16 main_cst_2 main_v17 ((fun x v => Host.reduceAdd x v reducesTo_S262144x2_S262144_d1 h_S_) : (⟨S262144x2, .f32⟩ : BufTy).Contents (Elt F) → (⟨S_, .f32⟩ : BufTy).Contents (Elt F) → (⟨S262144, .f32⟩ : BufTy).Contents (Elt F)),
    StableHlo.unary main_v12 main_v18 ((extractStridedSlice S262144 ![262143] · slices_S2097151_S262144_262143) : (⟨S2097151, .f32⟩ : BufTy).Contents (Elt F) → (⟨S262144, .f32⟩ : BufTy).Contents (Elt F)),
    StableHlo.binary main_v18 main_v17 main_v19 (addf : (⟨S262144, .f32⟩ : BufTy).Contents (Elt F) → (⟨S262144, .f32⟩ : BufTy).Contents (Elt F) → (⟨S262144, .f32⟩ : BufTy).Contents (Elt F)),
    StableHlo.nullary main_c_3 (constantI S_ 32 262143#32),
    StableHlo.unary main_c_3 main_v20 (broadcastInDim S1 ![] bcast_S_S1 : (⟨S_, .i32⟩ : BufTy).Contents (Elt F) → (⟨S1, .i32⟩ : BufTy).Contents (Elt F)),
    StableHlo.ternary main_v12 main_v20 main_v19 main_v21 ((fun x i u => Host.scatter scatter_S2097151_S1_S262144_0_n_0_0 (fun _ b => b) x i u) : (⟨S2097151, .f32⟩ : BufTy).Contents (Elt F) → (⟨S1, .i32⟩ : BufTy).Contents (Elt F) → (⟨S262144, .f32⟩ : BufTy).Contents (Elt F) → (⟨S2097151, .f32⟩ : BufTy).Contents (Elt F)) ]

/-- Stretch 3 of the tail: level 3 of the aggregation. -/
abbrev cut3 : List (HloOp τ sig (Elt F)) :=
  [ StableHlo.unary main_v0 main_v22 ((extractStridedSlice S262144 ![262143] · slices_S2097151_S262144_262143) : (⟨S2097151, .f32⟩ : BufTy).Contents (Elt F) → (⟨S262144, .f32⟩ : BufTy).Contents (Elt F)),
    StableHlo.unary main_v21 main_v23 ((extractStridedSlice S262144 ![262143] · slices_S2097151_S262144_262143) : (⟨S2097151, .f32⟩ : BufTy).Contents (Elt F) → (⟨S262144, .f32⟩ : BufTy).Contents (Elt F)),
    StableHlo.binary main_v22 main_v23 main_v24 (mulf : (⟨S262144, .f32⟩ : BufTy).Contents (Elt F) → (⟨S262144, .f32⟩ : BufTy).Contents (Elt F) → (⟨S262144, .f32⟩ : BufTy).Contents (Elt F)),
    StableHlo.reshape main_v24 main_v25 rfl shapeCasts_S262144_S131072x2,
    StableHlo.nullary main_cst_4 (constant S_ .f32 0x00000000#32),
    StableHlo.binary main_v25 main_cst_4 main_v26 ((fun x v => Host.reduceAdd x v reducesTo_S131072x2_S131072_d1 h_S_) : (⟨S131072x2, .f32⟩ : BufTy).Contents (Elt F) → (⟨S_, .f32⟩ : BufTy).Contents (Elt F) → (⟨S131072, .f32⟩ : BufTy).Contents (Elt F)),
    StableHlo.unary main_v21 main_v27 ((extractStridedSlice S131072 ![131071] · slices_S2097151_S131072_131071) : (⟨S2097151, .f32⟩ : BufTy).Contents (Elt F) → (⟨S131072, .f32⟩ : BufTy).Contents (Elt F)),
    StableHlo.binary main_v27 main_v26 main_v28 (addf : (⟨S131072, .f32⟩ : BufTy).Contents (Elt F) → (⟨S131072, .f32⟩ : BufTy).Contents (Elt F) → (⟨S131072, .f32⟩ : BufTy).Contents (Elt F)),
    StableHlo.nullary main_c_5 (constantI S_ 32 131071#32),
    StableHlo.unary main_c_5 main_v29 (broadcastInDim S1 ![] bcast_S_S1 : (⟨S_, .i32⟩ : BufTy).Contents (Elt F) → (⟨S1, .i32⟩ : BufTy).Contents (Elt F)),
    StableHlo.ternary main_v21 main_v29 main_v28 main_v30 ((fun x i u => Host.scatter scatter_S2097151_S1_S131072_0_n_0_0 (fun _ b => b) x i u) : (⟨S2097151, .f32⟩ : BufTy).Contents (Elt F) → (⟨S1, .i32⟩ : BufTy).Contents (Elt F) → (⟨S131072, .f32⟩ : BufTy).Contents (Elt F) → (⟨S2097151, .f32⟩ : BufTy).Contents (Elt F)) ]

/-- Stretch 4 of the tail: level 4 of the aggregation. -/
abbrev cut4 : List (HloOp τ sig (Elt F)) :=
  [ StableHlo.unary main_v0 main_v31 ((extractStridedSlice S131072 ![131071] · slices_S2097151_S131072_131071) : (⟨S2097151, .f32⟩ : BufTy).Contents (Elt F) → (⟨S131072, .f32⟩ : BufTy).Contents (Elt F)),
    StableHlo.unary main_v30 main_v32 ((extractStridedSlice S131072 ![131071] · slices_S2097151_S131072_131071) : (⟨S2097151, .f32⟩ : BufTy).Contents (Elt F) → (⟨S131072, .f32⟩ : BufTy).Contents (Elt F)),
    StableHlo.binary main_v31 main_v32 main_v33 (mulf : (⟨S131072, .f32⟩ : BufTy).Contents (Elt F) → (⟨S131072, .f32⟩ : BufTy).Contents (Elt F) → (⟨S131072, .f32⟩ : BufTy).Contents (Elt F)),
    StableHlo.reshape main_v33 main_v34 rfl shapeCasts_S131072_S65536x2,
    StableHlo.nullary main_cst_6 (constant S_ .f32 0x00000000#32),
    StableHlo.binary main_v34 main_cst_6 main_v35 ((fun x v => Host.reduceAdd x v reducesTo_S65536x2_S65536_d1 h_S_) : (⟨S65536x2, .f32⟩ : BufTy).Contents (Elt F) → (⟨S_, .f32⟩ : BufTy).Contents (Elt F) → (⟨S65536, .f32⟩ : BufTy).Contents (Elt F)),
    StableHlo.unary main_v30 main_v36 ((extractStridedSlice S65536 ![65535] · slices_S2097151_S65536_65535) : (⟨S2097151, .f32⟩ : BufTy).Contents (Elt F) → (⟨S65536, .f32⟩ : BufTy).Contents (Elt F)),
    StableHlo.binary main_v36 main_v35 main_v37 (addf : (⟨S65536, .f32⟩ : BufTy).Contents (Elt F) → (⟨S65536, .f32⟩ : BufTy).Contents (Elt F) → (⟨S65536, .f32⟩ : BufTy).Contents (Elt F)),
    StableHlo.nullary main_c_7 (constantI S_ 32 65535#32),
    StableHlo.unary main_c_7 main_v38 (broadcastInDim S1 ![] bcast_S_S1 : (⟨S_, .i32⟩ : BufTy).Contents (Elt F) → (⟨S1, .i32⟩ : BufTy).Contents (Elt F)),
    StableHlo.ternary main_v30 main_v38 main_v37 main_v39 ((fun x i u => Host.scatter scatter_S2097151_S1_S65536_0_n_0_0 (fun _ b => b) x i u) : (⟨S2097151, .f32⟩ : BufTy).Contents (Elt F) → (⟨S1, .i32⟩ : BufTy).Contents (Elt F) → (⟨S65536, .f32⟩ : BufTy).Contents (Elt F) → (⟨S2097151, .f32⟩ : BufTy).Contents (Elt F)) ]

/-- Stretch 5 of the tail: level 5 of the aggregation. -/
abbrev cut5 : List (HloOp τ sig (Elt F)) :=
  [ StableHlo.unary main_v0 main_v40 ((extractStridedSlice S65536 ![65535] · slices_S2097151_S65536_65535) : (⟨S2097151, .f32⟩ : BufTy).Contents (Elt F) → (⟨S65536, .f32⟩ : BufTy).Contents (Elt F)),
    StableHlo.unary main_v39 main_v41 ((extractStridedSlice S65536 ![65535] · slices_S2097151_S65536_65535) : (⟨S2097151, .f32⟩ : BufTy).Contents (Elt F) → (⟨S65536, .f32⟩ : BufTy).Contents (Elt F)),
    StableHlo.binary main_v40 main_v41 main_v42 (mulf : (⟨S65536, .f32⟩ : BufTy).Contents (Elt F) → (⟨S65536, .f32⟩ : BufTy).Contents (Elt F) → (⟨S65536, .f32⟩ : BufTy).Contents (Elt F)),
    StableHlo.reshape main_v42 main_v43 rfl shapeCasts_S65536_S32768x2,
    StableHlo.nullary main_cst_8 (constant S_ .f32 0x00000000#32),
    StableHlo.binary main_v43 main_cst_8 main_v44 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    StableHlo.unary main_v39 main_v45 ((extractStridedSlice S32768 ![32767] · slices_S2097151_S32768_32767) : (⟨S2097151, .f32⟩ : BufTy).Contents (Elt F) → (⟨S32768, .f32⟩ : BufTy).Contents (Elt F)),
    StableHlo.binary main_v45 main_v44 main_v46 (addf : (⟨S32768, .f32⟩ : BufTy).Contents (Elt F) → (⟨S32768, .f32⟩ : BufTy).Contents (Elt F) → (⟨S32768, .f32⟩ : BufTy).Contents (Elt F)),
    StableHlo.nullary main_c_9 (constantI S_ 32 32767#32),
    StableHlo.unary main_c_9 main_v47 (broadcastInDim S1 ![] bcast_S_S1 : (⟨S_, .i32⟩ : BufTy).Contents (Elt F) → (⟨S1, .i32⟩ : BufTy).Contents (Elt F)),
    StableHlo.ternary main_v39 main_v47 main_v46 main_v48 ((fun x i u => Host.scatter scatter_S2097151_S1_S32768_0_n_0_0 (fun _ b => b) x i u) : (⟨S2097151, .f32⟩ : BufTy).Contents (Elt F) → (⟨S1, .i32⟩ : BufTy).Contents (Elt F) → (⟨S32768, .f32⟩ : BufTy).Contents (Elt F) → (⟨S2097151, .f32⟩ : BufTy).Contents (Elt F)) ]

/-- Stretch 6 of the tail: level 6 of the aggregation. -/
abbrev cut6 : List (HloOp τ sig (Elt F)) :=
  [ StableHlo.unary main_v0 main_v49 ((extractStridedSlice S32768 ![32767] · slices_S2097151_S32768_32767) : (⟨S2097151, .f32⟩ : BufTy).Contents (Elt F) → (⟨S32768, .f32⟩ : BufTy).Contents (Elt F)),
    StableHlo.unary main_v48 main_v50 ((extractStridedSlice S32768 ![32767] · slices_S2097151_S32768_32767) : (⟨S2097151, .f32⟩ : BufTy).Contents (Elt F) → (⟨S32768, .f32⟩ : BufTy).Contents (Elt F)),
    StableHlo.binary main_v49 main_v50 main_v51 (mulf : (⟨S32768, .f32⟩ : BufTy).Contents (Elt F) → (⟨S32768, .f32⟩ : BufTy).Contents (Elt F) → (⟨S32768, .f32⟩ : BufTy).Contents (Elt F)),
    StableHlo.reshape main_v51 main_v52 rfl shapeCasts_S32768_S16384x2,
    StableHlo.nullary main_cst_10 (constant S_ .f32 0x00000000#32),
    StableHlo.binary main_v52 main_cst_10 main_v53 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.unary main_v48 main_v54 ((extractStridedSlice S16384 ![16383] · slices_S2097151_S16384_16383) : (⟨S2097151, .f32⟩ : BufTy).Contents (Elt F) → (⟨S16384, .f32⟩ : BufTy).Contents (Elt F)),
    StableHlo.binary main_v54 main_v53 main_v55 (addf : (⟨S16384, .f32⟩ : BufTy).Contents (Elt F) → (⟨S16384, .f32⟩ : BufTy).Contents (Elt F) → (⟨S16384, .f32⟩ : BufTy).Contents (Elt F)),
    StableHlo.nullary main_c_11 (constantI S_ 32 16383#32),
    StableHlo.unary main_c_11 main_v56 (broadcastInDim S1 ![] bcast_S_S1 : (⟨S_, .i32⟩ : BufTy).Contents (Elt F) → (⟨S1, .i32⟩ : BufTy).Contents (Elt F)),
    StableHlo.ternary main_v48 main_v56 main_v55 main_v57 ((fun x i u => Host.scatter scatter_S2097151_S1_S16384_0_n_0_0 (fun _ b => b) x i u) : (⟨S2097151, .f32⟩ : BufTy).Contents (Elt F) → (⟨S1, .i32⟩ : BufTy).Contents (Elt F) → (⟨S16384, .f32⟩ : BufTy).Contents (Elt F) → (⟨S2097151, .f32⟩ : BufTy).Contents (Elt F)) ]

/-- Stretch 7 of the tail: level 7 of the aggregation. -/
abbrev cut7 : List (HloOp τ sig (Elt F)) :=
  [ StableHlo.unary main_v0 main_v58 ((extractStridedSlice S16384 ![16383] · slices_S2097151_S16384_16383) : (⟨S2097151, .f32⟩ : BufTy).Contents (Elt F) → (⟨S16384, .f32⟩ : BufTy).Contents (Elt F)),
    StableHlo.unary main_v57 main_v59 ((extractStridedSlice S16384 ![16383] · slices_S2097151_S16384_16383) : (⟨S2097151, .f32⟩ : BufTy).Contents (Elt F) → (⟨S16384, .f32⟩ : BufTy).Contents (Elt F)),
    StableHlo.binary main_v58 main_v59 main_v60 (mulf : (⟨S16384, .f32⟩ : BufTy).Contents (Elt F) → (⟨S16384, .f32⟩ : BufTy).Contents (Elt F) → (⟨S16384, .f32⟩ : BufTy).Contents (Elt F)),
    StableHlo.reshape main_v60 main_v61 rfl shapeCasts_S16384_S8192x2,
    StableHlo.nullary main_cst_12 (constant S_ .f32 0x00000000#32),
    StableHlo.binary main_v61 main_cst_12 main_v62 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    StableHlo.unary main_v57 main_v63 ((extractStridedSlice S8192 ![8191] · slices_S2097151_S8192_8191) : (⟨S2097151, .f32⟩ : BufTy).Contents (Elt F) → (⟨S8192, .f32⟩ : BufTy).Contents (Elt F)),
    StableHlo.binary main_v63 main_v62 main_v64 (addf : (⟨S8192, .f32⟩ : BufTy).Contents (Elt F) → (⟨S8192, .f32⟩ : BufTy).Contents (Elt F) → (⟨S8192, .f32⟩ : BufTy).Contents (Elt F)),
    StableHlo.nullary main_c_13 (constantI S_ 32 8191#32),
    StableHlo.unary main_c_13 main_v65 (broadcastInDim S1 ![] bcast_S_S1 : (⟨S_, .i32⟩ : BufTy).Contents (Elt F) → (⟨S1, .i32⟩ : BufTy).Contents (Elt F)),
    StableHlo.ternary main_v57 main_v65 main_v64 main_v66 ((fun x i u => Host.scatter scatter_S2097151_S1_S8192_0_n_0_0 (fun _ b => b) x i u) : (⟨S2097151, .f32⟩ : BufTy).Contents (Elt F) → (⟨S1, .i32⟩ : BufTy).Contents (Elt F) → (⟨S8192, .f32⟩ : BufTy).Contents (Elt F) → (⟨S2097151, .f32⟩ : BufTy).Contents (Elt F)) ]

/-- Stretch 8 of the tail: level 8 of the aggregation. -/
abbrev cut8 : List (HloOp τ sig (Elt F)) :=
  [ StableHlo.unary main_v0 main_v67 ((extractStridedSlice S8192 ![8191] · slices_S2097151_S8192_8191) : (⟨S2097151, .f32⟩ : BufTy).Contents (Elt F) → (⟨S8192, .f32⟩ : BufTy).Contents (Elt F)),
    StableHlo.unary main_v66 main_v68 ((extractStridedSlice S8192 ![8191] · slices_S2097151_S8192_8191) : (⟨S2097151, .f32⟩ : BufTy).Contents (Elt F) → (⟨S8192, .f32⟩ : BufTy).Contents (Elt F)),
    StableHlo.binary main_v67 main_v68 main_v69 (mulf : (⟨S8192, .f32⟩ : BufTy).Contents (Elt F) → (⟨S8192, .f32⟩ : BufTy).Contents (Elt F) → (⟨S8192, .f32⟩ : BufTy).Contents (Elt F)),
    StableHlo.reshape main_v69 main_v70 rfl shapeCasts_S8192_S4096x2,
    StableHlo.nullary main_cst_14 (constant S_ .f32 0x00000000#32),
    StableHlo.binary main_v70 main_cst_14 main_v71 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    StableHlo.unary main_v66 main_v72 ((extractStridedSlice S4096 ![4095] · slices_S2097151_S4096_4095) : (⟨S2097151, .f32⟩ : BufTy).Contents (Elt F) → (⟨S4096, .f32⟩ : BufTy).Contents (Elt F)),
    StableHlo.binary main_v72 main_v71 main_v73 (addf : (⟨S4096, .f32⟩ : BufTy).Contents (Elt F) → (⟨S4096, .f32⟩ : BufTy).Contents (Elt F) → (⟨S4096, .f32⟩ : BufTy).Contents (Elt F)),
    StableHlo.nullary main_c_15 (constantI S_ 32 4095#32),
    StableHlo.unary main_c_15 main_v74 (broadcastInDim S1 ![] bcast_S_S1 : (⟨S_, .i32⟩ : BufTy).Contents (Elt F) → (⟨S1, .i32⟩ : BufTy).Contents (Elt F)),
    StableHlo.ternary main_v66 main_v74 main_v73 main_v75 ((fun x i u => Host.scatter scatter_S2097151_S1_S4096_0_n_0_0 (fun _ b => b) x i u) : (⟨S2097151, .f32⟩ : BufTy).Contents (Elt F) → (⟨S1, .i32⟩ : BufTy).Contents (Elt F) → (⟨S4096, .f32⟩ : BufTy).Contents (Elt F) → (⟨S2097151, .f32⟩ : BufTy).Contents (Elt F)) ]

/-- Stretch 9 of the tail: level 9 of the aggregation. -/
abbrev cut9 : List (HloOp τ sig (Elt F)) :=
  [ StableHlo.unary main_v0 main_v76 ((extractStridedSlice S4096 ![4095] · slices_S2097151_S4096_4095) : (⟨S2097151, .f32⟩ : BufTy).Contents (Elt F) → (⟨S4096, .f32⟩ : BufTy).Contents (Elt F)),
    StableHlo.unary main_v75 main_v77 ((extractStridedSlice S4096 ![4095] · slices_S2097151_S4096_4095) : (⟨S2097151, .f32⟩ : BufTy).Contents (Elt F) → (⟨S4096, .f32⟩ : BufTy).Contents (Elt F)),
    StableHlo.binary main_v76 main_v77 main_v78 (mulf : (⟨S4096, .f32⟩ : BufTy).Contents (Elt F) → (⟨S4096, .f32⟩ : BufTy).Contents (Elt F) → (⟨S4096, .f32⟩ : BufTy).Contents (Elt F)),
    StableHlo.reshape main_v78 main_v79 rfl shapeCasts_S4096_S2048x2,
    StableHlo.nullary main_cst_16 (constant S_ .f32 0x00000000#32),
    StableHlo.binary main_v79 main_cst_16 main_v80 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    StableHlo.unary main_v75 main_v81 ((extractStridedSlice S2048 ![2047] · slices_S2097151_S2048_2047) : (⟨S2097151, .f32⟩ : BufTy).Contents (Elt F) → (⟨S2048, .f32⟩ : BufTy).Contents (Elt F)),
    StableHlo.binary main_v81 main_v80 main_v82 (addf : (⟨S2048, .f32⟩ : BufTy).Contents (Elt F) → (⟨S2048, .f32⟩ : BufTy).Contents (Elt F) → (⟨S2048, .f32⟩ : BufTy).Contents (Elt F)),
    StableHlo.nullary main_c_17 (constantI S_ 32 2047#32),
    StableHlo.unary main_c_17 main_v83 (broadcastInDim S1 ![] bcast_S_S1 : (⟨S_, .i32⟩ : BufTy).Contents (Elt F) → (⟨S1, .i32⟩ : BufTy).Contents (Elt F)),
    StableHlo.ternary main_v75 main_v83 main_v82 main_v84 ((fun x i u => Host.scatter scatter_S2097151_S1_S2048_0_n_0_0 (fun _ b => b) x i u) : (⟨S2097151, .f32⟩ : BufTy).Contents (Elt F) → (⟨S1, .i32⟩ : BufTy).Contents (Elt F) → (⟨S2048, .f32⟩ : BufTy).Contents (Elt F) → (⟨S2097151, .f32⟩ : BufTy).Contents (Elt F)) ]

/-- Stretch 10 of the tail: level 10 of the aggregation. -/
abbrev cut10 : List (HloOp τ sig (Elt F)) :=
  [ StableHlo.unary main_v0 main_v85 ((extractStridedSlice S2048 ![2047] · slices_S2097151_S2048_2047) : (⟨S2097151, .f32⟩ : BufTy).Contents (Elt F) → (⟨S2048, .f32⟩ : BufTy).Contents (Elt F)),
    StableHlo.unary main_v84 main_v86 ((extractStridedSlice S2048 ![2047] · slices_S2097151_S2048_2047) : (⟨S2097151, .f32⟩ : BufTy).Contents (Elt F) → (⟨S2048, .f32⟩ : BufTy).Contents (Elt F)),
    StableHlo.binary main_v85 main_v86 main_v87 (mulf : (⟨S2048, .f32⟩ : BufTy).Contents (Elt F) → (⟨S2048, .f32⟩ : BufTy).Contents (Elt F) → (⟨S2048, .f32⟩ : BufTy).Contents (Elt F)),
    StableHlo.reshape main_v87 main_v88 rfl shapeCasts_S2048_S1024x2,
    StableHlo.nullary main_cst_18 (constant S_ .f32 0x00000000#32),
    StableHlo.binary main_v88 main_cst_18 main_v89 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.unary main_v84 main_v90 ((extractStridedSlice S1024 ![1023] · slices_S2097151_S1024_1023) : (⟨S2097151, .f32⟩ : BufTy).Contents (Elt F) → (⟨S1024, .f32⟩ : BufTy).Contents (Elt F)),
    StableHlo.binary main_v90 main_v89 main_v91 (addf : (⟨S1024, .f32⟩ : BufTy).Contents (Elt F) → (⟨S1024, .f32⟩ : BufTy).Contents (Elt F) → (⟨S1024, .f32⟩ : BufTy).Contents (Elt F)),
    StableHlo.nullary main_c_19 (constantI S_ 32 1023#32),
    StableHlo.unary main_c_19 main_v92 (broadcastInDim S1 ![] bcast_S_S1 : (⟨S_, .i32⟩ : BufTy).Contents (Elt F) → (⟨S1, .i32⟩ : BufTy).Contents (Elt F)),
    StableHlo.ternary main_v84 main_v92 main_v91 main_v93 ((fun x i u => Host.scatter scatter_S2097151_S1_S1024_0_n_0_0 (fun _ b => b) x i u) : (⟨S2097151, .f32⟩ : BufTy).Contents (Elt F) → (⟨S1, .i32⟩ : BufTy).Contents (Elt F) → (⟨S1024, .f32⟩ : BufTy).Contents (Elt F) → (⟨S2097151, .f32⟩ : BufTy).Contents (Elt F)) ]

/-- Stretch 11 of the tail: level 11 of the aggregation. -/
abbrev cut11 : List (HloOp τ sig (Elt F)) :=
  [ StableHlo.unary main_v0 main_v94 ((extractStridedSlice S1024 ![1023] · slices_S2097151_S1024_1023) : (⟨S2097151, .f32⟩ : BufTy).Contents (Elt F) → (⟨S1024, .f32⟩ : BufTy).Contents (Elt F)),
    StableHlo.unary main_v93 main_v95 ((extractStridedSlice S1024 ![1023] · slices_S2097151_S1024_1023) : (⟨S2097151, .f32⟩ : BufTy).Contents (Elt F) → (⟨S1024, .f32⟩ : BufTy).Contents (Elt F)),
    StableHlo.binary main_v94 main_v95 main_v96 (mulf : (⟨S1024, .f32⟩ : BufTy).Contents (Elt F) → (⟨S1024, .f32⟩ : BufTy).Contents (Elt F) → (⟨S1024, .f32⟩ : BufTy).Contents (Elt F)),
    StableHlo.reshape main_v96 main_v97 rfl shapeCasts_S1024_S512x2,
    StableHlo.nullary main_cst_20 (constant S_ .f32 0x00000000#32),
    StableHlo.binary main_v97 main_cst_20 main_v98 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.unary main_v93 main_v99 ((extractStridedSlice S512 ![511] · slices_S2097151_S512_511) : (⟨S2097151, .f32⟩ : BufTy).Contents (Elt F) → (⟨S512, .f32⟩ : BufTy).Contents (Elt F)),
    StableHlo.binary main_v99 main_v98 main_v100 (addf : (⟨S512, .f32⟩ : BufTy).Contents (Elt F) → (⟨S512, .f32⟩ : BufTy).Contents (Elt F) → (⟨S512, .f32⟩ : BufTy).Contents (Elt F)),
    StableHlo.nullary main_c_21 (constantI S_ 32 511#32),
    StableHlo.unary main_c_21 main_v101 (broadcastInDim S1 ![] bcast_S_S1 : (⟨S_, .i32⟩ : BufTy).Contents (Elt F) → (⟨S1, .i32⟩ : BufTy).Contents (Elt F)),
    StableHlo.ternary main_v93 main_v101 main_v100 main_v102 ((fun x i u => Host.scatter scatter_S2097151_S1_S512_0_n_0_0 (fun _ b => b) x i u) : (⟨S2097151, .f32⟩ : BufTy).Contents (Elt F) → (⟨S1, .i32⟩ : BufTy).Contents (Elt F) → (⟨S512, .f32⟩ : BufTy).Contents (Elt F) → (⟨S2097151, .f32⟩ : BufTy).Contents (Elt F)) ]

/-- Stretch 12 of the tail: level 12 of the aggregation. -/
abbrev cut12 : List (HloOp τ sig (Elt F)) :=
  [ StableHlo.unary main_v0 main_v103 ((extractStridedSlice S512 ![511] · slices_S2097151_S512_511) : (⟨S2097151, .f32⟩ : BufTy).Contents (Elt F) → (⟨S512, .f32⟩ : BufTy).Contents (Elt F)),
    StableHlo.unary main_v102 main_v104 ((extractStridedSlice S512 ![511] · slices_S2097151_S512_511) : (⟨S2097151, .f32⟩ : BufTy).Contents (Elt F) → (⟨S512, .f32⟩ : BufTy).Contents (Elt F)),
    StableHlo.binary main_v103 main_v104 main_v105 (mulf : (⟨S512, .f32⟩ : BufTy).Contents (Elt F) → (⟨S512, .f32⟩ : BufTy).Contents (Elt F) → (⟨S512, .f32⟩ : BufTy).Contents (Elt F)),
    StableHlo.reshape main_v105 main_v106 rfl shapeCasts_S512_S256x2,
    StableHlo.nullary main_cst_22 (constant S_ .f32 0x00000000#32),
    StableHlo.binary main_v106 main_cst_22 main_v107 ((fun x v => Host.reduceAdd x v reducesTo_S256x2_S256_d1 h_S_) : (⟨S256x2, .f32⟩ : BufTy).Contents (Elt F) → (⟨S_, .f32⟩ : BufTy).Contents (Elt F) → (⟨S256, .f32⟩ : BufTy).Contents (Elt F)),
    StableHlo.unary main_v102 main_v108 ((extractStridedSlice S256 ![255] · slices_S2097151_S256_255) : (⟨S2097151, .f32⟩ : BufTy).Contents (Elt F) → (⟨S256, .f32⟩ : BufTy).Contents (Elt F)),
    StableHlo.binary main_v108 main_v107 main_v109 (addf : (⟨S256, .f32⟩ : BufTy).Contents (Elt F) → (⟨S256, .f32⟩ : BufTy).Contents (Elt F) → (⟨S256, .f32⟩ : BufTy).Contents (Elt F)),
    StableHlo.nullary main_c_23 (constantI S_ 32 255#32),
    StableHlo.unary main_c_23 main_v110 (broadcastInDim S1 ![] bcast_S_S1 : (⟨S_, .i32⟩ : BufTy).Contents (Elt F) → (⟨S1, .i32⟩ : BufTy).Contents (Elt F)),
    StableHlo.ternary main_v102 main_v110 main_v109 main_v111 ((fun x i u => Host.scatter scatter_S2097151_S1_S256_0_n_0_0 (fun _ b => b) x i u) : (⟨S2097151, .f32⟩ : BufTy).Contents (Elt F) → (⟨S1, .i32⟩ : BufTy).Contents (Elt F) → (⟨S256, .f32⟩ : BufTy).Contents (Elt F) → (⟨S2097151, .f32⟩ : BufTy).Contents (Elt F)) ]

/-- Stretch 13 of the tail: level 13 of the aggregation. -/
abbrev cut13 : List (HloOp τ sig (Elt F)) :=
  [ StableHlo.unary main_v0 main_v112 ((extractStridedSlice S256 ![255] · slices_S2097151_S256_255) : (⟨S2097151, .f32⟩ : BufTy).Contents (Elt F) → (⟨S256, .f32⟩ : BufTy).Contents (Elt F)),
    StableHlo.unary main_v111 main_v113 ((extractStridedSlice S256 ![255] · slices_S2097151_S256_255) : (⟨S2097151, .f32⟩ : BufTy).Contents (Elt F) → (⟨S256, .f32⟩ : BufTy).Contents (Elt F)),
    StableHlo.binary main_v112 main_v113 main_v114 (mulf : (⟨S256, .f32⟩ : BufTy).Contents (Elt F) → (⟨S256, .f32⟩ : BufTy).Contents (Elt F) → (⟨S256, .f32⟩ : BufTy).Contents (Elt F)),
    StableHlo.reshape main_v114 main_v115 rfl shapeCasts_S256_S128x2,
    StableHlo.nullary main_cst_24 (constant S_ .f32 0x00000000#32),
    StableHlo.binary main_v115 main_cst_24 main_v116 ((fun x v => Host.reduceAdd x v reducesTo_S128x2_S128_d1 h_S_) : (⟨S128x2, .f32⟩ : BufTy).Contents (Elt F) → (⟨S_, .f32⟩ : BufTy).Contents (Elt F) → (⟨S128, .f32⟩ : BufTy).Contents (Elt F)),
    StableHlo.unary main_v111 main_v117 ((extractStridedSlice S128 ![127] · slices_S2097151_S128_127) : (⟨S2097151, .f32⟩ : BufTy).Contents (Elt F) → (⟨S128, .f32⟩ : BufTy).Contents (Elt F)),
    StableHlo.binary main_v117 main_v116 main_v118 (addf : (⟨S128, .f32⟩ : BufTy).Contents (Elt F) → (⟨S128, .f32⟩ : BufTy).Contents (Elt F) → (⟨S128, .f32⟩ : BufTy).Contents (Elt F)),
    StableHlo.nullary main_c_25 (constantI S_ 32 127#32),
    StableHlo.unary main_c_25 main_v119 (broadcastInDim S1 ![] bcast_S_S1 : (⟨S_, .i32⟩ : BufTy).Contents (Elt F) → (⟨S1, .i32⟩ : BufTy).Contents (Elt F)),
    StableHlo.ternary main_v111 main_v119 main_v118 main_v120 ((fun x i u => Host.scatter scatter_S2097151_S1_S128_0_n_0_0 (fun _ b => b) x i u) : (⟨S2097151, .f32⟩ : BufTy).Contents (Elt F) → (⟨S1, .i32⟩ : BufTy).Contents (Elt F) → (⟨S128, .f32⟩ : BufTy).Contents (Elt F) → (⟨S2097151, .f32⟩ : BufTy).Contents (Elt F)) ]

/-- Stretch 14 of the tail: level 14 of the aggregation. -/
abbrev cut14 : List (HloOp τ sig (Elt F)) :=
  [ StableHlo.unary main_v0 main_v121 ((extractStridedSlice S128 ![127] · slices_S2097151_S128_127) : (⟨S2097151, .f32⟩ : BufTy).Contents (Elt F) → (⟨S128, .f32⟩ : BufTy).Contents (Elt F)),
    StableHlo.unary main_v120 main_v122 ((extractStridedSlice S128 ![127] · slices_S2097151_S128_127) : (⟨S2097151, .f32⟩ : BufTy).Contents (Elt F) → (⟨S128, .f32⟩ : BufTy).Contents (Elt F)),
    StableHlo.binary main_v121 main_v122 main_v123 (mulf : (⟨S128, .f32⟩ : BufTy).Contents (Elt F) → (⟨S128, .f32⟩ : BufTy).Contents (Elt F) → (⟨S128, .f32⟩ : BufTy).Contents (Elt F)),
    StableHlo.reshape main_v123 main_v124 rfl shapeCasts_S128_S64x2,
    StableHlo.nullary main_cst_26 (constant S_ .f32 0x00000000#32),
    StableHlo.binary main_v124 main_cst_26 main_v125 ((fun x v => Host.reduceAdd x v reducesTo_S64x2_S64_d1 h_S_) : (⟨S64x2, .f32⟩ : BufTy).Contents (Elt F) → (⟨S_, .f32⟩ : BufTy).Contents (Elt F) → (⟨S64, .f32⟩ : BufTy).Contents (Elt F)),
    StableHlo.unary main_v120 main_v126 ((extractStridedSlice S64 ![63] · slices_S2097151_S64_63) : (⟨S2097151, .f32⟩ : BufTy).Contents (Elt F) → (⟨S64, .f32⟩ : BufTy).Contents (Elt F)),
    StableHlo.binary main_v126 main_v125 main_v127 (addf : (⟨S64, .f32⟩ : BufTy).Contents (Elt F) → (⟨S64, .f32⟩ : BufTy).Contents (Elt F) → (⟨S64, .f32⟩ : BufTy).Contents (Elt F)),
    StableHlo.nullary main_c_27 (constantI S_ 32 63#32),
    StableHlo.unary main_c_27 main_v128 (broadcastInDim S1 ![] bcast_S_S1 : (⟨S_, .i32⟩ : BufTy).Contents (Elt F) → (⟨S1, .i32⟩ : BufTy).Contents (Elt F)),
    StableHlo.ternary main_v120 main_v128 main_v127 main_v129 ((fun x i u => Host.scatter scatter_S2097151_S1_S64_0_n_0_0 (fun _ b => b) x i u) : (⟨S2097151, .f32⟩ : BufTy).Contents (Elt F) → (⟨S1, .i32⟩ : BufTy).Contents (Elt F) → (⟨S64, .f32⟩ : BufTy).Contents (Elt F) → (⟨S2097151, .f32⟩ : BufTy).Contents (Elt F)) ]

/-- Stretch 15 of the tail: level 15 of the aggregation. -/
abbrev cut15 : List (HloOp τ sig (Elt F)) :=
  [ StableHlo.unary main_v0 main_v130 ((extractStridedSlice S64 ![63] · slices_S2097151_S64_63) : (⟨S2097151, .f32⟩ : BufTy).Contents (Elt F) → (⟨S64, .f32⟩ : BufTy).Contents (Elt F)),
    StableHlo.unary main_v129 main_v131 ((extractStridedSlice S64 ![63] · slices_S2097151_S64_63) : (⟨S2097151, .f32⟩ : BufTy).Contents (Elt F) → (⟨S64, .f32⟩ : BufTy).Contents (Elt F)),
    StableHlo.binary main_v130 main_v131 main_v132 (mulf : (⟨S64, .f32⟩ : BufTy).Contents (Elt F) → (⟨S64, .f32⟩ : BufTy).Contents (Elt F) → (⟨S64, .f32⟩ : BufTy).Contents (Elt F)),
    StableHlo.reshape main_v132 main_v133 rfl shapeCasts_S64_S32x2,
    StableHlo.nullary main_cst_28 (constant S_ .f32 0x00000000#32),
    StableHlo.binary main_v133 main_cst_28 main_v134 ((fun x v => Host.reduceAdd x v reducesTo_S32x2_S32_d1 h_S_) : (⟨S32x2, .f32⟩ : BufTy).Contents (Elt F) → (⟨S_, .f32⟩ : BufTy).Contents (Elt F) → (⟨S32, .f32⟩ : BufTy).Contents (Elt F)),
    StableHlo.unary main_v129 main_v135 ((extractStridedSlice S32 ![31] · slices_S2097151_S32_31) : (⟨S2097151, .f32⟩ : BufTy).Contents (Elt F) → (⟨S32, .f32⟩ : BufTy).Contents (Elt F)),
    StableHlo.binary main_v135 main_v134 main_v136 (addf : (⟨S32, .f32⟩ : BufTy).Contents (Elt F) → (⟨S32, .f32⟩ : BufTy).Contents (Elt F) → (⟨S32, .f32⟩ : BufTy).Contents (Elt F)),
    StableHlo.nullary main_c_29 (constantI S_ 32 31#32),
    StableHlo.unary main_c_29 main_v137 (broadcastInDim S1 ![] bcast_S_S1 : (⟨S_, .i32⟩ : BufTy).Contents (Elt F) → (⟨S1, .i32⟩ : BufTy).Contents (Elt F)),
    StableHlo.ternary main_v129 main_v137 main_v136 main_v138 ((fun x i u => Host.scatter scatter_S2097151_S1_S32_0_n_0_0 (fun _ b => b) x i u) : (⟨S2097151, .f32⟩ : BufTy).Contents (Elt F) → (⟨S1, .i32⟩ : BufTy).Contents (Elt F) → (⟨S32, .f32⟩ : BufTy).Contents (Elt F) → (⟨S2097151, .f32⟩ : BufTy).Contents (Elt F)) ]

/-- Stretch 16 of the tail: level 16 of the aggregation. -/
abbrev cut16 : List (HloOp τ sig (Elt F)) :=
  [ StableHlo.unary main_v0 main_v139 ((extractStridedSlice S32 ![31] · slices_S2097151_S32_31) : (⟨S2097151, .f32⟩ : BufTy).Contents (Elt F) → (⟨S32, .f32⟩ : BufTy).Contents (Elt F)),
    StableHlo.unary main_v138 main_v140 ((extractStridedSlice S32 ![31] · slices_S2097151_S32_31) : (⟨S2097151, .f32⟩ : BufTy).Contents (Elt F) → (⟨S32, .f32⟩ : BufTy).Contents (Elt F)),
    StableHlo.binary main_v139 main_v140 main_v141 (mulf : (⟨S32, .f32⟩ : BufTy).Contents (Elt F) → (⟨S32, .f32⟩ : BufTy).Contents (Elt F) → (⟨S32, .f32⟩ : BufTy).Contents (Elt F)),
    StableHlo.reshape main_v141 main_v142 rfl shapeCasts_S32_S16x2,
    StableHlo.nullary main_cst_30 (constant S_ .f32 0x00000000#32),
    StableHlo.binary main_v142 main_cst_30 main_v143 ((fun x v => Host.reduceAdd x v reducesTo_S16x2_S16_d1 h_S_) : (⟨S16x2, .f32⟩ : BufTy).Contents (Elt F) → (⟨S_, .f32⟩ : BufTy).Contents (Elt F) → (⟨S16, .f32⟩ : BufTy).Contents (Elt F)),
    StableHlo.unary main_v138 main_v144 ((extractStridedSlice S16 ![15] · slices_S2097151_S16_15) : (⟨S2097151, .f32⟩ : BufTy).Contents (Elt F) → (⟨S16, .f32⟩ : BufTy).Contents (Elt F)),
    StableHlo.binary main_v144 main_v143 main_v145 (addf : (⟨S16, .f32⟩ : BufTy).Contents (Elt F) → (⟨S16, .f32⟩ : BufTy).Contents (Elt F) → (⟨S16, .f32⟩ : BufTy).Contents (Elt F)),
    StableHlo.nullary main_c_31 (constantI S_ 32 15#32),
    StableHlo.unary main_c_31 main_v146 (broadcastInDim S1 ![] bcast_S_S1 : (⟨S_, .i32⟩ : BufTy).Contents (Elt F) → (⟨S1, .i32⟩ : BufTy).Contents (Elt F)),
    StableHlo.ternary main_v138 main_v146 main_v145 main_v147 ((fun x i u => Host.scatter scatter_S2097151_S1_S16_0_n_0_0 (fun _ b => b) x i u) : (⟨S2097151, .f32⟩ : BufTy).Contents (Elt F) → (⟨S1, .i32⟩ : BufTy).Contents (Elt F) → (⟨S16, .f32⟩ : BufTy).Contents (Elt F) → (⟨S2097151, .f32⟩ : BufTy).Contents (Elt F)) ]

/-- Stretch 17 of the tail: level 17 of the aggregation. -/
abbrev cut17 : List (HloOp τ sig (Elt F)) :=
  [ StableHlo.unary main_v0 main_v148 ((extractStridedSlice S16 ![15] · slices_S2097151_S16_15) : (⟨S2097151, .f32⟩ : BufTy).Contents (Elt F) → (⟨S16, .f32⟩ : BufTy).Contents (Elt F)),
    StableHlo.unary main_v147 main_v149 ((extractStridedSlice S16 ![15] · slices_S2097151_S16_15) : (⟨S2097151, .f32⟩ : BufTy).Contents (Elt F) → (⟨S16, .f32⟩ : BufTy).Contents (Elt F)),
    StableHlo.binary main_v148 main_v149 main_v150 (mulf : (⟨S16, .f32⟩ : BufTy).Contents (Elt F) → (⟨S16, .f32⟩ : BufTy).Contents (Elt F) → (⟨S16, .f32⟩ : BufTy).Contents (Elt F)),
    StableHlo.reshape main_v150 main_v151 rfl shapeCasts_S16_S8x2,
    StableHlo.nullary main_cst_32 (constant S_ .f32 0x00000000#32),
    StableHlo.binary main_v151 main_cst_32 main_v152 ((fun x v => Host.reduceAdd x v reducesTo_S8x2_S8_d1 h_S_) : (⟨S8x2, .f32⟩ : BufTy).Contents (Elt F) → (⟨S_, .f32⟩ : BufTy).Contents (Elt F) → (⟨S8, .f32⟩ : BufTy).Contents (Elt F)),
    StableHlo.unary main_v147 main_v153 ((extractStridedSlice S8 ![7] · slices_S2097151_S8_7) : (⟨S2097151, .f32⟩ : BufTy).Contents (Elt F) → (⟨S8, .f32⟩ : BufTy).Contents (Elt F)),
    StableHlo.binary main_v153 main_v152 main_v154 (addf : (⟨S8, .f32⟩ : BufTy).Contents (Elt F) → (⟨S8, .f32⟩ : BufTy).Contents (Elt F) → (⟨S8, .f32⟩ : BufTy).Contents (Elt F)),
    StableHlo.nullary main_c_33 (constantI S_ 32 7#32),
    StableHlo.unary main_c_33 main_v155 (broadcastInDim S1 ![] bcast_S_S1 : (⟨S_, .i32⟩ : BufTy).Contents (Elt F) → (⟨S1, .i32⟩ : BufTy).Contents (Elt F)),
    StableHlo.ternary main_v147 main_v155 main_v154 main_v156 ((fun x i u => Host.scatter scatter_S2097151_S1_S8_0_n_0_0 (fun _ b => b) x i u) : (⟨S2097151, .f32⟩ : BufTy).Contents (Elt F) → (⟨S1, .i32⟩ : BufTy).Contents (Elt F) → (⟨S8, .f32⟩ : BufTy).Contents (Elt F) → (⟨S2097151, .f32⟩ : BufTy).Contents (Elt F)) ]

/-- Stretch 18 of the tail: level 18 of the aggregation. -/
abbrev cut18 : List (HloOp τ sig (Elt F)) :=
  [ StableHlo.unary main_v0 main_v157 ((extractStridedSlice S8 ![7] · slices_S2097151_S8_7) : (⟨S2097151, .f32⟩ : BufTy).Contents (Elt F) → (⟨S8, .f32⟩ : BufTy).Contents (Elt F)),
    StableHlo.unary main_v156 main_v158 ((extractStridedSlice S8 ![7] · slices_S2097151_S8_7) : (⟨S2097151, .f32⟩ : BufTy).Contents (Elt F) → (⟨S8, .f32⟩ : BufTy).Contents (Elt F)),
    StableHlo.binary main_v157 main_v158 main_v159 (mulf : (⟨S8, .f32⟩ : BufTy).Contents (Elt F) → (⟨S8, .f32⟩ : BufTy).Contents (Elt F) → (⟨S8, .f32⟩ : BufTy).Contents (Elt F)),
    StableHlo.reshape main_v159 main_v160 rfl shapeCasts_S8_S4x2,
    StableHlo.nullary main_cst_34 (constant S_ .f32 0x00000000#32),
    StableHlo.binary main_v160 main_cst_34 main_v161 ((fun x v => Host.reduceAdd x v reducesTo_S4x2_S4_d1 h_S_) : (⟨S4x2, .f32⟩ : BufTy).Contents (Elt F) → (⟨S_, .f32⟩ : BufTy).Contents (Elt F) → (⟨S4, .f32⟩ : BufTy).Contents (Elt F)),
    StableHlo.unary main_v156 main_v162 ((extractStridedSlice S4 ![3] · slices_S2097151_S4_3) : (⟨S2097151, .f32⟩ : BufTy).Contents (Elt F) → (⟨S4, .f32⟩ : BufTy).Contents (Elt F)),
    StableHlo.binary main_v162 main_v161 main_v163 (addf : (⟨S4, .f32⟩ : BufTy).Contents (Elt F) → (⟨S4, .f32⟩ : BufTy).Contents (Elt F) → (⟨S4, .f32⟩ : BufTy).Contents (Elt F)),
    StableHlo.nullary main_c_35 (constantI S_ 32 3#32),
    StableHlo.unary main_c_35 main_v164 (broadcastInDim S1 ![] bcast_S_S1 : (⟨S_, .i32⟩ : BufTy).Contents (Elt F) → (⟨S1, .i32⟩ : BufTy).Contents (Elt F)),
    StableHlo.ternary main_v156 main_v164 main_v163 main_v165 ((fun x i u => Host.scatter scatter_S2097151_S1_S4_0_n_0_0 (fun _ b => b) x i u) : (⟨S2097151, .f32⟩ : BufTy).Contents (Elt F) → (⟨S1, .i32⟩ : BufTy).Contents (Elt F) → (⟨S4, .f32⟩ : BufTy).Contents (Elt F) → (⟨S2097151, .f32⟩ : BufTy).Contents (Elt F)) ]

/-- Stretch 19 of the tail: level 19 of the aggregation. -/
abbrev cut19 : List (HloOp τ sig (Elt F)) :=
  [ StableHlo.unary main_v0 main_v166 ((extractStridedSlice S4 ![3] · slices_S2097151_S4_3) : (⟨S2097151, .f32⟩ : BufTy).Contents (Elt F) → (⟨S4, .f32⟩ : BufTy).Contents (Elt F)),
    StableHlo.unary main_v165 main_v167 ((extractStridedSlice S4 ![3] · slices_S2097151_S4_3) : (⟨S2097151, .f32⟩ : BufTy).Contents (Elt F) → (⟨S4, .f32⟩ : BufTy).Contents (Elt F)),
    StableHlo.binary main_v166 main_v167 main_v168 (mulf : (⟨S4, .f32⟩ : BufTy).Contents (Elt F) → (⟨S4, .f32⟩ : BufTy).Contents (Elt F) → (⟨S4, .f32⟩ : BufTy).Contents (Elt F)),
    StableHlo.reshape main_v168 main_v169 rfl shapeCasts_S4_S2x2,
    StableHlo.nullary main_cst_36 (constant S_ .f32 0x00000000#32),
    StableHlo.binary main_v169 main_cst_36 main_v170 ((fun x v => Host.reduceAdd x v reducesTo_S2x2_S2_d1 h_S_) : (⟨S2x2, .f32⟩ : BufTy).Contents (Elt F) → (⟨S_, .f32⟩ : BufTy).Contents (Elt F) → (⟨S2, .f32⟩ : BufTy).Contents (Elt F)),
    StableHlo.unary main_v165 main_v171 ((extractStridedSlice S2 ![1] · slices_S2097151_S2_1) : (⟨S2097151, .f32⟩ : BufTy).Contents (Elt F) → (⟨S2, .f32⟩ : BufTy).Contents (Elt F)),
    StableHlo.binary main_v171 main_v170 main_v172 (addf : (⟨S2, .f32⟩ : BufTy).Contents (Elt F) → (⟨S2, .f32⟩ : BufTy).Contents (Elt F) → (⟨S2, .f32⟩ : BufTy).Contents (Elt F)),
    StableHlo.nullary main_c_37 (constantI S_ 32 1#32),
    StableHlo.unary main_c_37 main_v173 (broadcastInDim S1 ![] bcast_S_S1 : (⟨S_, .i32⟩ : BufTy).Contents (Elt F) → (⟨S1, .i32⟩ : BufTy).Contents (Elt F)),
    StableHlo.ternary main_v165 main_v173 main_v172 main_v174 ((fun x i u => Host.scatter scatter_S2097151_S1_S2_0_n_0_0 (fun _ b => b) x i u) : (⟨S2097151, .f32⟩ : BufTy).Contents (Elt F) → (⟨S1, .i32⟩ : BufTy).Contents (Elt F) → (⟨S2, .f32⟩ : BufTy).Contents (Elt F) → (⟨S2097151, .f32⟩ : BufTy).Contents (Elt F)) ]

/-- Stretch 20 of the tail: level 20 of the aggregation. -/
abbrev cut20 : List (HloOp τ sig (Elt F)) :=
  [ StableHlo.unary main_v0 main_v175 ((extractStridedSlice S2 ![1] · slices_S2097151_S2_1) : (⟨S2097151, .f32⟩ : BufTy).Contents (Elt F) → (⟨S2, .f32⟩ : BufTy).Contents (Elt F)),
    StableHlo.unary main_v174 main_v176 ((extractStridedSlice S2 ![1] · slices_S2097151_S2_1) : (⟨S2097151, .f32⟩ : BufTy).Contents (Elt F) → (⟨S2, .f32⟩ : BufTy).Contents (Elt F)),
    StableHlo.binary main_v175 main_v176 main_v177 (mulf : (⟨S2, .f32⟩ : BufTy).Contents (Elt F) → (⟨S2, .f32⟩ : BufTy).Contents (Elt F) → (⟨S2, .f32⟩ : BufTy).Contents (Elt F)),
    StableHlo.reshape main_v177 main_v178 rfl shapeCasts_S2_S1x2,
    StableHlo.nullary main_cst_38 (constant S_ .f32 0x00000000#32),
    StableHlo.binary main_v178 main_cst_38 main_v179 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    StableHlo.unary main_v174 main_v180 ((extractStridedSlice S1 ![0] · slices_S2097151_S1_0) : (⟨S2097151, .f32⟩ : BufTy).Contents (Elt F) → (⟨S1, .f32⟩ : BufTy).Contents (Elt F)),
    StableHlo.binary main_v180 main_v179 main_v181 (addf : (⟨S1, .f32⟩ : BufTy).Contents (Elt F) → (⟨S1, .f32⟩ : BufTy).Contents (Elt F) → (⟨S1, .f32⟩ : BufTy).Contents (Elt F)),
    StableHlo.nullary main_c_39 (constantI S_ 32 0#32),
    StableHlo.unary main_c_39 main_v182 (broadcastInDim S1 ![] bcast_S_S1 : (⟨S_, .i32⟩ : BufTy).Contents (Elt F) → (⟨S1, .i32⟩ : BufTy).Contents (Elt F)),
    StableHlo.ternary main_v174 main_v182 main_v181 main_v183 ((fun x i u => Host.scatter scatter_S2097151_S1_S1_0_n_0_0 (fun _ b => b) x i u) : (⟨S2097151, .f32⟩ : BufTy).Contents (Elt F) → (⟨S1, .i32⟩ : BufTy).Contents (Elt F) → (⟨S1, .f32⟩ : BufTy).Contents (Elt F) → (⟨S2097151, .f32⟩ : BufTy).Contents (Elt F)) ]

/-- The tail is its 21 stretches in order. -/
theorem hostOps1_eq : (Gen.hostOps1 : List (HloOp τ sig (Elt F))) = cut0 ++ (cut1 ++ (cut2 ++ (cut3 ++ (cut4 ++ (cut5 ++ (cut6 ++ (cut7 ++ (cut8 ++ (cut9 ++ (cut10 ++ (cut11 ++ (cut12 ++ (cut13 ++ (cut14 ++ (cut15 ++ (cut16 ++ (cut17 ++ (cut18 ++ (cut19 ++ (cut20)))))))))))))))))))) := rfl

/-- Stretch 0 leaves level 0 of the leaf values in its last buffer. -/
theorem cut0_E (W : Valuation τ sig (Elt F)) :
    after cut0 W (Proc.devRef .tc main_v3) = Tree.lvl0 (W (Proc.devRef .tc main_arg1)) := by
  simp only [cut0]
  after_results_simp
  rfl
/-- Stretch 0 leaves the scores alone. -/
theorem cut0_s (W : Valuation τ sig (Elt F)) : after cut0 W (Proc.devRef .tc main_v0) = W (Proc.devRef .tc main_v0) := by
  simp only [cut0]
  after_results_simp

/-- Stretch 1 leaves level 1 of the scores and the previous aggregate in its last buffer. -/
theorem cut1_E (W : Valuation τ sig (Elt F)) :
    after cut1 W (Proc.devRef .tc main_v12) = Tree.lvl1 (W (Proc.devRef .tc main_v0)) (W (Proc.devRef .tc main_v3)) := by
  simp only [cut1]
  after_results_simp
  rfl
/-- Stretch 1 leaves the scores alone. -/
theorem cut1_s (W : Valuation τ sig (Elt F)) : after cut1 W (Proc.devRef .tc main_v0) = W (Proc.devRef .tc main_v0) := by
  simp only [cut1]
  after_results_simp

/-- Stretch 2 leaves level 2 of the scores and the previous aggregate in its last buffer. -/
theorem cut2_E (W : Valuation τ sig (Elt F)) :
    after cut2 W (Proc.devRef .tc main_v21) = Tree.lvl2 (W (Proc.devRef .tc main_v0)) (W (Proc.devRef .tc main_v12)) := by
  simp only [cut2]
  after_results_simp
  rfl
/-- Stretch 2 leaves the scores alone. -/
theorem cut2_s (W : Valuation τ sig (Elt F)) : after cut2 W (Proc.devRef .tc main_v0) = W (Proc.devRef .tc main_v0) := by
  simp only [cut2]
  after_results_simp

/-- Stretch 3 leaves level 3 of the scores and the previous aggregate in its last buffer. -/
theorem cut3_E (W : Valuation τ sig (Elt F)) :
    after cut3 W (Proc.devRef .tc main_v30) = Tree.lvl3 (W (Proc.devRef .tc main_v0)) (W (Proc.devRef .tc main_v21)) := by
  simp only [cut3]
  after_results_simp
  rfl
/-- Stretch 3 leaves the scores alone. -/
theorem cut3_s (W : Valuation τ sig (Elt F)) : after cut3 W (Proc.devRef .tc main_v0) = W (Proc.devRef .tc main_v0) := by
  simp only [cut3]
  after_results_simp

/-- Stretch 4 leaves level 4 of the scores and the previous aggregate in its last buffer. -/
theorem cut4_E (W : Valuation τ sig (Elt F)) :
    after cut4 W (Proc.devRef .tc main_v39) = Tree.lvl4 (W (Proc.devRef .tc main_v0)) (W (Proc.devRef .tc main_v30)) := by
  simp only [cut4]
  after_results_simp
  rfl
/-- Stretch 4 leaves the scores alone. -/
theorem cut4_s (W : Valuation τ sig (Elt F)) : after cut4 W (Proc.devRef .tc main_v0) = W (Proc.devRef .tc main_v0) := by
  simp only [cut4]
  after_results_simp

/-- Stretch 5 leaves level 5 of the scores and the previous aggregate in its last buffer. -/
theorem cut5_E (W : Valuation τ sig (Elt F)) :
    after cut5 W (Proc.devRef .tc main_v48) = Tree.lvl5 (W (Proc.devRef .tc main_v0)) (W (Proc.devRef .tc main_v39)) := by
  simp only [cut5]
  after_results_simp
  rfl
/-- Stretch 5 leaves the scores alone. -/
theorem cut5_s (W : Valuation τ sig (Elt F)) : after cut5 W (Proc.devRef .tc main_v0) = W (Proc.devRef .tc main_v0) := by
  simp only [cut5]
  after_results_simp

/-- Stretch 6 leaves level 6 of the scores and the previous aggregate in its last buffer. -/
theorem cut6_E (W : Valuation τ sig (Elt F)) :
    after cut6 W (Proc.devRef .tc main_v57) = Tree.lvl6 (W (Proc.devRef .tc main_v0)) (W (Proc.devRef .tc main_v48)) := by
  simp only [cut6]
  after_results_simp
  rfl
/-- Stretch 6 leaves the scores alone. -/
theorem cut6_s (W : Valuation τ sig (Elt F)) : after cut6 W (Proc.devRef .tc main_v0) = W (Proc.devRef .tc main_v0) := by
  simp only [cut6]
  after_results_simp

/-- Stretch 7 leaves level 7 of the scores and the previous aggregate in its last buffer. -/
theorem cut7_E (W : Valuation τ sig (Elt F)) :
    after cut7 W (Proc.devRef .tc main_v66) = Tree.lvl7 (W (Proc.devRef .tc main_v0)) (W (Proc.devRef .tc main_v57)) := by
  simp only [cut7]
  after_results_simp
  rfl
/-- Stretch 7 leaves the scores alone. -/
theorem cut7_s (W : Valuation τ sig (Elt F)) : after cut7 W (Proc.devRef .tc main_v0) = W (Proc.devRef .tc main_v0) := by
  simp only [cut7]
  after_results_simp

/-- Stretch 8 leaves level 8 of the scores and the previous aggregate in its last buffer. -/
theorem cut8_E (W : Valuation τ sig (Elt F)) :
    after cut8 W (Proc.devRef .tc main_v75) = Tree.lvl8 (W (Proc.devRef .tc main_v0)) (W (Proc.devRef .tc main_v66)) := by
  simp only [cut8]
  after_results_simp
  rfl
/-- Stretch 8 leaves the scores alone. -/
theorem cut8_s (W : Valuation τ sig (Elt F)) : after cut8 W (Proc.devRef .tc main_v0) = W (Proc.devRef .tc main_v0) := by
  simp only [cut8]
  after_results_simp

/-- Stretch 9 leaves level 9 of the scores and the previous aggregate in its last buffer. -/
theorem cut9_E (W : Valuation τ sig (Elt F)) :
    after cut9 W (Proc.devRef .tc main_v84) = Tree.lvl9 (W (Proc.devRef .tc main_v0)) (W (Proc.devRef .tc main_v75)) := by
  simp only [cut9]
  after_results_simp
  rfl
/-- Stretch 9 leaves the scores alone. -/
theorem cut9_s (W : Valuation τ sig (Elt F)) : after cut9 W (Proc.devRef .tc main_v0) = W (Proc.devRef .tc main_v0) := by
  simp only [cut9]
  after_results_simp

/-- Stretch 10 leaves level 10 of the scores and the previous aggregate in its last buffer. -/
theorem cut10_E (W : Valuation τ sig (Elt F)) :
    after cut10 W (Proc.devRef .tc main_v93) = Tree.lvl10 (W (Proc.devRef .tc main_v0)) (W (Proc.devRef .tc main_v84)) := by
  simp only [cut10]
  after_results_simp
  rfl
/-- Stretch 10 leaves the scores alone. -/
theorem cut10_s (W : Valuation τ sig (Elt F)) : after cut10 W (Proc.devRef .tc main_v0) = W (Proc.devRef .tc main_v0) := by
  simp only [cut10]
  after_results_simp

/-- Stretch 11 leaves level 11 of the scores and the previous aggregate in its last buffer. -/
theorem cut11_E (W : Valuation τ sig (Elt F)) :
    after cut11 W (Proc.devRef .tc main_v102) = Tree.lvl11 (W (Proc.devRef .tc main_v0)) (W (Proc.devRef .tc main_v93)) := by
  simp only [cut11]
  after_results_simp
  rfl
/-- Stretch 11 leaves the scores alone. -/
theorem cut11_s (W : Valuation τ sig (Elt F)) : after cut11 W (Proc.devRef .tc main_v0) = W (Proc.devRef .tc main_v0) := by
  simp only [cut11]
  after_results_simp

/-- Stretch 12 leaves level 12 of the scores and the previous aggregate in its last buffer. -/
theorem cut12_E (W : Valuation τ sig (Elt F)) :
    after cut12 W (Proc.devRef .tc main_v111) = Tree.lvl12 (W (Proc.devRef .tc main_v0)) (W (Proc.devRef .tc main_v102)) := by
  simp only [cut12]
  after_results_simp
  rfl
/-- Stretch 12 leaves the scores alone. -/
theorem cut12_s (W : Valuation τ sig (Elt F)) : after cut12 W (Proc.devRef .tc main_v0) = W (Proc.devRef .tc main_v0) := by
  simp only [cut12]
  after_results_simp

/-- Stretch 13 leaves level 13 of the scores and the previous aggregate in its last buffer. -/
theorem cut13_E (W : Valuation τ sig (Elt F)) :
    after cut13 W (Proc.devRef .tc main_v120) = Tree.lvl13 (W (Proc.devRef .tc main_v0)) (W (Proc.devRef .tc main_v111)) := by
  simp only [cut13]
  after_results_simp
  rfl
/-- Stretch 13 leaves the scores alone. -/
theorem cut13_s (W : Valuation τ sig (Elt F)) : after cut13 W (Proc.devRef .tc main_v0) = W (Proc.devRef .tc main_v0) := by
  simp only [cut13]
  after_results_simp

/-- Stretch 14 leaves level 14 of the scores and the previous aggregate in its last buffer. -/
theorem cut14_E (W : Valuation τ sig (Elt F)) :
    after cut14 W (Proc.devRef .tc main_v129) = Tree.lvl14 (W (Proc.devRef .tc main_v0)) (W (Proc.devRef .tc main_v120)) := by
  simp only [cut14]
  after_results_simp
  rfl
/-- Stretch 14 leaves the scores alone. -/
theorem cut14_s (W : Valuation τ sig (Elt F)) : after cut14 W (Proc.devRef .tc main_v0) = W (Proc.devRef .tc main_v0) := by
  simp only [cut14]
  after_results_simp

/-- Stretch 15 leaves level 15 of the scores and the previous aggregate in its last buffer. -/
theorem cut15_E (W : Valuation τ sig (Elt F)) :
    after cut15 W (Proc.devRef .tc main_v138) = Tree.lvl15 (W (Proc.devRef .tc main_v0)) (W (Proc.devRef .tc main_v129)) := by
  simp only [cut15]
  after_results_simp
  rfl
/-- Stretch 15 leaves the scores alone. -/
theorem cut15_s (W : Valuation τ sig (Elt F)) : after cut15 W (Proc.devRef .tc main_v0) = W (Proc.devRef .tc main_v0) := by
  simp only [cut15]
  after_results_simp

/-- Stretch 16 leaves level 16 of the scores and the previous aggregate in its last buffer. -/
theorem cut16_E (W : Valuation τ sig (Elt F)) :
    after cut16 W (Proc.devRef .tc main_v147) = Tree.lvl16 (W (Proc.devRef .tc main_v0)) (W (Proc.devRef .tc main_v138)) := by
  simp only [cut16]
  after_results_simp
  rfl
/-- Stretch 16 leaves the scores alone. -/
theorem cut16_s (W : Valuation τ sig (Elt F)) : after cut16 W (Proc.devRef .tc main_v0) = W (Proc.devRef .tc main_v0) := by
  simp only [cut16]
  after_results_simp

/-- Stretch 17 leaves level 17 of the scores and the previous aggregate in its last buffer. -/
theorem cut17_E (W : Valuation τ sig (Elt F)) :
    after cut17 W (Proc.devRef .tc main_v156) = Tree.lvl17 (W (Proc.devRef .tc main_v0)) (W (Proc.devRef .tc main_v147)) := by
  simp only [cut17]
  after_results_simp
  rfl
/-- Stretch 17 leaves the scores alone. -/
theorem cut17_s (W : Valuation τ sig (Elt F)) : after cut17 W (Proc.devRef .tc main_v0) = W (Proc.devRef .tc main_v0) := by
  simp only [cut17]
  after_results_simp

/-- Stretch 18 leaves level 18 of the scores and the previous aggregate in its last buffer. -/
theorem cut18_E (W : Valuation τ sig (Elt F)) :
    after cut18 W (Proc.devRef .tc main_v165) = Tree.lvl18 (W (Proc.devRef .tc main_v0)) (W (Proc.devRef .tc main_v156)) := by
  simp only [cut18]
  after_results_simp
  rfl
/-- Stretch 18 leaves the scores alone. -/
theorem cut18_s (W : Valuation τ sig (Elt F)) : after cut18 W (Proc.devRef .tc main_v0) = W (Proc.devRef .tc main_v0) := by
  simp only [cut18]
  after_results_simp

/-- Stretch 19 leaves level 19 of the scores and the previous aggregate in its last buffer. -/
theorem cut19_E (W : Valuation τ sig (Elt F)) :
    after cut19 W (Proc.devRef .tc main_v174) = Tree.lvl19 (W (Proc.devRef .tc main_v0)) (W (Proc.devRef .tc main_v165)) := by
  simp only [cut19]
  after_results_simp
  rfl
/-- Stretch 19 leaves the scores alone. -/
theorem cut19_s (W : Valuation τ sig (Elt F)) : after cut19 W (Proc.devRef .tc main_v0) = W (Proc.devRef .tc main_v0) := by
  simp only [cut19]
  after_results_simp

/-- Stretch 20 leaves level 20 of the scores and the previous aggregate in its last buffer. -/
theorem cut20_E (W : Valuation τ sig (Elt F)) :
    after cut20 W (Proc.devRef .tc main_v183) = Tree.lvl20 (W (Proc.devRef .tc main_v0)) (W (Proc.devRef .tc main_v174)) := by
  simp only [cut20]
  after_results_simp
  rfl
/-- Stretch 20 leaves the scores alone. -/
theorem cut20_s (W : Valuation τ sig (Elt F)) : after cut20 W (Proc.devRef .tc main_v0) = W (Proc.devRef .tc main_v0) := by
  simp only [cut20]
  after_results_simp

/-- The contents after stretches 0 … k. -/
def val0 (W : Valuation τ sig (Elt F)) : Valuation τ sig (Elt F) := after cut0 W
def val1 (W : Valuation τ sig (Elt F)) : Valuation τ sig (Elt F) := after cut1 (val0 W)
def val2 (W : Valuation τ sig (Elt F)) : Valuation τ sig (Elt F) := after cut2 (val1 W)
def val3 (W : Valuation τ sig (Elt F)) : Valuation τ sig (Elt F) := after cut3 (val2 W)
def val4 (W : Valuation τ sig (Elt F)) : Valuation τ sig (Elt F) := after cut4 (val3 W)
def val5 (W : Valuation τ sig (Elt F)) : Valuation τ sig (Elt F) := after cut5 (val4 W)
def val6 (W : Valuation τ sig (Elt F)) : Valuation τ sig (Elt F) := after cut6 (val5 W)
def val7 (W : Valuation τ sig (Elt F)) : Valuation τ sig (Elt F) := after cut7 (val6 W)
def val8 (W : Valuation τ sig (Elt F)) : Valuation τ sig (Elt F) := after cut8 (val7 W)
def val9 (W : Valuation τ sig (Elt F)) : Valuation τ sig (Elt F) := after cut9 (val8 W)
def val10 (W : Valuation τ sig (Elt F)) : Valuation τ sig (Elt F) := after cut10 (val9 W)
def val11 (W : Valuation τ sig (Elt F)) : Valuation τ sig (Elt F) := after cut11 (val10 W)
def val12 (W : Valuation τ sig (Elt F)) : Valuation τ sig (Elt F) := after cut12 (val11 W)
def val13 (W : Valuation τ sig (Elt F)) : Valuation τ sig (Elt F) := after cut13 (val12 W)
def val14 (W : Valuation τ sig (Elt F)) : Valuation τ sig (Elt F) := after cut14 (val13 W)
def val15 (W : Valuation τ sig (Elt F)) : Valuation τ sig (Elt F) := after cut15 (val14 W)
def val16 (W : Valuation τ sig (Elt F)) : Valuation τ sig (Elt F) := after cut16 (val15 W)
def val17 (W : Valuation τ sig (Elt F)) : Valuation τ sig (Elt F) := after cut17 (val16 W)
def val18 (W : Valuation τ sig (Elt F)) : Valuation τ sig (Elt F) := after cut18 (val17 W)
def val19 (W : Valuation τ sig (Elt F)) : Valuation τ sig (Elt F) := after cut19 (val18 W)
def val20 (W : Valuation τ sig (Elt F)) : Valuation τ sig (Elt F) := after cut20 (val19 W)

theorem val0_s (W : Valuation τ sig (Elt F)) : val0 W (Proc.devRef .tc main_v0) = W (Proc.devRef .tc main_v0) := cut0_s W
theorem val0_E (W : Valuation τ sig (Elt F)) :
    val0 W (Proc.devRef .tc main_v3) = Tree.upTo0 (W (Proc.devRef .tc main_arg1)) := cut0_E W
theorem val1_s (W : Valuation τ sig (Elt F)) : val1 W (Proc.devRef .tc main_v0) = W (Proc.devRef .tc main_v0) :=
  (cut1_s (val0 W)).trans (val0_s W)
theorem val1_E (W : Valuation τ sig (Elt F)) :
    val1 W (Proc.devRef .tc main_v12) = Tree.upTo1 (W (Proc.devRef .tc main_v0)) (W (Proc.devRef .tc main_arg1)) :=
  (cut1_E (val0 W)).trans (congr (congrArg Tree.lvl1 (val0_s W)) (val0_E W))
theorem val2_s (W : Valuation τ sig (Elt F)) : val2 W (Proc.devRef .tc main_v0) = W (Proc.devRef .tc main_v0) :=
  (cut2_s (val1 W)).trans (val1_s W)
theorem val2_E (W : Valuation τ sig (Elt F)) :
    val2 W (Proc.devRef .tc main_v21) = Tree.upTo2 (W (Proc.devRef .tc main_v0)) (W (Proc.devRef .tc main_arg1)) :=
  (cut2_E (val1 W)).trans (congr (congrArg Tree.lvl2 (val1_s W)) (val1_E W))
theorem val3_s (W : Valuation τ sig (Elt F)) : val3 W (Proc.devRef .tc main_v0) = W (Proc.devRef .tc main_v0) :=
  (cut3_s (val2 W)).trans (val2_s W)
theorem val3_E (W : Valuation τ sig (Elt F)) :
    val3 W (Proc.devRef .tc main_v30) = Tree.upTo3 (W (Proc.devRef .tc main_v0)) (W (Proc.devRef .tc main_arg1)) :=
  (cut3_E (val2 W)).trans (congr (congrArg Tree.lvl3 (val2_s W)) (val2_E W))
theorem val4_s (W : Valuation τ sig (Elt F)) : val4 W (Proc.devRef .tc main_v0) = W (Proc.devRef .tc main_v0) :=
  (cut4_s (val3 W)).trans (val3_s W)
theorem val4_E (W : Valuation τ sig (Elt F)) :
    val4 W (Proc.devRef .tc main_v39) = Tree.upTo4 (W (Proc.devRef .tc main_v0)) (W (Proc.devRef .tc main_arg1)) :=
  (cut4_E (val3 W)).trans (congr (congrArg Tree.lvl4 (val3_s W)) (val3_E W))
theorem val5_s (W : Valuation τ sig (Elt F)) : val5 W (Proc.devRef .tc main_v0) = W (Proc.devRef .tc main_v0) :=
  (cut5_s (val4 W)).trans (val4_s W)
theorem val5_E (W : Valuation τ sig (Elt F)) :
    val5 W (Proc.devRef .tc main_v48) = Tree.upTo5 (W (Proc.devRef .tc main_v0)) (W (Proc.devRef .tc main_arg1)) :=
  (cut5_E (val4 W)).trans (congr (congrArg Tree.lvl5 (val4_s W)) (val4_E W))
theorem val6_s (W : Valuation τ sig (Elt F)) : val6 W (Proc.devRef .tc main_v0) = W (Proc.devRef .tc main_v0) :=
  (cut6_s (val5 W)).trans (val5_s W)
theorem val6_E (W : Valuation τ sig (Elt F)) :
    val6 W (Proc.devRef .tc main_v57) = Tree.upTo6 (W (Proc.devRef .tc main_v0)) (W (Proc.devRef .tc main_arg1)) :=
  (cut6_E (val5 W)).trans (congr (congrArg Tree.lvl6 (val5_s W)) (val5_E W))
theorem val7_s (W : Valuation τ sig (Elt F)) : val7 W (Proc.devRef .tc main_v0) = W (Proc.devRef .tc main_v0) :=
  (cut7_s (val6 W)).trans (val6_s W)
theorem val7_E (W : Valuation τ sig (Elt F)) :
    val7 W (Proc.devRef .tc main_v66) = Tree.upTo7 (W (Proc.devRef .tc main_v0)) (W (Proc.devRef .tc main_arg1)) :=
  (cut7_E (val6 W)).trans (congr (congrArg Tree.lvl7 (val6_s W)) (val6_E W))
theorem val8_s (W : Valuation τ sig (Elt F)) : val8 W (Proc.devRef .tc main_v0) = W (Proc.devRef .tc main_v0) :=
  (cut8_s (val7 W)).trans (val7_s W)
theorem val8_E (W : Valuation τ sig (Elt F)) :
    val8 W (Proc.devRef .tc main_v75) = Tree.upTo8 (W (Proc.devRef .tc main_v0)) (W (Proc.devRef .tc main_arg1)) :=
  (cut8_E (val7 W)).trans (congr (congrArg Tree.lvl8 (val7_s W)) (val7_E W))
theorem val9_s (W : Valuation τ sig (Elt F)) : val9 W (Proc.devRef .tc main_v0) = W (Proc.devRef .tc main_v0) :=
  (cut9_s (val8 W)).trans (val8_s W)
theorem val9_E (W : Valuation τ sig (Elt F)) :
    val9 W (Proc.devRef .tc main_v84) = Tree.upTo9 (W (Proc.devRef .tc main_v0)) (W (Proc.devRef .tc main_arg1)) :=
  (cut9_E (val8 W)).trans (congr (congrArg Tree.lvl9 (val8_s W)) (val8_E W))
theorem val10_s (W : Valuation τ sig (Elt F)) : val10 W (Proc.devRef .tc main_v0) = W (Proc.devRef .tc main_v0) :=
  (cut10_s (val9 W)).trans (val9_s W)
theorem val10_E (W : Valuation τ sig (Elt F)) :
    val10 W (Proc.devRef .tc main_v93) = Tree.upTo10 (W (Proc.devRef .tc main_v0)) (W (Proc.devRef .tc main_arg1)) :=
  (cut10_E (val9 W)).trans (congr (congrArg Tree.lvl10 (val9_s W)) (val9_E W))
theorem val11_s (W : Valuation τ sig (Elt F)) : val11 W (Proc.devRef .tc main_v0) = W (Proc.devRef .tc main_v0) :=
  (cut11_s (val10 W)).trans (val10_s W)
theorem val11_E (W : Valuation τ sig (Elt F)) :
    val11 W (Proc.devRef .tc main_v102) = Tree.upTo11 (W (Proc.devRef .tc main_v0)) (W (Proc.devRef .tc main_arg1)) :=
  (cut11_E (val10 W)).trans (congr (congrArg Tree.lvl11 (val10_s W)) (val10_E W))
theorem val12_s (W : Valuation τ sig (Elt F)) : val12 W (Proc.devRef .tc main_v0) = W (Proc.devRef .tc main_v0) :=
  (cut12_s (val11 W)).trans (val11_s W)
theorem val12_E (W : Valuation τ sig (Elt F)) :
    val12 W (Proc.devRef .tc main_v111) = Tree.upTo12 (W (Proc.devRef .tc main_v0)) (W (Proc.devRef .tc main_arg1)) :=
  (cut12_E (val11 W)).trans (congr (congrArg Tree.lvl12 (val11_s W)) (val11_E W))
theorem val13_s (W : Valuation τ sig (Elt F)) : val13 W (Proc.devRef .tc main_v0) = W (Proc.devRef .tc main_v0) :=
  (cut13_s (val12 W)).trans (val12_s W)
theorem val13_E (W : Valuation τ sig (Elt F)) :
    val13 W (Proc.devRef .tc main_v120) = Tree.upTo13 (W (Proc.devRef .tc main_v0)) (W (Proc.devRef .tc main_arg1)) :=
  (cut13_E (val12 W)).trans (congr (congrArg Tree.lvl13 (val12_s W)) (val12_E W))
theorem val14_s (W : Valuation τ sig (Elt F)) : val14 W (Proc.devRef .tc main_v0) = W (Proc.devRef .tc main_v0) :=
  (cut14_s (val13 W)).trans (val13_s W)
theorem val14_E (W : Valuation τ sig (Elt F)) :
    val14 W (Proc.devRef .tc main_v129) = Tree.upTo14 (W (Proc.devRef .tc main_v0)) (W (Proc.devRef .tc main_arg1)) :=
  (cut14_E (val13 W)).trans (congr (congrArg Tree.lvl14 (val13_s W)) (val13_E W))
theorem val15_s (W : Valuation τ sig (Elt F)) : val15 W (Proc.devRef .tc main_v0) = W (Proc.devRef .tc main_v0) :=
  (cut15_s (val14 W)).trans (val14_s W)
theorem val15_E (W : Valuation τ sig (Elt F)) :
    val15 W (Proc.devRef .tc main_v138) = Tree.upTo15 (W (Proc.devRef .tc main_v0)) (W (Proc.devRef .tc main_arg1)) :=
  (cut15_E (val14 W)).trans (congr (congrArg Tree.lvl15 (val14_s W)) (val14_E W))
theorem val16_s (W : Valuation τ sig (Elt F)) : val16 W (Proc.devRef .tc main_v0) = W (Proc.devRef .tc main_v0) :=
  (cut16_s (val15 W)).trans (val15_s W)
theorem val16_E (W : Valuation τ sig (Elt F)) :
    val16 W (Proc.devRef .tc main_v147) = Tree.upTo16 (W (Proc.devRef .tc main_v0)) (W (Proc.devRef .tc main_arg1)) :=
  (cut16_E (val15 W)).trans (congr (congrArg Tree.lvl16 (val15_s W)) (val15_E W))
theorem val17_s (W : Valuation τ sig (Elt F)) : val17 W (Proc.devRef .tc main_v0) = W (Proc.devRef .tc main_v0) :=
  (cut17_s (val16 W)).trans (val16_s W)
theorem val17_E (W : Valuation τ sig (Elt F)) :
    val17 W (Proc.devRef .tc main_v156) = Tree.upTo17 (W (Proc.devRef .tc main_v0)) (W (Proc.devRef .tc main_arg1)) :=
  (cut17_E (val16 W)).trans (congr (congrArg Tree.lvl17 (val16_s W)) (val16_E W))
theorem val18_s (W : Valuation τ sig (Elt F)) : val18 W (Proc.devRef .tc main_v0) = W (Proc.devRef .tc main_v0) :=
  (cut18_s (val17 W)).trans (val17_s W)
theorem val18_E (W : Valuation τ sig (Elt F)) :
    val18 W (Proc.devRef .tc main_v165) = Tree.upTo18 (W (Proc.devRef .tc main_v0)) (W (Proc.devRef .tc main_arg1)) :=
  (cut18_E (val17 W)).trans (congr (congrArg Tree.lvl18 (val17_s W)) (val17_E W))
theorem val19_s (W : Valuation τ sig (Elt F)) : val19 W (Proc.devRef .tc main_v0) = W (Proc.devRef .tc main_v0) :=
  (cut19_s (val18 W)).trans (val18_s W)
theorem val19_E (W : Valuation τ sig (Elt F)) :
    val19 W (Proc.devRef .tc main_v174) = Tree.upTo19 (W (Proc.devRef .tc main_v0)) (W (Proc.devRef .tc main_arg1)) :=
  (cut19_E (val18 W)).trans (congr (congrArg Tree.lvl19 (val18_s W)) (val18_E W))
theorem val20_s (W : Valuation τ sig (Elt F)) : val20 W (Proc.devRef .tc main_v0) = W (Proc.devRef .tc main_v0) :=
  (cut20_s (val19 W)).trans (val19_s W)
theorem val20_E (W : Valuation τ sig (Elt F)) :
    val20 W (Proc.devRef .tc main_v183) = Tree.upTo20 (W (Proc.devRef .tc main_v0)) (W (Proc.devRef .tc main_arg1)) :=
  (cut20_E (val19 W)).trans (congr (congrArg Tree.lvl20 (val19_s W)) (val19_E W))

/-- The tail, run from any contents, is the 21 stretches run in order. -/
theorem after_hostOps1 (W : Valuation τ sig (Elt F)) : after Gen.hostOps1 W = val20 W := by
  rw [hostOps1_eq]
  simp only [after_append]
  rfl

/-- The tail leaves in its result the tree aggregation of the scores and the leaf values it found. -/
theorem tail_result (W : Valuation τ sig (Elt F)) :
    StableHlo.after Gen.hostOps1 W (Proc.devRef .tc main_v183)
      = Tree.tree (W (Proc.devRef .tc main_v0)) (W (Proc.devRef .tc main_arg1)) := by
  rw [after_hostOps1]
  exact val20_E W

end Cert.KernelIdeal.Tail

end
-- ==== Proof.FrameIdeal.lean ====
/-
  The value of the scoring program over the exact extended reals. The region leaves in the scores array, row r,
  1 + tanh(Σ_k features[r,k]·W[k,0] + b[0]) / 10; the 225 later lines then aggregate the tree from those scores
  and the leaf energies, and none of them writes an argument array.

  The features are staged in 256 blocks of 8192 rows, the last overhanging the array by one row. Past the array's
  end a staging buffer holds contents nothing names; over the extended reals a row of the matrix product reads only
  its own row of the features block, so the rows inside the array of what the body stores do not depend on them,
  and those are the rows a write-back writes.
-/
import proofs.«169628_j58085137711397_2_alg».proof.Proof.FrameForget
import proofs.«169628_j58085137711397_2_alg».proof.Proof.ScoresKernel
import proofs.«169628_j58085137711397_2_alg».proof.Proof.TailValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Scores

local notation "𝕄" => MT nD τ sig Unit (Elt Ideal) ℕ (UR sig nD τ) ℕ

variable (m : (ℓ : Loc nD τ sig) → Buf (Elt Ideal) ℓ) (ρ : Dev nD → PrngReg)

/-! ## What the body stores, row by row -/

theorem hz2 : (![0, 0] : Fin 2 → Nat) = fun _ => 0 := funext fun a => by fin_cases a <;> rfl
theorem hz1 : (![0] : Fin 1 → Nat) = fun _ => 0 := funext fun a => by fin_cases a; rfl

/-- The body's one store fills the buffer whole and its loads read the buffers whole: the result's buffer holds the payload. -/
theorem out3_eq {F : FTy → Type} [FloatOps F] (x0 : Vec F S8192x64 .f32) (x1 : Vec F S64x1 .f32) (x2 : Vec F S1 .f32) :
    out3 x0 x1 x2 = k0_pay1 x0 x1 x2 := by
  unfold out3
  rw [View.canon_unit_zero hz1]
  simp only [View.ld_unit_zero (S := S8192x64) hz2, View.ld_unit_zero (S := S64x1) hz2, View.ld_unit_zero (S := S1) hz1]

/-- Row j of what the body stores is the score of row j of the features buffer. -/
theorem out3_row (x0 : Vec Ideal S8192x64 .f32) (x1 : Vec Ideal S64x1 .f32) (x2 : Vec Ideal S1 .f32) (j : S8192.Idx) :
    out3 x0 x1 x2 j = rowScore (fun k => x0 (ix2 (j 0) k)) x1 x2 := by
  rw [out3_eq]; exact pay_row x0 x1 x2 j

/-! ## The blocks -/

/-- The printed index maps and cuts, decided over the grid: the features' and the scores' windows move together along
    the rows and are cut alike there; the features' block spans the 64 columns. -/
theorem idx_facts : ∀ t : Fin cfg0.N, win0_0.index t (0 : Fin 2) = win0_3.index t (0 : Fin 1)
    ∧ win0_0.index t (1 : Fin 2) = 0
    ∧ win0_0.xsize (grid0.coords t) (0 : Fin 2) = win0_3.xsize (grid0.coords t) (0 : Fin 1)
    ∧ win0_0.xsize (grid0.coords t) (1 : Fin 2) = 64
    ∧ win0_3.index t (0 : Fin 1) = t.val
    ∧ win0_3.xsize (grid0.coords t) (0 : Fin 1) = min 8192 (2097151 - t.val * 8192) :=
  (by decide +kernel : ∀ t : Fin grid0.N, _)

/-- A filled block does not depend on the filler where the transfer moves it. -/
theorem fill_eq_of_moved {G : Pipeline.Grid} {α : Type} (w : Pipeline.Window sig G) (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- A row of the scores' block inside the array is a row of the features' block inside the array, at every column. -/
theorem moved0 (t : Fin cfg0.N) (j : ((cfg0.win 3).xblock (grid0.coords t)).Idx) (k : Fin 64) :
    (cfg0.win 0).moved (grid0.coords t) (ix2 (((cfg0.win 3).xinj (grid0.coords t) j) 0) k) = true := by
  obtain ⟨e0, e1, e2, e3, e4, e5⟩ := idx_facts t
  rw [Pipeline.Window.moved_iff]
  intro a
  match a with
  | ⟨0, _⟩ => show (j 0).val < win0_0.xsize (grid0.coords t) (0 : Fin 2); rw [e2]; exact (j 0).isLt
  | ⟨1, _⟩ => show k.val < win0_0.xsize (grid0.coords t) (1 : Fin 2); rw [e3]; exact k.isLt

/-- The features' block at point `t`, filled out past the array's end with the zero word. -/
def blk8 (c : Dev nD) (t : Fin cfg0.N) : S8192x64.Idx → Elt Ideal .f32 :=
  (cfg0.win 0).fill (grid0.coords t) (fun _ => Scalar.ofBits (F := Ideal) .f32 0#32) (iblk m c 0 t)

/-- The whole scores array as one function of the argument arrays. -/
def G (c : Dev nD) : S2097151.Idx → EReal :=
  score (V m c main_arg0) (V m c main_arg2) (V m c main_arg3)

/-- Entry (row of the scores' block, column k) of the filled features block is the features array's entry at the
    block's row in the array. -/
theorem blk8_row (c : Dev nD) (t : Fin cfg0.N) (d : S8192x64.Idx → Elt Ideal .f32) (j : ((cfg0.win 3).xblock (grid0.coords t)).Idx) (k : Fin 64) :
    (cfg0.win 0).fill (grid0.coords t) d (iblk m c 0 t) (ix2 (((cfg0.win 3).xinj (grid0.coords t) j) 0) k)
      = (V m c main_arg0 : S2097151x64.Idx → EReal) (ix2 ((((cfg0.win 3).blk t).view.emb j) 0) k) := by
  obtain ⟨e0, e1, e2, e3, e4, e5⟩ := idx_facts t
  unfold Pipeline.Window.fill
  rw [dif_pos (moved0 t j k)]
  unfold iblk
  rw [View.read_apply]
  show (V m c main_arg0 : S2097151x64.Idx → EReal) _ = (V m c main_arg0 : S2097151x64.Idx → EReal) _
  congr 1
  funext a; apply Fin.ext
  match a with
  | ⟨0, _⟩ => show win0_0.index t (0 : Fin 2) * 8192 + 1 * (j 0).val = win0_3.index t (0 : Fin 1) * 8192 + 1 * (j 0).val; rw [e0]
  | ⟨1, _⟩ => show win0_0.index t (1 : Fin 2) * 64 + 1 * k.val = k.val; rw [e1]; omega

/-! ## The proof data -/

/-- The arrays as the region finds them; after the body at point `t` the features' buffer at its block filled out
    with the zero word, the weights' and the bias' at theirs, the result's at what the body stores from those. -/
def datsI (_ : Fin 1) (c : Dev nD) : Dat τ (Elt Ideal) Unit ℕ (UR sig nD τ) ℕ cfg0 c where
  A w := V m c (Pipeline.arrRef spec0 w)
  after w t := match w with
    | ⟨0, _⟩ => blk8 m c t
    | ⟨1, _⟩ => iblk m c 1 t
    | ⟨2, _⟩ => iblk m c 2 t
    | ⟨3, _⟩ => out3 (blk8 m c t) (iblk m c 1 t) (iblk m c 2 t)
  Φ _ := Pipeline.ΦA spec0 c
  q _ := fullShare
  owed _ := 0

theorem A_eqI (c : Dev nD) (w : Fin cfg0.W) : (datsI m 0 c).A w = V m c (Pipeline.arrRef spec0 w) := by
  dsimp only [datsI]
theorem afterI_0 (c : Dev nD) (t : Fin cfg0.N) : (datsI m 0 c).after 0 t = blk8 m c t := by dsimp only [datsI]
theorem afterI_1 (c : Dev nD) (t : Fin cfg0.N) : (datsI m 0 c).after 1 t = iblk m c 1 t := by dsimp only [datsI]
theorem afterI_2 (c : Dev nD) (t : Fin cfg0.N) : (datsI m 0 c).after 2 t = iblk m c 2 t := by dsimp only [datsI]
theorem afterI_3 (c : Dev nD) (t : Fin cfg0.N) :
    (datsI m 0 c).after 3 t = out3 (blk8 m c t) (iblk m c 1 t) (iblk m c 2 t) := by dsimp only [datsI]

theorem beforeI_0 (c : Dev nD) (t : Fin cfg0.N) (d) :
    (datsI m 0 c).before 0 t d = (cfg0.win 0).fill (cfg0.grid.coords t) d (iblk m c 0 t) :=
  before0_0_of m (datsI m 0 c) (A_eqI m c 0) t d
theorem beforeI_1 (c : Dev nD) (t : Fin cfg0.N) (d) : (datsI m 0 c).before 1 t d = iblk m c 1 t :=
  before0_1_of m (datsI m 0 c) (A_eqI m c 1) (afterI_1 m c) t d
theorem beforeI_2 (c : Dev nD) (t : Fin cfg0.N) (d) : (datsI m 0 c).before 2 t d = iblk m c 2 t :=
  before0_2_of m (datsI m 0 c) (A_eqI m c 2) (afterI_2 m c) t d
theorem beforeI_3 (c : Dev nD) (t : Fin cfg0.N) (d) : (datsI m 0 c).before 3 t d = d :=
  before0_3_of (datsI m 0 c) t d

/-- The rows inside the array of what the body stores do not depend on what the features' buffer held past the
    array's end: each is the score of its own row of the block. -/
theorem cut_out3 (c : Dev nD) (t : Fin cfg0.N) (d : S8192x64.Idx → Elt Ideal .f32) :
    (cfg0.win 3).cut (grid0.coords t) (out3 ((cfg0.win 0).fill (grid0.coords t) d (iblk m c 0 t)) (iblk m c 1 t) (iblk m c 2 t))
      = (cfg0.win 3).cut (grid0.coords t) (out3 (blk8 m c t) (iblk m c 1 t) (iblk m c 2 t)) := by
  funext j
  show out3 (F := Ideal) _ _ _ ((cfg0.win 3).xinj (grid0.coords t) j) = out3 (F := Ideal) _ _ _ ((cfg0.win 3).xinj (grid0.coords t) j)
  rw [out3_row, out3_row]
  congr 1
  funext k
  unfold blk8
  exact fill_eq_of_moved (cfg0.win 0) (grid0.coords t) _ _ _ (moved0 t j k)

/-! ## The body obligation -/

def bodyPreI (c : Dev nD) (t : Fin cfg0.N) : sProp 𝕄 :=
  iprop((datsI m 0 c).Φ t.castSucc ∗ (datsI m 0 c).owesAt () t.castSucc
    ∗ (∃ d, owns (c : Thread nD τ) (st0_0 t) fullShare ((datsI m 0 c).before 0 t d))
    ∗ (∃ d, owns (c : Thread nD τ) (st0_1 t) fullShare ((datsI m 0 c).before 1 t d))
    ∗ (∃ d, owns (c : Thread nD τ) (st0_2 t) fullShare ((datsI m 0 c).before 2 t d))
    ∗ (∃ d, owns (c : Thread nD τ) (st0_3 t) fullShare ((datsI m 0 c).before 3 t d)))

/-- The two windows that overhang their arrays are stated on the rows inside the array only. -/
def bodyPostI (c : Dev nD) (t : Fin cfg0.N) : sProp 𝕄 :=
  iprop((datsI m 0 c).Φ t.succ ∗ (datsI m 0 c).owesAt () t.succ
    ∗ (∃ d, owns (c : Thread nD τ) (st0_0 t) fullShare
        ((cfg0.win 0).fill (cfg0.grid.coords t) d ((cfg0.win 0).cut (cfg0.grid.coords t) ((datsI m 0 c).after 0 t))))
    ∗ owns (c : Thread nD τ) (st0_1 t) fullShare ((datsI m 0 c).after 1 t)
    ∗ owns (c : Thread nD τ) (st0_2 t) fullShare ((datsI m 0 c).after 2 t)
    ∗ (∃ d, owns (c : Thread nD τ) (st0_3 t) fullShare
        ((cfg0.win 3).fill (cfg0.grid.coords t) d ((cfg0.win 3).cut (cfg0.grid.coords t) ((datsI m 0 c).after 3 t)))))

theorem sound_bodyI (c : Dev nD) (t : Fin cfg0.N) :
    bodyPreI m c t ⊢ wp frame (wpE (defs₀ (F := Ideal)) Variants.none c none) Set.univ (bodyAt0 t) (fun _ => bodyPostI m c t) := by
  unfold bodyPreI bodyPostI bodyAt0
  rw [show (datsI m 0 c).Φ t.succ = (datsI m 0 c).Φ t.castSucc from rfl,
    show (datsI m 0 c).owesAt () t.succ = (datsI m 0 c).owesAt () t.castSucc from rfl]
  iintro ⟨HΦ, Ho, ⟨%d0, H0⟩, ⟨%d1, H1⟩, ⟨%d2, H2⟩, ⟨%d3, H3⟩⟩
  rw [beforeI_0 m c t d0, beforeI_1 m c t d1, beforeI_2 m c t d2, beforeI_3 m c t d3]
  iapply (sound_kernel (F := Ideal) c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [afterI_0]; unfold blk8; rw [Window.cut_fill]; iexact H0
  isplitl [H1]
  · rw [afterI_1]; iexact H1
  isplitl [H2]
  · rw [afterI_2]; iexact H2
  · iexists out3 ((cfg0.win 0).fill (cfg0.grid.coords t) d0 (iblk m c 0 t)) (iblk m c 1 t) (iblk m c 2 t)
    rw [afterI_3, (cfg0.win 3).fill_congr_cut (grid0.coords t) (cut_out3 m c t d0)]; iexact H3

theorem body_obligationI (c : Dev nD) :
    BodyObligationLoose (datsI m 0 c) (defs₀ (F := Ideal)) Variants.none () Set.univ := fun t => by
  rw [bigSep_W0, bigSep_W0]
  exact sound_bodyI m c t

/-! ## The run -/

set_option maxRecDepth 200000 in
set_option backward.isDefEq.respectTransparency.types false in
theorem run_mainI : θ_run defs (onTc (τ := τ) (main (F := Ideal))) (s₀ m ρ)
    (Pipeline.FramePost cfgs (datsI m) 0 (Pipeline.afterTail₀ cfgs (datsI m) 0 (V0 m) [hostOps1])) :=
  Pipeline.θ_run_frame_around cfgs (datsI m) (0 : Fin 1) launch0 defs₀ Variants.none m ρ main
    (hbody := fun c => body_obligationI m c) (hshare := fun c => (datsI m 0 c).share_full fun _ => rfl)
    (howed := fun _ _ => rfl) (V₀ := V0 m) (opss := [hostOps1]) (hsub := sfx_sub) (hfresh := sfx_fresh) (hkeep := sfx_keeps)
    (hmain := hmain m Variants.none) (hA := A_eqI m) (hΦ := fun _ _ => rfl)

/-! ## From blocks to the scores array -/

/-- The weights' and the bias' blocks are the whole arrays. -/
theorem iblk_1 (c : Dev nD) (t : Fin cfg0.N) : (iblk m c 1 t : S64x1.Idx → EReal) = V m c main_arg2 := by
  funext y
  unfold iblk
  rw [View.read_apply]
  show (V m c main_arg2 : S64x1.Idx → EReal) _ = (V m c main_arg2 : S64x1.Idx → EReal) _
  congr 1
  funext a; apply Fin.ext
  match a with
  | ⟨0, _⟩ => show 0 * 64 + 1 * (y 0).val = (y 0).val; omega
  | ⟨1, _⟩ => show 0 * 1 + 1 * (y 1).val = (y 1).val; omega
theorem iblk_2 (c : Dev nD) (t : Fin cfg0.N) : (iblk m c 2 t : S1.Idx → EReal) = V m c main_arg3 := by
  funext y
  unfold iblk
  rw [View.read_apply]
  show (V m c main_arg3 : S1.Idx → EReal) _ = (V m c main_arg3 : S1.Idx → EReal) _
  congr 1
  funext a; apply Fin.ext
  match a with
  | ⟨0, _⟩ => show 0 * 1 + 1 * (y 0).val = (y 0).val; omega

/-- What point `t` writes back is block `t` of the scores. -/
theorem flushedI (c : Dev nD) (t : Fin cfg0.N) :
    (datsI m 0 c).flushed 3 t = ((cfg0.win 3).blk t).view.read (Elt Ideal) (G m c) := by
  show (cfg0.win 3).cut (grid0.coords t) ((datsI m 0 c).after 3 t) = _
  rw [afterI_3]
  funext j
  show out3 (F := Ideal) _ _ _ ((cfg0.win 3).xinj (grid0.coords t) j) = G m c (((cfg0.win 3).blk t).view.emb j)
  rw [out3_row, iblk_1, iblk_2]
  unfold G score
  congr 1
  funext k
  unfold blk8
  exact blk8_row m c t _ j k

/-- An index of the scores array is in point `t`'s block iff its row is among the block's rows inside the array. -/
theorem mem_blk3 (t : Fin cfg0.N) (i : S2097151.Idx) :
    i ∈ ((cfg0.win 3).blk t).view.set ↔ win0_3.index t (0 : Fin 1) * 8192 ≤ (i 0).val
      ∧ (i 0).val < win0_3.index t (0 : Fin 1) * 8192 + win0_3.xsize (grid0.coords t) (0 : Fin 1) := by
  show i ∈ ((View.whole main_v0).slice (win0_3.rect t)).set ↔ _
  rw [View.set_slice_whole, Rect.mem_set_unit]
  constructor
  · intro h; exact h 0
  · intro h a
    match a with
    | ⟨0, _⟩ => exact h

/-- The 256 blocks cover the 2097151 rows: row r is in block r / 8192. -/
theorem cover3I (i : S2097151.Idx) :
    ∃ t : Fin cfg0.N, (cfg0.win 3).flush t = true ∧ i ∈ ((cfg0.win 3).blk t).view.set := by
  have hi : (i 0).val < 2097151 := (i 0).isLt
  have hN : cfg0.N = 256 := N_0
  refine ⟨⟨(i 0).val / 8192, by rw [hN]; omega⟩, flush0_3 _, ?_⟩
  rw [mem_blk3]
  obtain ⟨e0, e1, e2, e3, e4, e5⟩ := idx_facts ⟨(i 0).val / 8192, by rw [hN]; omega⟩
  rw [e4, e5]
  show (i 0).val / 8192 * 8192 ≤ (i 0).val ∧ (i 0).val < (i 0).val / 8192 * 8192 + min 8192 (2097151 - (i 0).val / 8192 * 8192)
  omega

/-- The scores array after the run. -/
theorem finalI (c : Dev nD) : (datsI m 0 c).arrAt 3 cfg0.N = G m c :=
  (datsI m 0 c).arrAt_eq_of_cover 3 (G m c) (fun t _ => flushedI m c t) cover3I

/-! ## The result -/

/-- Every weakly fair execution terminates, nothing faulting; the result ends at the tree aggregation of the scores
    and the leaf energies, and the four argument arrays as launched. -/
theorem run_value : θ_run defs (onTc (τ := τ) (main (F := Ideal))) ⟨m, fun _ => 0, ρ⟩ (fun r => ∀ c : Dev nD,
      r.2.mem ((c.tc : Thread nD τ).loc main_v183)
        = Tree.tree (score (m ((c.tc : Thread nD τ).loc main_arg0)) (m ((c.tc : Thread nD τ).loc main_arg2)) (m ((c.tc : Thread nD τ).loc main_arg3)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_, ?_⟩) (run_mainI m ρ)
  · refine ((h c).2 main_v183 (Pipeline.mem_restRefs_of main_v183 (by decide) (by decide))).trans ?_
    unfold Pipeline.afterTail₀
    show StableHlo.after hostOps1 _ (Proc.devRef .tc main_v183) = _
    rw [Tail.tail_result]
    rw [(Pipeline.withArrays_arr spec0 launch0.win.arr_inj c _ _ 3).trans (finalI m c),
      Pipeline.withArrays_of_ne _ c (V0 m c) _ main_arg1 (by exact (by decide : ∀ w, Pipeline.arrRef spec0 w ≠ main_arg1))]
    rfl
  · exact ((h c).1 0).trans (((datsI m 0 c).arrAt_in 0 rfl _).trans (A_eqI m c 0))
  · refine ((h c).2 main_arg1 (Pipeline.mem_restRefs_of main_arg1 (by decide) (by decide))).trans ?_
    unfold Pipeline.afterTail₀
    show StableHlo.after hostOps1 _ (Proc.devRef .tc main_arg1) = _
    rw [Tail.after_keep _ main_arg1 (by decide),
      Pipeline.withArrays_of_ne _ c (V0 m c) _ main_arg1 (by exact (by decide : ∀ w, Pipeline.arrRef spec0 w ≠ main_arg1))]
    rfl
  · exact ((h c).1 1).trans (((datsI m 0 c).arrAt_in 1 rfl _).trans (A_eqI m c 1))
  · exact ((h c).1 2).trans (((datsI m 0 c).arrAt_in 2 rfl _).trans (A_eqI m c 2))

end Cert.KernelIdeal.Hand

end
-- ==== Proof.RefValue.lean ====
import proofs.«169628_j58085137711397_2_alg».proof.Proof.Gen.ReferenceIdeal.Run
import proofs.«169628_j58085137711397_2_alg».proof.Proof.Tree

set_option maxRecDepth 8192

noncomputable section

/-! # The reference's result is the tree aggregation of its scores

The reference computes its scores and then applies the same 21 levels as the kernel program's tail.  Its
run states the result over one named intermediate per level; each is that level's function (Tree.lvl k) of
the scores and the previous intermediate: the two programs' shape records are the same data, so the two
spellings are the same term.  Composed: the result is Tree.tree of the scores and the leaf values. -/

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] [Cert.KernelIdeal.Facts₀]

/-- The reference's level 0 is the aggregation's. -/
theorem lvl0_eq (V0 : Valuation τ sig (Elt F)) :
    res_main_v12 V0 = Cert.KernelIdeal.Tree.lvl0 (V0 (Proc.devRef .tc main_arg1)) := rfl

/-- The reference's level 1 is the aggregation's. -/
theorem lvl1_eq (V0 : Valuation τ sig (Elt F)) :
    res_main_v21 V0 = Cert.KernelIdeal.Tree.lvl1 (res_main_v9 V0) (res_main_v12 V0) := rfl

/-- The reference's level 2 is the aggregation's. -/
theorem lvl2_eq (V0 : Valuation τ sig (Elt F)) :
    res_main_v30 V0 = Cert.KernelIdeal.Tree.lvl2 (res_main_v9 V0) (res_main_v21 V0) := rfl

/-- The reference's level 3 is the aggregation's. -/
theorem lvl3_eq (V0 : Valuation τ sig (Elt F)) :
    res_main_v39 V0 = Cert.KernelIdeal.Tree.lvl3 (res_main_v9 V0) (res_main_v30 V0) := rfl

/-- The reference's level 4 is the aggregation's. -/
theorem lvl4_eq (V0 : Valuation τ sig (Elt F)) :
    res_main_v48 V0 = Cert.KernelIdeal.Tree.lvl4 (res_main_v9 V0) (res_main_v39 V0) := rfl

/-- The reference's level 5 is the aggregation's. -/
theorem lvl5_eq (V0 : Valuation τ sig (Elt F)) :
    res_main_v57 V0 = Cert.KernelIdeal.Tree.lvl5 (res_main_v9 V0) (res_main_v48 V0) := rfl

/-- The reference's level 6 is the aggregation's. -/
theorem lvl6_eq (V0 : Valuation τ sig (Elt F)) :
    res_main_v66 V0 = Cert.KernelIdeal.Tree.lvl6 (res_main_v9 V0) (res_main_v57 V0) := rfl

/-- The reference's level 7 is the aggregation's. -/
theorem lvl7_eq (V0 : Valuation τ sig (Elt F)) :
    res_main_v75 V0 = Cert.KernelIdeal.Tree.lvl7 (res_main_v9 V0) (res_main_v66 V0) := rfl

/-- The reference's level 8 is the aggregation's. -/
theorem lvl8_eq (V0 : Valuation τ sig (Elt F)) :
    res_main_v84 V0 = Cert.KernelIdeal.Tree.lvl8 (res_main_v9 V0) (res_main_v75 V0) := rfl

/-- The reference's level 9 is the aggregation's. -/
theorem lvl9_eq (V0 : Valuation τ sig (Elt F)) :
    res_main_v93 V0 = Cert.KernelIdeal.Tree.lvl9 (res_main_v9 V0) (res_main_v84 V0) := rfl

/-- The reference's level 10 is the aggregation's. -/
theorem lvl10_eq (V0 : Valuation τ sig (Elt F)) :
    res_main_v102 V0 = Cert.KernelIdeal.Tree.lvl10 (res_main_v9 V0) (res_main_v93 V0) := rfl

/-- The reference's level 11 is the aggregation's. -/
theorem lvl11_eq (V0 : Valuation τ sig (Elt F)) :
    res_main_v111 V0 = Cert.KernelIdeal.Tree.lvl11 (res_main_v9 V0) (res_main_v102 V0) := rfl

/-- The reference's level 12 is the aggregation's. -/
theorem lvl12_eq (V0 : Valuation τ sig (Elt F)) :
    res_main_v120 V0 = Cert.KernelIdeal.Tree.lvl12 (res_main_v9 V0) (res_main_v111 V0) := rfl

/-- The reference's level 13 is the aggregation's. -/
theorem lvl13_eq (V0 : Valuation τ sig (Elt F)) :
    res_main_v129 V0 = Cert.KernelIdeal.Tree.lvl13 (res_main_v9 V0) (res_main_v120 V0) := rfl

/-- The reference's level 14 is the aggregation's. -/
theorem lvl14_eq (V0 : Valuation τ sig (Elt F)) :
    res_main_v138 V0 = Cert.KernelIdeal.Tree.lvl14 (res_main_v9 V0) (res_main_v129 V0) := rfl

/-- The reference's level 15 is the aggregation's. -/
theorem lvl15_eq (V0 : Valuation τ sig (Elt F)) :
    res_main_v147 V0 = Cert.KernelIdeal.Tree.lvl15 (res_main_v9 V0) (res_main_v138 V0) := rfl

/-- The reference's level 16 is the aggregation's. -/
theorem lvl16_eq (V0 : Valuation τ sig (Elt F)) :
    res_main_v156 V0 = Cert.KernelIdeal.Tree.lvl16 (res_main_v9 V0) (res_main_v147 V0) := rfl

/-- The reference's level 17 is the aggregation's. -/
theorem lvl17_eq (V0 : Valuation τ sig (Elt F)) :
    res_main_v165 V0 = Cert.KernelIdeal.Tree.lvl17 (res_main_v9 V0) (res_main_v156 V0) := rfl

/-- The reference's level 18 is the aggregation's. -/
theorem lvl18_eq (V0 : Valuation τ sig (Elt F)) :
    res_main_v174 V0 = Cert.KernelIdeal.Tree.lvl18 (res_main_v9 V0) (res_main_v165 V0) := rfl

/-- The reference's level 19 is the aggregation's. -/
theorem lvl19_eq (V0 : Valuation τ sig (Elt F)) :
    res_main_v183 V0 = Cert.KernelIdeal.Tree.lvl19 (res_main_v9 V0) (res_main_v174 V0) := rfl

/-- The reference's aggregate after level 0. -/
theorem upTo0_eq (V0 : Valuation τ sig (Elt F)) :
    res_main_v12 V0 = Cert.KernelIdeal.Tree.upTo0 (V0 (Proc.devRef .tc main_arg1)) := lvl0_eq V0
theorem upTo1_eq (V0 : Valuation τ sig (Elt F)) :
    res_main_v21 V0 = Cert.KernelIdeal.Tree.upTo1 (res_main_v9 V0) (V0 (Proc.devRef .tc main_arg1)) :=
  (lvl1_eq V0).trans (congrArg (Cert.KernelIdeal.Tree.lvl1 (res_main_v9 V0)) (upTo0_eq V0))
theorem upTo2_eq (V0 : Valuation τ sig (Elt F)) :
    res_main_v30 V0 = Cert.KernelIdeal.Tree.upTo2 (res_main_v9 V0) (V0 (Proc.devRef .tc main_arg1)) :=
  (lvl2_eq V0).trans (congrArg (Cert.KernelIdeal.Tree.lvl2 (res_main_v9 V0)) (upTo1_eq V0))
theorem upTo3_eq (V0 : Valuation τ sig (Elt F)) :
    res_main_v39 V0 = Cert.KernelIdeal.Tree.upTo3 (res_main_v9 V0) (V0 (Proc.devRef .tc main_arg1)) :=
  (lvl3_eq V0).trans (congrArg (Cert.KernelIdeal.Tree.lvl3 (res_main_v9 V0)) (upTo2_eq V0))
theorem upTo4_eq (V0 : Valuation τ sig (Elt F)) :
    res_main_v48 V0 = Cert.KernelIdeal.Tree.upTo4 (res_main_v9 V0) (V0 (Proc.devRef .tc main_arg1)) :=
  (lvl4_eq V0).trans (congrArg (Cert.KernelIdeal.Tree.lvl4 (res_main_v9 V0)) (upTo3_eq V0))
theorem upTo5_eq (V0 : Valuation τ sig (Elt F)) :
    res_main_v57 V0 = Cert.KernelIdeal.Tree.upTo5 (res_main_v9 V0) (V0 (Proc.devRef .tc main_arg1)) :=
  (lvl5_eq V0).trans (congrArg (Cert.KernelIdeal.Tree.lvl5 (res_main_v9 V0)) (upTo4_eq V0))
theorem upTo6_eq (V0 : Valuation τ sig (Elt F)) :
    res_main_v66 V0 = Cert.KernelIdeal.Tree.upTo6 (res_main_v9 V0) (V0 (Proc.devRef .tc main_arg1)) :=
  (lvl6_eq V0).trans (congrArg (Cert.KernelIdeal.Tree.lvl6 (res_main_v9 V0)) (upTo5_eq V0))
theorem upTo7_eq (V0 : Valuation τ sig (Elt F)) :
    res_main_v75 V0 = Cert.KernelIdeal.Tree.upTo7 (res_main_v9 V0) (V0 (Proc.devRef .tc main_arg1)) :=
  (lvl7_eq V0).trans (congrArg (Cert.KernelIdeal.Tree.lvl7 (res_main_v9 V0)) (upTo6_eq V0))
theorem upTo8_eq (V0 : Valuation τ sig (Elt F)) :
    res_main_v84 V0 = Cert.KernelIdeal.Tree.upTo8 (res_main_v9 V0) (V0 (Proc.devRef .tc main_arg1)) :=
  (lvl8_eq V0).trans (congrArg (Cert.KernelIdeal.Tree.lvl8 (res_main_v9 V0)) (upTo7_eq V0))
theorem upTo9_eq (V0 : Valuation τ sig (Elt F)) :
    res_main_v93 V0 = Cert.KernelIdeal.Tree.upTo9 (res_main_v9 V0) (V0 (Proc.devRef .tc main_arg1)) :=
  (lvl9_eq V0).trans (congrArg (Cert.KernelIdeal.Tree.lvl9 (res_main_v9 V0)) (upTo8_eq V0))
theorem upTo10_eq (V0 : Valuation τ sig (Elt F)) :
    res_main_v102 V0 = Cert.KernelIdeal.Tree.upTo10 (res_main_v9 V0) (V0 (Proc.devRef .tc main_arg1)) :=
  (lvl10_eq V0).trans (congrArg (Cert.KernelIdeal.Tree.lvl10 (res_main_v9 V0)) (upTo9_eq V0))
theorem upTo11_eq (V0 : Valuation τ sig (Elt F)) :
    res_main_v111 V0 = Cert.KernelIdeal.Tree.upTo11 (res_main_v9 V0) (V0 (Proc.devRef .tc main_arg1)) :=
  (lvl11_eq V0).trans (congrArg (Cert.KernelIdeal.Tree.lvl11 (res_main_v9 V0)) (upTo10_eq V0))
theorem upTo12_eq (V0 : Valuation τ sig (Elt F)) :
    res_main_v120 V0 = Cert.KernelIdeal.Tree.upTo12 (res_main_v9 V0) (V0 (Proc.devRef .tc main_arg1)) :=
  (lvl12_eq V0).trans (congrArg (Cert.KernelIdeal.Tree.lvl12 (res_main_v9 V0)) (upTo11_eq V0))
theorem upTo13_eq (V0 : Valuation τ sig (Elt F)) :
    res_main_v129 V0 = Cert.KernelIdeal.Tree.upTo13 (res_main_v9 V0) (V0 (Proc.devRef .tc main_arg1)) :=
  (lvl13_eq V0).trans (congrArg (Cert.KernelIdeal.Tree.lvl13 (res_main_v9 V0)) (upTo12_eq V0))
theorem upTo14_eq (V0 : Valuation τ sig (Elt F)) :
    res_main_v138 V0 = Cert.KernelIdeal.Tree.upTo14 (res_main_v9 V0) (V0 (Proc.devRef .tc main_arg1)) :=
  (lvl14_eq V0).trans (congrArg (Cert.KernelIdeal.Tree.lvl14 (res_main_v9 V0)) (upTo13_eq V0))
theorem upTo15_eq (V0 : Valuation τ sig (Elt F)) :
    res_main_v147 V0 = Cert.KernelIdeal.Tree.upTo15 (res_main_v9 V0) (V0 (Proc.devRef .tc main_arg1)) :=
  (lvl15_eq V0).trans (congrArg (Cert.KernelIdeal.Tree.lvl15 (res_main_v9 V0)) (upTo14_eq V0))
theorem upTo16_eq (V0 : Valuation τ sig (Elt F)) :
    res_main_v156 V0 = Cert.KernelIdeal.Tree.upTo16 (res_main_v9 V0) (V0 (Proc.devRef .tc main_arg1)) :=
  (lvl16_eq V0).trans (congrArg (Cert.KernelIdeal.Tree.lvl16 (res_main_v9 V0)) (upTo15_eq V0))
theorem upTo17_eq (V0 : Valuation τ sig (Elt F)) :
    res_main_v165 V0 = Cert.KernelIdeal.Tree.upTo17 (res_main_v9 V0) (V0 (Proc.devRef .tc main_arg1)) :=
  (lvl17_eq V0).trans (congrArg (Cert.KernelIdeal.Tree.lvl17 (res_main_v9 V0)) (upTo16_eq V0))
theorem upTo18_eq (V0 : Valuation τ sig (Elt F)) :
    res_main_v174 V0 = Cert.KernelIdeal.Tree.upTo18 (res_main_v9 V0) (V0 (Proc.devRef .tc main_arg1)) :=
  (lvl18_eq V0).trans (congrArg (Cert.KernelIdeal.Tree.lvl18 (res_main_v9 V0)) (upTo17_eq V0))
theorem upTo19_eq (V0 : Valuation τ sig (Elt F)) :
    res_main_v183 V0 = Cert.KernelIdeal.Tree.upTo19 (res_main_v9 V0) (V0 (Proc.devRef .tc main_arg1)) :=
  (lvl19_eq V0).trans (congrArg (Cert.KernelIdeal.Tree.lvl19 (res_main_v9 V0)) (upTo18_eq V0))

/-- The reference's last level is the aggregation's. -/
theorem lvl20_eq (V0 : Valuation τ sig (Elt F)) :
    (Host.scatter scatter_S2097151_S1_S1_0_n_0_0 (fun _ b => b) (res_main_v183 V0) (broadcastInDim S1 ![] bcast_S_S1 (constantI S_ 32 0#32)) (addf (extractStridedSlice S1 ![0] (res_main_v183 V0) slices_S2097151_S1_0) (Host.reduceAdd (shapeCast _ (mulf (extractStridedSlice S2 ![1] (res_main_v9 V0) slices_S2097151_S2_1) (extractStridedSlice S2 ![1] (res_main_v183 V0) slices_S2097151_S2_1)) shapeCasts_S2_S1x2) (constant S_ .f32 0x00000000#32) reducesTo_S1x2_S1_d1 h_S_)) : FVec F S2097151 .f32)
      = Cert.KernelIdeal.Tree.lvl20 (res_main_v9 V0) (res_main_v183 V0) := rfl

theorem upTo20_eq (V0 : Valuation τ sig (Elt F)) :
    (Host.scatter scatter_S2097151_S1_S1_0_n_0_0 (fun _ b => b) (res_main_v183 V0) (broadcastInDim S1 ![] bcast_S_S1 (constantI S_ 32 0#32)) (addf (extractStridedSlice S1 ![0] (res_main_v183 V0) slices_S2097151_S1_0) (Host.reduceAdd (shapeCast _ (mulf (extractStridedSlice S2 ![1] (res_main_v9 V0) slices_S2097151_S2_1) (extractStridedSlice S2 ![1] (res_main_v183 V0) slices_S2097151_S2_1)) shapeCasts_S2_S1x2) (constant S_ .f32 0x00000000#32) reducesTo_S1x2_S1_d1 h_S_)) : FVec F S2097151 .f32)
      = Cert.KernelIdeal.Tree.upTo20 (res_main_v9 V0) (V0 (Proc.devRef .tc main_arg1)) :=
  (lvl20_eq V0).trans (congrArg (Cert.KernelIdeal.Tree.lvl20 (res_main_v9 V0)) (upTo19_eq V0))

/-- The term the reference's run states its result ends at is the tree aggregation of the reference's scores and
    the leaf values. -/
theorem ref_result (V0 : Valuation τ sig (Elt F)) :
    (Host.scatter scatter_S2097151_S1_S1_0_n_0_0 (fun _ b => b) (res_main_v183 V0) (broadcastInDim S1 ![] bcast_S_S1 (constantI S_ 32 0#32)) (addf (extractStridedSlice S1 ![0] (res_main_v183 V0) slices_S2097151_S1_0) (Host.reduceAdd (shapeCast _ (mulf (extractStridedSlice S2 ![1] (res_main_v9 V0) slices_S2097151_S2_1) (extractStridedSlice S2 ![1] (res_main_v183 V0) slices_S2097151_S2_1)) shapeCasts_S2_S1x2) (constant S_ .f32 0x00000000#32) reducesTo_S1x2_S1_d1 h_S_)) : FVec F S2097151 .f32)
      = Cert.KernelIdeal.Tree.tree (res_main_v9 V0) (V0 (Proc.devRef .tc main_arg1)) :=
  upTo20_eq V0

/-- The reference's run, its result restated: every weakly fair execution of the reference terminates with the
    result at the tree aggregation of the reference's scores and the leaf values, the arguments unchanged. -/
theorem run_tree (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192)
          = Cert.KernelIdeal.Tree.tree (res_main_v9 (launchContents m c)) (launchContents m c (Proc.devRef .tc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_result (launchContents m c)), (h c).2⟩) (Value.run m ρ)

end Cert.ReferenceIdeal.RefValue

end
-- ==== Proof.LibScalarSpread.lean ====
/-
  Two reading lemmas for host lines, at any shape.

    * `splat_apply`: a rank-0 value spread over a shape (a broadcast_in_dim with no mapped axis) reads its one entry
      at every index.
    * `hostDivf_apply`: at the exact extended reals the host's float quotient of two arrays is, entry by entry, the
      quotient of the entries.
  The second is stated so that a proof can rewrite a host quotient at an index by name: its two sides are equal by
  definition, and stating the step through this lemma keeps the divisor's term folded.
-/
import Idealize.ShloMosaic.Lib.Pipeline.Value
import Idealize.ShloMosaic.Lib.ValueIdx
import Idealize.ShloMosaic.PureOps.Ideal

namespace Cert.Lib.ScalarSpread

open Idealize.ShloMosaic Idealize.ShloMosaic.ValueIdx

/-- A scalar spread over any shape reads the scalar everywhere. -/
theorem splat_apply {α : Type} {s : Shape} (h : (⟨0, ![]⟩ : Shape).BroadcastsInDim s ![]) (v : (⟨0, ![]⟩ : Shape).Idx → α)
    (i : s.Idx) : broadcastInDim s ![] h v i = v ix0 := by
  unfold broadcastInDim
  exact congrArg v (funext fun a => a.elim0)

/-- The host's quotient, entry by entry. -/
theorem hostDivf_apply {s : Shape} {φ : FTy} (X Y : FVec Ideal s φ) (i : s.Idx) : Host.divf X Y i = Ideal.div (X i) (Y i) := rfl

end Cert.Lib.ScalarSpread
-- ==== Proof.ScoresRef.lean ====
/-
  The reference's scores are the same function of the inputs.

  The reference multiplies the whole [2097151, 64] feature array by the [64, 1] weight column on the host, adds the
  bias spread down the column, applies tanh, reads the [2097151, 1] column as a vector, divides by 10 and adds 1.
  Read at entry `p` this is the score of row `p` of the feature array.
-/
import proofs.«169628_j58085137711397_2_alg».proof.Proof.ScoresSpec
import proofs.«169628_j58085137711397_2_alg».proof.Proof.ScoresLayout
import proofs.«169628_j58085137711397_2_alg».proof.Proof.LibPlainMatmul
import proofs.«169628_j58085137711397_2_alg».proof.Proof.LibScalarSpread
import proofs.«169628_j58085137711397_2_alg».proof.Proof.Gen.ReferenceIdeal.Run
import Idealize.ShloMosaic.Lib.Pipeline.Value

noncomputable section

namespace Cert.Scores

open Idealize.ShloMosaic Idealize.ShloMosaic.ValueIdx Idealize.SL.Sem Cert.ReferenceIdeal Cert.ReferenceIdeal.Facts₀
  Cert.Lib.ScalarSpread

/-! The reference's dimension numbers contract the features' second axis with the weight's first and have no batch axes. -/

theorem rdot_rank : dot_S2097151x64_S64x1_S2097151x1_1_0_0_1_n_n.contr.rank = 1 := rfl
theorem rdot_size : dot_S2097151x64_S64x1_S2097151x1_1_0_0_1_n_n.contr.size ⟨0, by rw [rdot_rank]; exact Nat.one_pos⟩ = 64 := rfl
theorem rdot_l0 (i : S2097151x1.Idx) (q : dot_S2097151x64_S64x1_S2097151x1_1_0_0_1_n_n.contr.Idx) :
    (dot_S2097151x64_S64x1_S2097151x1_1_0_0_1_n_n.lhsIdx i q 0).val = (i 0).val := rfl
theorem rdot_l1 (i : S2097151x1.Idx) (q : dot_S2097151x64_S64x1_S2097151x1_1_0_0_1_n_n.contr.Idx) :
    (dot_S2097151x64_S64x1_S2097151x1_1_0_0_1_n_n.lhsIdx i q 1).val = (q ⟨0, by rw [rdot_rank]; exact Nat.one_pos⟩).val :=
  DotDims.lhsIdx_val_of_single _ (cl := 1) rfl i q
theorem rdot_r0 (i : S2097151x1.Idx) (q : dot_S2097151x64_S64x1_S2097151x1_1_0_0_1_n_n.contr.Idx) :
    (dot_S2097151x64_S64x1_S2097151x1_1_0_0_1_n_n.rhsIdx i q 0).val = (q ⟨0, by rw [rdot_rank]; exact Nat.one_pos⟩).val :=
  DotDims.rhsIdx_val_of_single _ (cr := 0) rfl i q
theorem rdot_r1 (i : S2097151x1.Idx) (q : dot_S2097151x64_S64x1_S2097151x1_1_0_0_1_n_n.contr.Idx) :
    (dot_S2097151x64_S64x1_S2097151x1_1_0_0_1_n_n.rhsIdx i q 1).val = (i 1).val := rfl

/-- The host's product of the feature array with the weight column, read at row `p`: the sum over the 64 features of
    the products. -/
theorem rdot_apply (l : FVec Ideal S2097151x64 .f32) (r : FVec Ideal S64x1 .f32) (p : Fin 2097151) :
    Host.dotGeneral (F := Ideal) dot_S2097151x64_S64x1_S2097151x1_1_0_0_1_n_n none l r (ix2 p (0 : Fin 1))
      = ∑ k : Fin 64, l (ix2 p k) * r (ix2 k (0 : Fin 1)) :=
  (Ideal.dotGeneral_apply dot_S2097151x64_S64x1_S2097151x1_1_0_0_1_n_n none .single l r (ix2 p (0 : Fin 1))).trans
    (PlainMatmul.contr_sum (M := 2097151) (K := 64) (N := 1) dot_S2097151x64_S64x1_S2097151x1_1_0_0_1_n_n rdot_rank rdot_size
      rdot_l0 rdot_l1 rdot_r0 rdot_r1 l r p 0)

/-- The reference's scores at entry `p`, over variables for the three arrays. -/
theorem ref_row (x : FVec Ideal S2097151x64 .f32) (w : FVec Ideal S64x1 .f32) (b : FVec Ideal S1 .f32) (p : Fin 2097151) :
    addf (broadcastInDim S2097151 ![] bcast_S_S2097151 (constant (F := Ideal) S_ .f32 0x3F800000#32))
        (Host.divf (F := Ideal)
          (shapeCast S2097151
            (Host.tanh (addf (Host.dotGeneral dot_S2097151x64_S64x1_S2097151x1_1_0_0_1_n_n none x w)
              (broadcastInDim S2097151x1 ![0, 1] bcast_S1x1_S2097151x1_0_1 (broadcastInDim S1x1 ![1] bcast_S1_S1x1_1 b))))
            shapeCasts_S2097151x1_S2097151)
          (broadcastInDim S2097151 ![] bcast_S_S2097151 (constant (F := Ideal) S_ .f32 0x41200000#32))) (ix1 p)
      = rowScore (fun k => x (ix2 p k)) w b := by
  rw [addf_apply, splat_apply, constant_apply, hostDivf_apply, splat_apply, constant_apply, shapeCast_a1_a_apply,
    hostTanh_apply, addf_apply, rdot_apply, bias_column_apply]
  rfl

/-- THE REFERENCE'S SCORES are `score` of the three input arrays. -/
theorem ref_scores (V0 : Valuation Cert.ReferenceIdeal.τ Cert.ReferenceIdeal.sig (Elt Ideal)) :
    Cert.ReferenceIdeal.Value.res_main_v9 (F := Ideal) V0
      = score (V0 (Proc.devRef .tc Cert.ReferenceIdeal.main_arg0)) (V0 (Proc.devRef .tc Cert.ReferenceIdeal.main_arg2))
          (V0 (Proc.devRef .tc Cert.ReferenceIdeal.main_arg3)) := by
  funext i
  obtain ⟨p, rfl⟩ : ∃ p : Fin 2097151, i = ix1 p := ⟨i 0, eq_ix1 i⟩
  exact ref_row _ _ _ p

end Cert.Scores

end
-- ==== Proof.lean ====
/-
  The certificate of the tree-energy kernel against its reference, over the exact extended reals.

  Both programs score every node of a complete binary tree of 2097151 nodes, score(r) = 1 + tanh(features[r,·]·W + b) / 10,
  and then aggregate bottom-up over twenty levels: a parent's energy is the sum over its two children of score·energy,
  the leaves' energies given. The kernel computes the scores in a pallas_call over 256 blocks of 8192 rows (the last
  overhanging the array by one row) with the weights cast to bf16 — the identity on the extended reals — and the
  reference by one matrix product; the twenty levels are the same 225 host operations in both programs.

  The claims: each program runs to its end, faulting nowhere, with its argument arrays unchanged; the idealized
  kernel is the kernel's own text read over the extended reals (no rewrite was applied, so nothing is to be shown);
  and run from memories that agree on the arguments the two idealized programs end with equal results: both are the
  one aggregation function of the same scores array and the same leaf energies.
-/
import proofs.«169628_j58085137711397_2_alg».proof.Defs
import proofs.«169628_j58085137711397_2_alg».proof.Proof.Gen.Kernel
import proofs.«169628_j58085137711397_2_alg».proof.Proof.Gen.KernelIdeal
import proofs.«169628_j58085137711397_2_alg».proof.Proof.Gen.ReferenceIdeal
import proofs.«169628_j58085137711397_2_alg».proof.Proof.Gen.ReferenceIdeal.Run
import proofs.«169628_j58085137711397_2_alg».proof.Proof.Gen.Pre_finite_inputs
import proofs.«169628_j58085137711397_2_alg».proof.Proof.FrameForgetBits
import proofs.«169628_j58085137711397_2_alg».proof.Proof.FrameIdeal
import proofs.«169628_j58085137711397_2_alg».proof.Proof.RefValue
import proofs.«169628_j58085137711397_2_alg».proof.Proof.ScoresRef
import Idealize.ShloMosaic.Adequacy
import Idealize.ShloMosaic.Init

noncomputable section

namespace Cert.Proof

open Idealize.ShloMosaic Idealize.SL.Sem

/-- The kernel at the word level runs to its end and leaves its four argument arrays as launched. -/
theorem frame_p : Cert.frame_Kernel := fun m ρ _ => Cert.Kernel.Hand.frame_args m ρ

/-- So does the kernel over the extended reals: the run that also names its result. -/
theorem frame_pi : Cert.frame_KernelIdeal := fun m ρ _ =>
  (θ_run Cert.KernelIdeal.defs _ _).mono (fun _ h c => (h c).2) (Cert.KernelIdeal.Hand.run_value m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both results are the tree aggregation of the scores of the features, the weights and the bias, and of the leaf
    energies: the kernel's scores array holds them block by block, the reference's matrix product row by row. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_tree (F := Ideal) m' ρ')
  rw [Cert.Scores.ref_scores]
  exact congr (congrArg Cert.KernelIdeal.Tree.tree
    (congr (congr (congrArg Cert.Scores.score (hagree c).1) (hagree c).2.2.1) (hagree c).2.2.2)) (hagree c).2.1

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
